-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S448x256 : Shape := ⟨2, ![448, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S448x256 : S_.BroadcastsInDim S448x256 (![] : Fin 0 → Fin S448x256.rank)
  reducesTo_S448x256_S_d0_1 : S448x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg8 : FVec F S64 .f32) (main_arg9 : FVec F S64 .f32) (main_arg10 : FVec F S448x256 .f32) (main_arg11 : FVec F S256 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S448x256 .f32 := Host.absf main_arg10
  let main_cst_16 : FVec F S_ .f32 := constant S_ .f32 0x7F800000#32
  let main_v45 : FVec F S448x256 .f32 := broadcastInDim S448x256 ![] bcast_S_S448x256 main_cst_16
  let main_v46 : IVec S448x256 1 := cmpf .olt main_v44 main_v45
  let main_c_17 : IVec S_ 1 := constantI S_ 1 1#1
  let main_v47 : IVec S_ 1 := (fun x v => Host.reduce IntOp.andi x v reducesTo_S448x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg5 : FVec F S128 .f32) (main_arg6 : FVec F S128x64 .f32) (main_arg7 : FVec F S64 .f32) (main_arg8 : FVec F S64 .f32) (main_arg9 : FVec F S64 .f32) (main_arg10 : FVec F S448x256 .f32) (main_arg11 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x256 .f32) (main_arg1 : IVec S2x1600000 32) (main_arg2 : FVec F S256x128 .f32) (main_arg3 : FVec F S128 .f32) (main_arg4 : FVec F S128 .f32) (main_arg5 : FVec F S128 .f32) (main_arg6 : FVec F S128x64 .f32) (main_arg7 : FVec F S64 .f32) (main_arg8 : FVec F S64 .f32) (main_arg9 : FVec F S64 .f32) (main_arg10 : FVec F S448x256 .f32) (main_arg11 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S448x256 : Shape := ⟨2, ![448, 256]⟩
abbrev S256 : Shape := ⟨1, ![256]⟩
abbrev S1x1600000 : Shape := ⟨2, ![1, 1600000]⟩
abbrev S1600000 : Shape := ⟨1, ![1600000]⟩
abbrev S100000x128 : Shape := ⟨2, ![100000, 128]⟩
abbrev S2000x256 : Shape := ⟨2, ![2000, 256]⟩
abbrev S2000x128 : Shape := ⟨2, ![2000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩
abbrev S100000x448 : Shape := ⟨2, ![100000, 448]⟩
abbrev S1x256 : Shape := ⟨2, ![1, 256]⟩
abbrev S2000x448 : Shape := ⟨2, ![2000, 448]⟩

abbrev nBuf : Space → Nat
  | .hbm => 185
  | .vmem => 28
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128, .f32⟩
  | 5 => ⟨S128, .f32⟩
  | 6 => ⟨S128x64, .f32⟩
  | 7 => ⟨S64, .f32⟩
  | 8 => ⟨S64, .f32⟩
  | 9 => ⟨S64, .f32⟩
  | 10 => ⟨S448x256, .f32⟩
  | 11 => ⟨S256, .f32⟩
  | 12 => ⟨S1x1600000, .i32⟩
  | 13 => ⟨S1600000, .i32⟩
  | 14 => ⟨S1x1600000, .i32⟩
  | 15 => ⟨S1600000, .i32⟩
  | 16 => ⟨S100000x128, .f32⟩
  | 17 => ⟨S100000, .i32⟩
  | 18 => ⟨S1700000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S128, .f32⟩
  | 77 => ⟨S_, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S100000x128, .f32⟩
  | 84 => ⟨S_, .f32⟩
  | 85 => ⟨S128, .f32⟩
  | 86 => ⟨S_, .f32⟩
  | 87 => ⟨S128, .f32⟩
  | 88 => ⟨S128, .f32⟩
  | 89 => ⟨S_, .f32⟩
  | 90 => ⟨S128, .f32⟩
  | 91 => ⟨S128, .f32⟩
  | 92 => ⟨S128, .f32⟩
  | 93 => ⟨S128, .f32⟩
  | 94 => ⟨S128, .f32⟩
  | 95 => ⟨S128, .f32⟩
  | 96 => ⟨S1x128, .f32⟩
  | 97 => ⟨S1x128, .f32⟩
  | 98 => ⟨S100000x128, .f32⟩
  | 99 => ⟨S100000x64, .f32⟩
  | 100 => ⟨S100000, .i32⟩
  | 101 => ⟨S1700000, .i32⟩
  | 102 => ⟨S1700000, .i32⟩
  | 103 => ⟨S_, .f32⟩
  | 104 => ⟨S1700000, .f32⟩
  | 105 => ⟨S_, .f32⟩
  | 106 => ⟨S100000, .f32⟩
  | 107 => ⟨S1700000x1, .i32⟩
  | 108 => ⟨S100000, .f32⟩
  | 109 => ⟨S_, .f32⟩
  | 110 => ⟨S100000, .f32⟩
  | 111 => ⟨S100000, .i1⟩
  | 112 => ⟨S_, .f32⟩
  | 113 => ⟨S100000, .f32⟩
  | 114 => ⟨S100000, .f32⟩
  | 115 => ⟨S100000, .f32⟩
  | 116 => ⟨S_, .f32⟩
  | 117 => ⟨S_, .f32⟩
  | 118 => ⟨S100000, .f32⟩
  | 119 => ⟨S100000, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x256, .f32⟩

abbrev hbmTy0_1 (i : Nat) : BufTy := match i % 128 with
  | 0 => ⟨S1700000, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000, .f32⟩
  | 10 => ⟨S1700000, .f32⟩
  | 11 => ⟨S_, .i32⟩
  | 12 => ⟨S1700000, .i32⟩
  | 13 => ⟨S1700000, .i1⟩
  | 14 => ⟨S_, .i32⟩
  | 15 => ⟨S1700000, .i32⟩
  | 16 => ⟨S1700000, .i32⟩
  | 17 => ⟨S1700000, .i32⟩
  | 18 => ⟨S1700000x1, .i32⟩
  | 19 => ⟨S1700000x64, .f32⟩
  | 20 => ⟨S1700000x1, .f32⟩
  | 21 => ⟨S1700000x64, .f32⟩
  | 22 => ⟨S1700000x64, .f32⟩
  | 23 => ⟨S_, .f32⟩
  | 24 => ⟨S100000x64, .f32⟩
  | 25 => ⟨S1700000x1, .i32⟩
  | 26 => ⟨S100000x64, .f32⟩
  | 27 => ⟨S1x64, .f32⟩
  | 28 => ⟨S100000x64, .f32⟩
  | 29 => ⟨S100000x64, .f32⟩
  | 30 => ⟨S_, .f32⟩
  | 31 => ⟨S64, .f32⟩
  | 32 => ⟨S_, .f32⟩
  | 33 => ⟨S64, .f32⟩
  | 34 => ⟨S64, .f32⟩
  | 35 => ⟨S1x64, .f32⟩
  | 36 => ⟨S100000x64, .f32⟩
  | 37 => ⟨S100000x64, .f32⟩
  | 38 => ⟨S100000x64, .f32⟩
  | 39 => ⟨S_, .f32⟩
  | 40 => ⟨S64, .f32⟩
  | 41 => ⟨S_, .f32⟩
  | 42 => ⟨S64, .f32⟩
  | 43 => ⟨S64, .f32⟩
  | 44 => ⟨S_, .f32⟩
  | 45 => ⟨S64, .f32⟩
  | 46 => ⟨S64, .f32⟩
  | 47 => ⟨S64, .f32⟩
  | 48 => ⟨S64, .f32⟩
  | 49 => ⟨S64, .f32⟩
  | 50 => ⟨S64, .f32⟩
  | 51 => ⟨S1x64, .f32⟩
  | 52 => ⟨S1x64, .f32⟩
  | 53 => ⟨S100000x64, .f32⟩
  | 54 => ⟨S100000x448, .f32⟩
  | 55 => ⟨S1x256, .f32⟩
  | 56 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S1x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | .local _ .vmem, ⟨22, _⟩ => ⟨S2000x448, .f32⟩
  | .local _ .vmem, ⟨23, _⟩ => ⟨S2000x448, .f32⟩
  | .local _ .vmem, ⟨24, _⟩ => ⟨S448x256, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_cst_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_cst_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_17 : Ref sig .tc := ⟨.hbm, 109, rfl⟩
abbrev main_v76 : Ref sig .tc := ⟨.hbm, 110, rfl⟩
abbrev main_v77 : Ref sig .tc := ⟨.hbm, 111, rfl⟩
abbrev main_cst_18 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_19 : Ref sig .tc := ⟨.hbm, 116, rfl⟩
abbrev main_call1_v0 : Ref sig .tc := ⟨.hbm, 117, rfl⟩
abbrev main_call1_v1 : Ref sig .tc := ⟨.hbm, 118, rfl⟩
abbrev main_v81 : Ref sig .tc := ⟨.hbm, 119, rfl⟩
abbrev main_c_20 : Ref sig .tc := ⟨.hbm, 120, rfl⟩
abbrev main_v82 : Ref sig .tc := ⟨.hbm, 121, rfl⟩
abbrev main_v83 : Ref sig .tc := ⟨.hbm, 122, rfl⟩
abbrev main_c_21 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_22 : Ref sig .tc := ⟨.hbm, 129, rfl⟩
abbrev main_v89 : Ref sig .tc := ⟨.hbm, 130, rfl⟩
abbrev main_v90 : Ref sig .tc := ⟨.hbm, 131, rfl⟩
abbrev main_c_23 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_c_24 : Ref sig .tc := ⟨.hbm, 139, rfl⟩
abbrev main_v97 : Ref sig .tc := ⟨.hbm, 140, rfl⟩
abbrev main_v98 : Ref sig .tc := ⟨.hbm, 141, rfl⟩
abbrev main_c_25 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_26 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_27 : Ref sig .tc := ⟨.hbm, 158, rfl⟩
abbrev main_v113 : Ref sig .tc := ⟨.hbm, 159, rfl⟩
abbrev main_cst_28 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_29 : Ref sig .tc := ⟨.hbm, 167, rfl⟩
abbrev main_v120 : Ref sig .tc := ⟨.hbm, 168, rfl⟩
abbrev main_cst_30 : Ref sig .tc := ⟨.hbm, 169, rfl⟩
abbrev main_v121 : Ref sig .tc := ⟨.hbm, 170, rfl⟩
abbrev main_v122 : Ref sig .tc := ⟨.hbm, 171, rfl⟩
abbrev main_cst_31 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x448 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S448x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  concatenates_S100000x256_S100000x128_S100000x64_S100000x448_d1 : Shape.Concatenates [S100000x256, S100000x128, S100000x64] S100000x448 1
  shapeCasts_S256_S1x256 : S256.ShapeCasts S1x256
  inb_S2000x448_S2000x448_0_0 : ∀ a, (![0, 0] : Fin 2 → Nat) a + S2000x448.size a ≤ S2000x448.size a
  h_S2000x448 : 0 < S2000x448.numel
  shapeCasts_S2000x448_S2000x448 : S2000x448.ShapeCasts S2000x448
  inb_S448x256_S448x256_0_0 : ∀ a, (![0, 0] : Fin 2 → Nat) a + S448x256.size a ≤ S448x256.size a
  h_S448x256 : 0 < S448x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  dot_S2000x256_S256x128_S2000x128_1_0_0_1_n_n_wf : DotDims.WF S2000x256 S256x128 S2000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x448_S448x256_S2000x256_1_0_0_1_n_n_wf : DotDims.WF S2000x448 S448x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x448.size a ≤ S100000x448.size a
  hwx4_0 : ∀ i : grid4.Coords, EltTy.bits .f32 = 32 ∨ (Rect.block (s := S100000x448) S2000x448.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S448x256.size a ≤ S448x256.size a
  hwx4_1 : ∀ i : grid4.Coords, EltTy.bits .f32 = 32 ∨ (Rect.block (s := S448x256) S448x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S100000x256.size a
  hwx4_3 : ∀ i : grid4.Coords, EltTy.bits .f32 = 32 ∨ (Rect.block (s := S100000x256) S2000x256.size (cc4_transform_3 i) (hinb4_3 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x448_S448x256_S2000x256_1_0_0_1_n_n : DotDims S2000x448 S448x256 S2000x256 where
  lhsContracting := [1]
  rhsContracting := [0]
  lhsNonContracting := [0]
  rhsNonContracting := [1]
  lhsBatch := []
  rhsBatch := []
  wf := dot_S2000x448_S448x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v66) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v67) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v112) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v129) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v130) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v131) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v132) S2000x448.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S448x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v133) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v134) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S448x256 : Shape := ⟨2, ![448, 256]⟩
abbrev S256 : Shape := ⟨1, ![256]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x448 : Shape := ⟨2, ![100000, 448]⟩
abbrev S1x256 : Shape := ⟨2, ![1, 256]⟩

abbrev nBuf : Space → Nat
  | .hbm => 208
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128, .f32⟩
  | 5 => ⟨S128, .f32⟩
  | 6 => ⟨S128x64, .f32⟩
  | 7 => ⟨S64, .f32⟩
  | 8 => ⟨S64, .f32⟩
  | 9 => ⟨S64, .f32⟩
  | 10 => ⟨S448x256, .f32⟩
  | 11 => ⟨S256, .f32⟩
  | 12 => ⟨S1x1600000, .i32⟩
  | 13 => ⟨S1600000, .i32⟩
  | 14 => ⟨S1x1600000, .i32⟩
  | 15 => ⟨S1600000, .i32⟩
  | 16 => ⟨S100000x128, .f32⟩
  | 17 => ⟨S100000, .i32⟩
  | 18 => ⟨S1700000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S128, .f32⟩
  | 77 => ⟨S_, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S100000x128, .f32⟩
  | 84 => ⟨S_, .f32⟩
  | 85 => ⟨S128, .f32⟩
  | 86 => ⟨S_, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S100000x64, .f32⟩
  | 109 => ⟨S100000, .i32⟩
  | 110 => ⟨S1700000, .i32⟩
  | 111 => ⟨S1700000, .i32⟩
  | 112 => ⟨S_, .f32⟩
  | 113 => ⟨S1700000, .f32⟩
  | 114 => ⟨S_, .f32⟩
  | 115 => ⟨S100000, .f32⟩
  | 116 => ⟨S1700000x1, .i32⟩
  | 117 => ⟨S100000, .f32⟩
  | 118 => ⟨S_, .f32⟩
  | 119 => ⟨S100000, .f32⟩
  | 120 => ⟨S100000, .i1⟩
  | 121 => ⟨S_, .f32⟩
  | 122 => ⟨S100000, .f32⟩
  | 123 => ⟨S100000, .f32⟩
  | 124 => ⟨S100000, .f32⟩
  | 125 => ⟨S_, .f32⟩
  | 126 => ⟨S_, .f32⟩
  | 127 => ⟨S100000, .f32⟩
  | _ => ⟨S100000x256, .f32⟩

abbrev hbmTy0_1 (i : Nat) : BufTy := match i % 128 with
  | 0 => ⟨S100000, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000, .f32⟩
  | 19 => ⟨S1700000, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S1700000x64, .f32⟩
  | 29 => ⟨S1700000x1, .f32⟩
  | 30 => ⟨S1700000x64, .f32⟩
  | 31 => ⟨S1700000x64, .f32⟩
  | 32 => ⟨S_, .f32⟩
  | 33 => ⟨S100000x64, .f32⟩
  | 34 => ⟨S1700000x1, .i32⟩
  | 35 => ⟨S100000x64, .f32⟩
  | 36 => ⟨S1x64, .f32⟩
  | 37 => ⟨S100000x64, .f32⟩
  | 38 => ⟨S100000x64, .f32⟩
  | 39 => ⟨S_, .f32⟩
  | 40 => ⟨S64, .f32⟩
  | 41 => ⟨S_, .f32⟩
  | 42 => ⟨S64, .f32⟩
  | 43 => ⟨S64, .f32⟩
  | 44 => ⟨S1x64, .f32⟩
  | 45 => ⟨S100000x64, .f32⟩
  | 46 => ⟨S100000x64, .f32⟩
  | 47 => ⟨S100000x64, .f32⟩
  | 48 => ⟨S_, .f32⟩
  | 49 => ⟨S64, .f32⟩
  | 50 => ⟨S_, .f32⟩
  | 51 => ⟨S64, .f32⟩
  | 52 => ⟨S64, .f32⟩
  | 53 => ⟨S1x64, .f32⟩
  | 54 => ⟨S100000x64, .f32⟩
  | 55 => ⟨S100000x64, .f32⟩
  | 56 => ⟨S_, .f32⟩
  | 57 => ⟨S64, .f32⟩
  | 58 => ⟨S64, .f32⟩
  | 59 => ⟨S64, .f32⟩
  | 60 => ⟨S1x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x448, .f32⟩
  | 73 => ⟨S100000x256, .f32⟩
  | 74 => ⟨S1x256, .f32⟩
  | 75 => ⟨S100000x256, .f32⟩
  | 76 => ⟨S100000x256, .f32⟩
  | 77 => ⟨S_, .f32⟩
  | 78 => ⟨S100000x256, .f32⟩
  | 79 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call1_cst : Ref sig .tc := ⟨.hbm, 105, rfl⟩
abbrev main_call1_v0 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_cst_16 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_17 : Ref sig .tc := ⟨.hbm, 118, rfl⟩
abbrev main_v83 : Ref sig .tc := ⟨.hbm, 119, rfl⟩
abbrev main_v84 : Ref sig .tc := ⟨.hbm, 120, rfl⟩
abbrev main_cst_18 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_19 : Ref sig .tc := ⟨.hbm, 125, rfl⟩
abbrev main_call2_v0 : Ref sig .tc := ⟨.hbm, 126, rfl⟩
abbrev main_call2_v1 : Ref sig .tc := ⟨.hbm, 127, rfl⟩
abbrev main_v88 : Ref sig .tc := ⟨.hbm, 128, rfl⟩
abbrev main_c_20 : Ref sig .tc := ⟨.hbm, 129, rfl⟩
abbrev main_v89 : Ref sig .tc := ⟨.hbm, 130, rfl⟩
abbrev main_v90 : Ref sig .tc := ⟨.hbm, 131, rfl⟩
abbrev main_c_21 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_c_22 : Ref sig .tc := ⟨.hbm, 138, rfl⟩
abbrev main_v96 : Ref sig .tc := ⟨.hbm, 139, rfl⟩
abbrev main_v97 : Ref sig .tc := ⟨.hbm, 140, rfl⟩
abbrev main_c_23 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_c_24 : Ref sig .tc := ⟨.hbm, 148, rfl⟩
abbrev main_v104 : Ref sig .tc := ⟨.hbm, 149, rfl⟩
abbrev main_v105 : Ref sig .tc := ⟨.hbm, 150, rfl⟩
abbrev main_c_25 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_26 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_27 : Ref sig .tc := ⟨.hbm, 167, rfl⟩
abbrev main_v120 : Ref sig .tc := ⟨.hbm, 168, rfl⟩
abbrev main_cst_28 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_29 : Ref sig .tc := ⟨.hbm, 176, rfl⟩
abbrev main_v127 : Ref sig .tc := ⟨.hbm, 177, rfl⟩
abbrev main_cst_30 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_31 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_call3_cst : Ref sig .tc := ⟨.hbm, 197, rfl⟩
abbrev main_call3_v0 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_call4_cst : Ref sig .tc := ⟨.hbm, 205, rfl⟩
abbrev main_call4_v0 : Ref sig .tc := ⟨.hbm, 206, rfl⟩
abbrev main_v151 : Ref sig .tc := ⟨.hbm, 207, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  concatenates_S100000x256_S100000x128_S100000x64_S100000x448_d1 : Shape.Concatenates [S100000x256, S100000x128, S100000x64] S100000x448 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x448_S448x256_S100000x256_1_0_0_1_n_n_wf : DotDims.WF S100000x448 S448x256 S100000x256 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x448_S448x256_S100000x256_1_0_0_1_n_n : DotDims S100000x448 S448x256 S100000x256 where
  lhsContracting := [1]
  rhsContracting := [0]
  lhsNonContracting := [0]
  rhsNonContracting := [1]
  lhsBatch := []
  rhsBatch := []
  wf := dot_S100000x448_S448x256_S100000x256_1_0_0_1_n_n_wf

class Facts : Prop extends Facts₀ where

variable [Facts]
-- ==== Proof.K.Region0.lean ====
/- The per-region half of the frame argument for region 0 of @main (the call of `cc0__matmul_kernel`), at any float
   instance `F` and at a PARAMETER `V`, the TensorCore's buffer contents when the region is entered: each window's block
   at a grid point, what the body leaves in the output window's staging buffer as a function of the input blocks, the
   body's separation-logic triple, the pipeline's proof data, and the body obligation at every grid point. -/
import proofs.«178479_j10943576671010_1_alg».proof.Proof.Gen.Kernel.Launch
import proofs.«178479_j10943576671010_1_alg».proof.Proof.Gen.Kernel.Skeleton
import proofs.«178479_j10943576671010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-row axis recurses once per coordinate of that axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place: where the window is not fetched its block index has
    not moved since the last fetch, and the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place: where the window is not fetched its block index has
    not moved since the last fetch, and the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev l0_0 : Rect S2000x256 := Rect.unit (s := S2000x256) ![0, 0] S2000x256.size inb_S2000x256_S2000x256_0_0
abbrev l0_1 : Rect S256x128 := Rect.unit (s := S256x128) ![0, 0] S256x128.size inb_S256x128_S256x128_0_0
abbrev r0_0 : Rect S2000x128 := Rect.unit (s := S2000x128) ![0, 0] S2000x128.size inb_S2000x128_S2000x128_0_0

/-! ## What the body leaves in the output window's buffer -/

/-- Window 2's staging buffer after the body, as a function of the input windows' blocks: its one store, over the whole
    buffer, of the payload computed from the whole-buffer loads of the inputs. -/
def out0_2 (x0 : Vec F S2000x256 .f32) (x1 : Vec F S256x128 .f32) : Vec F S2000x128 .f32 :=
  View.canon [⟨r0_0, k0_pay1 (View.ld x0 l0_0) (View.ld x1 l0_1)⟩]

/-- The store's rectangle is the whole buffer, so it covers every index. -/
theorem cover0_2 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 1000000 in
/-- The kernel body on whole staging memrefs, the inputs' at contents `xW` and the output's at anything, runs to the
    continuation holding the inputs' as they were and the output's at `out0_2` of the inputs'. The body also loads
    the output buffer once before storing to it; the loaded value is not used. -/
theorem sound_kernel0 (c : Dev nD) (E : Set ℕ) (i : grid0.Coords) (arg1 : Memref sig .tc .vmem S2000x256 .f32) (harg1 : arg1.IsWhole) (arg2 : Memref sig .tc .vmem S256x128 .f32) (harg2 : arg2.IsWhole) (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant leaves the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Region1.lean ====
/- The per-region half of the frame argument for region 1 of @main (the call of `cc1__bn_relu_kernel`), at any float
   instance `F` and at a PARAMETER `V`, the TensorCore's buffer contents when the region is entered: each window's block
   at a grid point, what the body leaves in the output window's staging buffer as a function of the input blocks, the
   body's separation-logic triple, the pipeline's proof data, and the body obligation at every grid point. -/
import proofs.«178479_j10943576671010_1_alg».proof.Proof.Gen.Kernel.Launch
import proofs.«178479_j10943576671010_1_alg».proof.Proof.Gen.Kernel.Skeleton
import proofs.«178479_j10943576671010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-row axis recurses once per coordinate of that axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: where the window is not fetched its block index has
    not moved since the last fetch, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: where the window is not fetched its block index has
    not moved since the last fetch, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: where the window is not fetched its block index has
    not moved since the last fetch, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev l1_0 : Rect S2000x128 := Rect.unit (s := S2000x128) ![0, 0] S2000x128.size inb_S2000x128_S2000x128_0_0
abbrev l1_1 : Rect S1x128 := Rect.unit (s := S1x128) ![0, 0] S1x128.size inb_S1x128_S1x128_0_0
abbrev l1_2 : Rect S1x128 := Rect.unit (s := S1x128) ![0, 0] S1x128.size inb_S1x128_S1x128_0_0
abbrev r1_0 : Rect S2000x128 := Rect.unit (s := S2000x128) ![0, 0] S2000x128.size inb_S2000x128_S2000x128_0_0

/-! ## What the body leaves in the output window's buffer -/

/-- Window 3's staging buffer after the body, as a function of the input windows' blocks: its one store, over the whole
    buffer, of the payload computed from the whole-buffer loads of the inputs. -/
def out1_3 (x0 : Vec F S2000x128 .f32) (x1 : Vec F S1x128 .f32) (x2 : Vec F S1x128 .f32) : Vec F S2000x128 .f32 :=
  View.canon [⟨r1_0, k1_pay1 (View.ld x0 l1_0) (View.ld x1 l1_1) (View.ld x2 l1_2)⟩]

/-- The store's rectangle is the whole buffer, so it covers every index. -/
theorem cover1_3 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The kernel body on whole staging memrefs, the inputs' at contents `xW` and the output's at anything, runs to the
    continuation holding the inputs' as they were and the output's at `out1_3` of the inputs'. The body also loads
    the output buffer once before storing to it; the loaded value is not used. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bn_relu_kernel i arg1 harg1 arg2 harg2 arg3 harg3 arg4 harg4) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant leaves the scoped
    rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Region2.lean ====
/- The per-region half of the frame argument for region 2 of @main (the call of `cc2__matmul_kernel`), at any float
   instance `F` and at a PARAMETER `V`, the TensorCore's buffer contents when the region is entered: each window's block
   at a grid point, what the body leaves in the output window's staging buffer as a function of the input blocks, the
   body's separation-logic triple, the pipeline's proof data, and the body obligation at every grid point. -/
import proofs.«178479_j10943576671010_1_alg».proof.Proof.Gen.Kernel.Launch
import proofs.«178479_j10943576671010_1_alg».proof.Proof.Gen.Kernel.Skeleton
import proofs.«178479_j10943576671010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-row axis recurses once per coordinate of that axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: where the window is not fetched its block index has
    not moved since the last fetch, and the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place: where the window is not fetched its block index has
    not moved since the last fetch, and the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole buffer -/

abbrev l2_0 : Rect S2000x128 := Rect.unit (s := S2000x128) ![0, 0] S2000x128.size inb_S2000x128_S2000x128_0_0
abbrev l2_1 : Rect S128x64 := Rect.unit (s := S128x64) ![0, 0] S128x64.size inb_S128x64_S128x64_0_0
abbrev r2_0 : Rect S2000x64 := Rect.unit (s := S2000x64) ![0, 0] S2000x64.size inb_S2000x64_S2000x64_0_0

/-! ## What the body leaves in the output window's buffer -/

/-- Window 2's staging buffer after the body, as a function of the input windows' blocks: its one store, over the whole
    buffer, of the payload computed from the whole-buffer loads of the inputs. -/
def out2_2 (x0 : Vec F S2000x128 .f32) (x1 : Vec F S128x64 .f32) : Vec F S2000x64 .f32 :=
  View.canon [⟨r2_0, k2_pay1 (View.ld x0 l2_0) (View.ld x1 l2_1)⟩]

/-- The store's rectangle is the whole buffer, so it covers every index. -/
theorem cover2_2 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The body's triple -/

set_option maxHeartbeats 1000000 in
/-- The kernel body on whole staging memrefs, the inputs' at contents `xW` and the output's at anything, runs to the
    continuation holding the inputs' as they were and the output's at `out2_2` of the inputs'. The body also loads
    the output buffer once before storing to it; the loaded value is not used. -/
theorem sound_kernel2 (c : Dev nD) (E : Set ℕ) (i : grid2.Coords) (arg1 : Memref sig .tc .vmem S2000x128 .f32) (harg1 : arg1.IsWhole) (arg2 : Memref sig .tc .vmem S128x64 .f32) (harg2 : arg2.IsWhole) (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point `t`
    each input's buffer at its block and the output's at `out2_2` of the input blocks; the invariant leaves the scoped
    rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Region3.lean ====
/- The per-region half of the frame argument for region 3 of @main (the call of `cc3__bn_relu_kernel`), at any float
   instance `F` and at a PARAMETER `V`, the TensorCore's buffer contents when the region is entered: each window's block
   at a grid point, what the body leaves in the output window's staging buffer as a function of the input blocks, the
   body's separation-logic triple, the pipeline's proof data, and the body obligation at every grid point. -/
import proofs.«178479_j10943576671010_1_alg».proof.Proof.Gen.Kernel.Launch
import proofs.«178479_j10943576671010_1_alg».proof.Proof.Gen.Kernel.Skeleton
import proofs.«178479_j10943576671010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-row axis recurses once per coordinate of that axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place: where the window is not fetched its block index has
    not moved since the last fetch, and the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s and whose body leaves the block in place: where the window is not fetched its block index has
    not moved since the last fetch, and the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is `V`'s and whose body leaves the block in place: where the window is not fetched its block index has
    not moved since the last fetch, and the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole buffer -/

abbrev l3_0 : Rect S2000x64 := Rect.unit (s := S2000x64) ![0, 0] S2000x64.size inb_S2000x64_S2000x64_0_0
abbrev l3_1 : Rect S1x64 := Rect.unit (s := S1x64) ![0, 0] S1x64.size inb_S1x64_S1x64_0_0
abbrev l3_2 : Rect S1x64 := Rect.unit (s := S1x64) ![0, 0] S1x64.size inb_S1x64_S1x64_0_0
abbrev r3_0 : Rect S2000x64 := Rect.unit (s := S2000x64) ![0, 0] S2000x64.size inb_S2000x64_S2000x64_0_0

/-! ## What the body leaves in the output window's buffer -/

/-- Window 3's staging buffer after the body, as a function of the input windows' blocks: its one store, over the whole
    buffer, of the payload computed from the whole-buffer loads of the inputs. -/
def out3_3 (x0 : Vec F S2000x64 .f32) (x1 : Vec F S1x64 .f32) (x2 : Vec F S1x64 .f32) : Vec F S2000x64 .f32 :=
  View.canon [⟨r3_0, k3_pay1 (View.ld x0 l3_0) (View.ld x1 l3_1) (View.ld x2 l3_2)⟩]

/-- The store's rectangle is the whole buffer, so it covers every index. -/
theorem cover3_3 (p0 : Vec F S2000x64 .f32) (y : S2000x64.Idx) :
    ∃ pc ∈ ([⟨r3_0, p0⟩] : List (View.Piece (Elt F) S2000x64 .f32)), y ∈ pc.1.set :=
  View.cover_of_tiled [⟨r3_0, p0⟩] S2000x64.size (by rfl) y

/-! ## The body's triple -/

set_option maxHeartbeats 1000000 in
/-- The kernel body on whole staging memrefs, the inputs' at contents `xW` and the output's at anything, runs to the
    continuation holding the inputs' as they were and the output's at `out3_3` of the inputs'. The body also loads
    the output buffer once before storing to it; the loaded value is not used. -/
theorem sound_kernel3 (c : Dev nD) (E : Set ℕ) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S2000x64 .f32) (harg4 : arg4.IsWhole)
    (x0 : Vec F S2000x64 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__bn_relu_kernel i arg1 harg1 arg2 harg2 arg3 harg3 arg4 harg4) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer at its block and the output's at `out3_3` of the input blocks; the invariant leaves the scoped
    rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Region4.lean ====
/- The per-region half of the frame argument for region 4 of @main (the call of `cc4__matmul_bias_relu_kernel`), at any float
   instance `F` and at a PARAMETER `V`, the TensorCore's buffer contents when the region is entered: each window's block
   at a grid point, what the body leaves in the output window's staging buffer as a function of the input blocks, the
   body's separation-logic triple, the pipeline's proof data, and the body obligation at every grid point. -/
import proofs.«178479_j10943576671010_1_alg».proof.Proof.Gen.Kernel.Launch
import proofs.«178479_j10943576671010_1_alg».proof.Proof.Gen.Kernel.Skeleton
import proofs.«178479_j10943576671010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-row axis recurses once per coordinate of that axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is `V`'s and whose body leaves the block in place: where the window is not fetched its block index has
    not moved since the last fetch, and the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is `V`'s and whose body leaves the block in place: where the window is not fetched its block index has
    not moved since the last fetch, and the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is `V`'s and whose body leaves the block in place: where the window is not fetched its block index has
    not moved since the last fetch, and the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each a whole buffer -/

abbrev l4_0 : Rect S2000x448 := Rect.unit (s := S2000x448) ![0, 0] S2000x448.size inb_S2000x448_S2000x448_0_0
abbrev l4_1 : Rect S448x256 := Rect.unit (s := S448x256) ![0, 0] S448x256.size inb_S448x256_S448x256_0_0
abbrev l4_2 : Rect S1x256 := Rect.unit (s := S1x256) ![0, 0] S1x256.size inb_S1x256_S1x256_0_0
abbrev r4_0 : Rect S2000x256 := Rect.unit (s := S2000x256) ![0, 0] S2000x256.size inb_S2000x256_S2000x256_0_0

/-! ## What the body leaves in the output window's buffer -/

/-- Window 3's staging buffer after the body, as a function of the input windows' blocks: its one store, over the whole
    buffer, of the payload computed from the whole-buffer loads of the inputs. -/
def out4_3 (x0 : Vec F S2000x448 .f32) (x1 : Vec F S448x256 .f32) (x2 : Vec F S1x256 .f32) : Vec F S2000x256 .f32 :=
  View.canon [⟨r4_0, k4_pay1 (View.ld x0 l4_0) (View.ld x1 l4_1) (View.ld x2 l4_2)⟩]

/-- The store's rectangle is the whole buffer, so it covers every index. -/
theorem cover4_3 (p0 : Vec F S2000x256 .f32) (y : S2000x256.Idx) :
    ∃ pc ∈ ([⟨r4_0, p0⟩] : List (View.Piece (Elt F) S2000x256 .f32)), y ∈ pc.1.set :=
  View.cover_of_tiled [⟨r4_0, p0⟩] S2000x256.size (by rfl) y

/-! ## The body's triple -/

set_option maxHeartbeats 1000000 in
/-- The kernel body on whole staging memrefs, the inputs' at contents `xW` and the output's at anything, runs to the
    continuation holding the inputs' as they were and the output's at `out4_3` of the inputs'. The body also loads
    the output buffer once before storing to it; the loaded value is not used. -/
theorem sound_kernel4 (c : Dev nD) (E : Set ℕ) (i : grid4.Coords) (arg1 : Memref sig .tc .vmem S2000x448 .f32) (harg1 : arg1.IsWhole) (arg2 : Memref sig .tc .vmem S448x256 .f32) (harg2 : arg2.IsWhole) (arg3 : Memref sig .tc .vmem S1x256 .f32) (harg3 : arg3.IsWhole) (arg4 : Memref sig .tc .vmem S2000x256 .f32) (harg4 : arg4.IsWhole)
    (x0 : Vec F S2000x448 .f32) (x1 : Vec F S448x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__matmul_bias_relu_kernel i arg1 harg1 arg2 harg2 arg3 harg3 arg4 harg4) K := by
  simp only [cc4__matmul_bias_relu_kernel_eq_skeleton]; unfold cc4__matmul_bias_relu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at point `t`
    each input's buffer at its block and the output's at `out4_3` of the input blocks; the invariant leaves the scoped
    rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.K.Run.lean ====
import proofs.«178479_j10943576671010_1_alg».proof.Proof.K.Region0
import proofs.«178479_j10943576671010_1_alg».proof.Proof.K.Region1
import proofs.«178479_j10943576671010_1_alg».proof.Proof.K.Region2
import proofs.«178479_j10943576671010_1_alg».proof.Proof.K.Region3
import proofs.«178479_j10943576671010_1_alg».proof.Proof.K.Region4
import proofs.«178479_j10943576671010_1_alg».proof.Proof.Gen.Kernel.Regions

/-!
# The run of the five-region program

@main is thirteen items: stretches of host operations and five kernel regions.  Between two items every unscoped
buffer of a core is held at a known valuation: the launch memory, then `StableHlo.after` each stretch, and across a
region the region's arrays at what its pipeline leaves (the input arrays as entered, the output array at the fold of
its write-backs) with every other buffer as entered.  Each region is a segment over that thread state; the launch
theorem for a list of segments then gives: every weakly fair execution terminates, nothing faults, and every unscoped
buffer ends at the last valuation.  The argument arrays are written by no stretch and are output of no region, so the
last valuation has them as launched.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the stretch `hostOps0`. -/
abbrev W1 : Dev nD → Valuation τ sig (Elt F) := fun c => StableHlo.after hostOps0 (W0 m ρ c)
/-- The same read at the TensorCore's references. -/
abbrev X1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (X1 m ρ) c).arrAt w cfg0.N
/-- The same read at the TensorCore's references. -/
abbrev X2 : (c : Dev nD) → (b : Ref sig .tc) → Buf (Elt F) ((c : Thread nD τ).loc b) := fun c b => W2 m ρ c b
/-- After the stretch `hostOps1`. -/
abbrev W3 : Dev nD → Valuation τ sig (Elt F) := fun c => StableHlo.after hostOps1 (W2 m ρ c)
/-- After the stretch `hostOps1_1`. -/
abbrev W4 : Dev nD → Valuation τ sig (Elt F) := fun c => StableHlo.after hostOps1_1 (W3 m ρ c)
/-- After the stretch `hostOps1_2`. -/
abbrev W5 : Dev nD → Valuation τ sig (Elt F) := fun c => StableHlo.after hostOps1_2 (W4 m ρ c)
/-- The same read at the TensorCore's references. -/
abbrev X5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (X5 m ρ) c).arrAt w cfg1.N
/-- The same read at the TensorCore's references. -/
abbrev X6 : (c : Dev nD) → (b : Ref sig .tc) → Buf (Elt F) ((c : Thread nD τ).loc b) := fun c b => W6 m ρ c b
/-- At region 2's exit: its arrays at what the pipeline leaves, every other buffer as entered. -/
def W7 (c : Dev nD) : Valuation τ sig (Elt F) :=
  Pipeline.withArrays spec2 c (W6 m ρ c) fun w => (dat2 (X6 m ρ) c).arrAt w cfg2.N
/-- The same read at the TensorCore's references. -/
abbrev X7 : (c : Dev nD) → (b : Ref sig .tc) → Buf (Elt F) ((c : Thread nD τ).loc b) := fun c b => W7 m ρ c b
/-- After the stretch `hostOps3`. -/
abbrev W8 : Dev nD → Valuation τ sig (Elt F) := fun c => StableHlo.after hostOps3 (W7 m ρ c)
/-- After the stretch `hostOps3_1`. -/
abbrev W9 : Dev nD → Valuation τ sig (Elt F) := fun c => StableHlo.after hostOps3_1 (W8 m ρ c)
/-- After the stretch `hostOps3_2`. -/
abbrev W10 : Dev nD → Valuation τ sig (Elt F) := fun c => StableHlo.after hostOps3_2 (W9 m ρ c)
/-- The same read at the TensorCore's references. -/
abbrev X10 : (c : Dev nD) → (b : Ref sig .tc) → Buf (Elt F) ((c : Thread nD τ).loc b) := fun c b => W10 m ρ c b
/-- At region 3's exit: its arrays at what the pipeline leaves, every other buffer as entered. -/
def W11 (c : Dev nD) : Valuation τ sig (Elt F) :=
  Pipeline.withArrays spec3 c (W10 m ρ c) fun w => (dat3 (X10 m ρ) c).arrAt w cfg3.N
/-- The same read at the TensorCore's references. -/
abbrev X11 : (c : Dev nD) → (b : Ref sig .tc) → Buf (Elt F) ((c : Thread nD τ).loc b) := fun c b => W11 m ρ c b
/-- After the stretch `hostOps4`. -/
abbrev W12 : Dev nD → Valuation τ sig (Elt F) := fun c => StableHlo.after hostOps4 (W11 m ρ c)
/-- The same read at the TensorCore's references. -/
abbrev X12 : (c : Dev nD) → (b : Ref sig .tc) → Buf (Elt F) ((c : Thread nD τ).loc b) := fun c b => W12 m ρ c b
/-- At region 4's exit: its arrays at what the pipeline leaves, every other buffer as entered. -/
def W13 (c : Dev nD) : Valuation τ sig (Elt F) :=
  Pipeline.withArrays spec4 c (W12 m ρ c) fun w => (dat4 (X12 m ρ) c).arrAt w cfg4.N
/-- The same read at the TensorCore's references. -/
abbrev X13 : (c : Dev nD) → (b : Ref sig .tc) → Buf (Elt F) ((c : Thread nD τ).loc b) := fun c b => W13 m ρ c b

/-! ## What a region changes: its output array only -/

theorem W2_arr (c : Dev nD) (w : Fin cfg0.W) :
    W2 m ρ c (Proc.devRef .tc (Pipeline.arrRef spec0 w)) = (dat0 (X1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (dat0 (X1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = X1 m ρ c b :=
  fun b hb => W2_of_ne m ρ c b fun w e => hb (Finset.mem_image.mpr ⟨w, Finset.mem_univ _, e⟩)
/-- Region 0 leaves every buffer but its output array `main_v4` as it found it: an input array is read, never
    written back; any other buffer is none of its arrays. -/
theorem W2_keep (c : Dev nD) (b : Ref sig .tc) (hb : b ≠ main_v4) :
    W2 m ρ c (Proc.devRef .tc b) = W1 m ρ c (Proc.devRef .tc b) := by
  by_cases h0 : b = main_arg0
  · subst h0
    exact (W2_arr m ρ c 0).trans (((dat0 (X1 m ρ) c).arrAt_in 0 rfl _).trans (A_eq0 (X1 m ρ) c 0))
  by_cases h1 : b = main_arg2
  · subst h1
    exact (W2_arr m ρ c 1).trans (((dat0 (X1 m ρ) c).arrAt_in 1 rfl _).trans (A_eq0 (X1 m ρ) c 1))
  exact W2_of_ne m ρ c b fun w => match w with
    | ⟨0, _⟩ => fun e => h0 e.symm
    | ⟨1, _⟩ => fun e => h1 e.symm
    | ⟨2, _⟩ => fun e => hb e.symm

theorem W6_arr (c : Dev nD) (w : Fin cfg1.W) :
    W6 m ρ c (Proc.devRef .tc (Pipeline.arrRef spec1 w)) = (dat1 (X5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
theorem hF1 (c : Dev nD) (w : Fin cfg1.W) : (dat1 (X5 m ρ) c).arrAt w cfg1.N = X6 m ρ c (Pipeline.arrRef spec1 w) :=
  (W6_arr m ρ c w).symm
theorem hrest1 (c : Dev nD) : ∀ b, b ∉ Finset.univ.image (Pipeline.arrRef spec1) → X6 m ρ c b = X5 m ρ c b :=
  fun b hb => W6_of_ne m ρ c b fun w e => hb (Finset.mem_image.mpr ⟨w, Finset.mem_univ _, e⟩)
/-- Region 1 leaves every buffer but its output array `main_v67` as it found it: an input array is read, never
    written back; any other buffer is none of its arrays. -/
theorem W6_keep (c : Dev nD) (b : Ref sig .tc) (hb : b ≠ main_v67) :
    W6 m ρ c (Proc.devRef .tc b) = W5 m ρ c (Proc.devRef .tc b) := by
  by_cases h0 : b = main_v48
  · subst h0
    exact (W6_arr m ρ c 0).trans (((dat1 (X5 m ρ) c).arrAt_in 0 rfl _).trans (A_eq1 (X5 m ρ) c 0))
  by_cases h1 : b = main_v65
  · subst h1
    exact (W6_arr m ρ c 1).trans (((dat1 (X5 m ρ) c).arrAt_in 1 rfl _).trans (A_eq1 (X5 m ρ) c 1))
  by_cases h2 : b = main_v66
  · subst h2
    exact (W6_arr m ρ c 2).trans (((dat1 (X5 m ρ) c).arrAt_in 2 rfl _).trans (A_eq1 (X5 m ρ) c 2))
  exact W6_of_ne m ρ c b fun w => match w with
    | ⟨0, _⟩ => fun e => h0 e.symm
    | ⟨1, _⟩ => fun e => h1 e.symm
    | ⟨2, _⟩ => fun e => h2 e.symm
    | ⟨3, _⟩ => fun e => hb e.symm

theorem W7_arr (c : Dev nD) (w : Fin cfg2.W) :
    W7 m ρ c (Proc.devRef .tc (Pipeline.arrRef spec2 w)) = (dat2 (X6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
theorem hF2 (c : Dev nD) (w : Fin cfg2.W) : (dat2 (X6 m ρ) c).arrAt w cfg2.N = X7 m ρ c (Pipeline.arrRef spec2 w) :=
  (W7_arr m ρ c w).symm
theorem hrest2 (c : Dev nD) : ∀ b, b ∉ Finset.univ.image (Pipeline.arrRef spec2) → X7 m ρ c b = X6 m ρ c b :=
  fun b hb => W7_of_ne m ρ c b fun w e => hb (Finset.mem_image.mpr ⟨w, Finset.mem_univ _, e⟩)
/-- Region 2 leaves every buffer but its output array `main_v68` as it found it: an input array is read, never
    written back; any other buffer is none of its arrays. -/
theorem W7_keep (c : Dev nD) (b : Ref sig .tc) (hb : b ≠ main_v68) :
    W7 m ρ c (Proc.devRef .tc b) = W6 m ρ c (Proc.devRef .tc b) := by
  by_cases h0 : b = main_v67
  · subst h0
    exact (W7_arr m ρ c 0).trans (((dat2 (X6 m ρ) c).arrAt_in 0 rfl _).trans (A_eq2 (X6 m ρ) c 0))
  by_cases h1 : b = main_arg6
  · subst h1
    exact (W7_arr m ρ c 1).trans (((dat2 (X6 m ρ) c).arrAt_in 1 rfl _).trans (A_eq2 (X6 m ρ) c 1))
  exact W7_of_ne m ρ c b fun w => match w with
    | ⟨0, _⟩ => fun e => h0 e.symm
    | ⟨1, _⟩ => fun e => h1 e.symm
    | ⟨2, _⟩ => fun e => hb e.symm

theorem W11_arr (c : Dev nD) (w : Fin cfg3.W) :
    W11 m ρ c (Proc.devRef .tc (Pipeline.arrRef spec3 w)) = (dat3 (X10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
theorem hF3 (c : Dev nD) (w : Fin cfg3.W) : (dat3 (X10 m ρ) c).arrAt w cfg3.N = X11 m ρ c (Pipeline.arrRef spec3 w) :=
  (W11_arr m ρ c w).symm
theorem hrest3 (c : Dev nD) : ∀ b, b ∉ Finset.univ.image (Pipeline.arrRef spec3) → X11 m ρ c b = X10 m ρ c b :=
  fun b hb => W11_of_ne m ρ c b fun w e => hb (Finset.mem_image.mpr ⟨w, Finset.mem_univ _, e⟩)
/-- Region 3 leaves every buffer but its output array `main_v131` as it found it: an input array is read, never
    written back; any other buffer is none of its arrays. -/
theorem W11_keep (c : Dev nD) (b : Ref sig .tc) (hb : b ≠ main_v131) :
    W11 m ρ c (Proc.devRef .tc b) = W10 m ρ c (Proc.devRef .tc b) := by
  by_cases h0 : b = main_v112
  · subst h0
    exact (W11_arr m ρ c 0).trans (((dat3 (X10 m ρ) c).arrAt_in 0 rfl _).trans (A_eq3 (X10 m ρ) c 0))
  by_cases h1 : b = main_v129
  · subst h1
    exact (W11_arr m ρ c 1).trans (((dat3 (X10 m ρ) c).arrAt_in 1 rfl _).trans (A_eq3 (X10 m ρ) c 1))
  by_cases h2 : b = main_v130
  · subst h2
    exact (W11_arr m ρ c 2).trans (((dat3 (X10 m ρ) c).arrAt_in 2 rfl _).trans (A_eq3 (X10 m ρ) c 2))
  exact W11_of_ne m ρ c b fun w => match w with
    | ⟨0, _⟩ => fun e => h0 e.symm
    | ⟨1, _⟩ => fun e => h1 e.symm
    | ⟨2, _⟩ => fun e => h2 e.symm
    | ⟨3, _⟩ => fun e => hb e.symm

theorem W13_arr (c : Dev nD) (w : Fin cfg4.W) :
    W13 m ρ c (Proc.devRef .tc (Pipeline.arrRef spec4 w)) = (dat4 (X12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
theorem hF4 (c : Dev nD) (w : Fin cfg4.W) : (dat4 (X12 m ρ) c).arrAt w cfg4.N = X13 m ρ c (Pipeline.arrRef spec4 w) :=
  (W13_arr m ρ c w).symm
theorem hrest4 (c : Dev nD) : ∀ b, b ∉ Finset.univ.image (Pipeline.arrRef spec4) → X13 m ρ c b = X12 m ρ c b :=
  fun b hb => W13_of_ne m ρ c b fun w e => hb (Finset.mem_image.mpr ⟨w, Finset.mem_univ _, e⟩)
/-- Region 4 leaves every buffer but its output array `main_v134` as it found it: an input array is read, never
    written back; any other buffer is none of its arrays. -/
theorem W13_keep (c : Dev nD) (b : Ref sig .tc) (hb : b ≠ main_v134) :
    W13 m ρ c (Proc.devRef .tc b) = W12 m ρ c (Proc.devRef .tc b) := by
  by_cases h0 : b = main_v132
  · subst h0
    exact (W13_arr m ρ c 0).trans (((dat4 (X12 m ρ) c).arrAt_in 0 rfl _).trans (A_eq4 (X12 m ρ) c 0))
  by_cases h1 : b = main_arg10
  · subst h1
    exact (W13_arr m ρ c 1).trans (((dat4 (X12 m ρ) c).arrAt_in 1 rfl _).trans (A_eq4 (X12 m ρ) c 1))
  by_cases h2 : b = main_v133
  · subst h2
    exact (W13_arr m ρ c 2).trans (((dat4 (X12 m ρ) c).arrAt_in 2 rfl _).trans (A_eq4 (X12 m ρ) c 2))
  exact W13_of_ne m ρ c b fun w => match w with
    | ⟨0, _⟩ => fun e => h0 e.symm
    | ⟨1, _⟩ => fun e => h1 e.symm
    | ⟨2, _⟩ => fun e => h2 e.symm
    | ⟨3, _⟩ => fun e => hb e.symm

/-! ## What a stretch changes: the buffers its operations write -/
theorem W1_keep (c : Dev nD) (b : Ref sig .tc) (hb : b ∉ hostOps0_W) : W1 m ρ c (Proc.devRef .tc b) = W0 m ρ c (Proc.devRef .tc b) :=
  StableHlo.after_of_writes_sub hostOps0 _ hostOps0_writes hb
theorem W3_keep (c : Dev nD) (b : Ref sig .tc) (hb : b ∉ hostOps1_W) : W3 m ρ c (Proc.devRef .tc b) = W2 m ρ c (Proc.devRef .tc b) :=
  StableHlo.after_of_writes_sub hostOps1 _ hostOps1_writes hb
theorem W4_keep (c : Dev nD) (b : Ref sig .tc) (hb : b ∉ hostOps1_1_W) : W4 m ρ c (Proc.devRef .tc b) = W3 m ρ c (Proc.devRef .tc b) :=
  StableHlo.after_of_writes_sub hostOps1_1 _ hostOps1_1_writes hb
theorem W5_keep (c : Dev nD) (b : Ref sig .tc) (hb : b ∉ hostOps1_2_W) : W5 m ρ c (Proc.devRef .tc b) = W4 m ρ c (Proc.devRef .tc b) :=
  StableHlo.after_of_writes_sub hostOps1_2 _ hostOps1_2_writes hb
theorem W8_keep (c : Dev nD) (b : Ref sig .tc) (hb : b ∉ hostOps3_W) : W8 m ρ c (Proc.devRef .tc b) = W7 m ρ c (Proc.devRef .tc b) :=
  StableHlo.after_of_writes_sub hostOps3 _ hostOps3_writes hb
theorem W9_keep (c : Dev nD) (b : Ref sig .tc) (hb : b ∉ hostOps3_1_W) : W9 m ρ c (Proc.devRef .tc b) = W8 m ρ c (Proc.devRef .tc b) :=
  StableHlo.after_of_writes_sub hostOps3_1 _ hostOps3_1_writes hb
theorem W10_keep (c : Dev nD) (b : Ref sig .tc) (hb : b ∉ hostOps3_2_W) : W10 m ρ c (Proc.devRef .tc b) = W9 m ρ c (Proc.devRef .tc b) :=
  StableHlo.after_of_writes_sub hostOps3_2 _ hostOps3_2_writes hb
theorem W12_keep (c : Dev nD) (b : Ref sig .tc) (hb : b ∉ hostOps4_W) : W12 m ρ c (Proc.devRef .tc b) = W11 m ρ c (Proc.devRef .tc b) :=
  StableHlo.after_of_writes_sub hostOps4 _ hostOps4_writes hb

/-- A buffer that no stretch writes and that is no region's output ends as launched. -/
theorem W13_launch (c : Dev nD) (b : Ref sig .tc)
    (h1 : b ∉ hostOps0_W) (h2 : b ≠ main_v4) (h3 : b ∉ hostOps1_W) (h4 : b ∉ hostOps1_1_W) (h5 : b ∉ hostOps1_2_W)
    (h6 : b ≠ main_v67) (h7 : b ≠ main_v68) (h8 : b ∉ hostOps3_W) (h9 : b ∉ hostOps3_1_W) (h10 : b ∉ hostOps3_2_W)
    (h11 : b ≠ main_v131) (h12 : b ∉ hostOps4_W) (h13 : b ≠ main_v134) :
    W13 m ρ c (Proc.devRef .tc b) = m ((c : Thread nD τ).loc b) :=
  (W13_keep m ρ c b h13).trans <| (W12_keep m ρ c b h12).trans <| (W11_keep m ρ c b h11).trans <| (W10_keep m ρ c b h10).trans <|
  (W9_keep m ρ c b h9).trans <| (W8_keep m ρ c b h8).trans <| (W7_keep m ρ c b h7).trans <| (W6_keep m ρ c b h6).trans <|
  (W5_keep m ρ c b h5).trans <| (W4_keep m ρ c b h4).trans <| (W3_keep m ρ c b h3).trans <| (W2_keep m ρ c b h2).trans <|
  (W1_keep m ρ c b h1).trans rfl
theorem W13_main_arg0 (c : Dev nD) : W13 m ρ c (Proc.devRef .tc main_arg0) = m ((c : Thread nD τ).loc main_arg0) :=
  W13_launch m ρ c main_arg0 (by decide) (by decide) (by decide) (by decide) (by decide) (by decide) (by decide) (by decide) (by decide) (by decide) (by decide) (by decide) (by decide)
theorem W13_main_arg1 (c : Dev nD) : W13 m ρ c (Proc.devRef .tc main_arg1) = m ((c : Thread nD τ).loc main_arg1) :=
  W13_launch m ρ c main_arg1 (by decide) (by decide) (by decide) (by decide) (by decide) (by decide) (by decide) (by decide) (by decide) (by decide) (by decide) (by decide) (by decide)
theorem W13_main_arg2 (c : Dev nD) : W13 m ρ c (Proc.devRef .tc main_arg2) = m ((c : Thread nD τ).loc main_arg2) :=
  W13_launch m ρ c main_arg2 (by decide) (by decide) (by decide) (by decide) (by decide) (by decide) (by decide) (by decide) (by decide) (by decide) (by decide) (by decide) (by decide)
theorem W13_main_arg3 (c : Dev nD) : W13 m ρ c (Proc.devRef .tc main_arg3) = m ((c : Thread nD τ).loc main_arg3) :=
  W13_launch m ρ c main_arg3 (by decide) (by decide) (by decide) (by decide) (by decide) (by decide) (by decide) (by decide) (by decide) (by decide) (by decide) (by decide) (by decide)
theorem W13_main_arg4 (c : Dev nD) : W13 m ρ c (Proc.devRef .tc main_arg4) = m ((c : Thread nD τ).loc main_arg4) :=
  W13_launch m ρ c main_arg4 (by decide) (by decide) (by decide) (by decide) (by decide) (by decide) (by decide) (by decide) (by decide) (by decide) (by decide) (by decide) (by decide)
theorem W13_main_arg5 (c : Dev nD) : W13 m ρ c (Proc.devRef .tc main_arg5) = m ((c : Thread nD τ).loc main_arg5) :=
  W13_launch m ρ c main_arg5 (by decide) (by decide) (by decide) (by decide) (by decide) (by decide) (by decide) (by decide) (by decide) (by decide) (by decide) (by decide) (by decide)
theorem W13_main_arg6 (c : Dev nD) : W13 m ρ c (Proc.devRef .tc main_arg6) = m ((c : Thread nD τ).loc main_arg6) :=
  W13_launch m ρ c main_arg6 (by decide) (by decide) (by decide) (by decide) (by decide) (by decide) (by decide) (by decide) (by decide) (by decide) (by decide) (by decide) (by decide)
theorem W13_main_arg7 (c : Dev nD) : W13 m ρ c (Proc.devRef .tc main_arg7) = m ((c : Thread nD τ).loc main_arg7) :=
  W13_launch m ρ c main_arg7 (by decide) (by decide) (by decide) (by decide) (by decide) (by decide) (by decide) (by decide) (by decide) (by decide) (by decide) (by decide) (by decide)
theorem W13_main_arg8 (c : Dev nD) : W13 m ρ c (Proc.devRef .tc main_arg8) = m ((c : Thread nD τ).loc main_arg8) :=
  W13_launch m ρ c main_arg8 (by decide) (by decide) (by decide) (by decide) (by decide) (by decide) (by decide) (by decide) (by decide) (by decide) (by decide) (by decide) (by decide)
theorem W13_main_arg9 (c : Dev nD) : W13 m ρ c (Proc.devRef .tc main_arg9) = m ((c : Thread nD τ).loc main_arg9) :=
  W13_launch m ρ c main_arg9 (by decide) (by decide) (by decide) (by decide) (by decide) (by decide) (by decide) (by decide) (by decide) (by decide) (by decide) (by decide) (by decide)
theorem W13_main_arg10 (c : Dev nD) : W13 m ρ c (Proc.devRef .tc main_arg10) = m ((c : Thread nD τ).loc main_arg10) :=
  W13_launch m ρ c main_arg10 (by decide) (by decide) (by decide) (by decide) (by decide) (by decide) (by decide) (by decide) (by decide) (by decide) (by decide) (by decide) (by decide)
theorem W13_main_arg11 (c : Dev nD) : W13 m ρ c (Proc.devRef .tc main_arg11) = m ((c : Thread nD τ).loc main_arg11) :=
  W13_launch m ρ c main_arg11 (by decide) (by decide) (by decide) (by decide) (by decide) (by decide) (by decide) (by decide) (by decide) (by decide) (by decide) (by decide) (by decide)

/-! ## The proof data family and the thread state -/

/-- No pipeline has a prefetched table. -/
abbrev admT : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) admT p) c
  | ⟨0, _⟩ => fun c => dat0 (X1 m ρ) c
  | ⟨1, _⟩ => fun c => dat1 (X5 m ρ) c
  | ⟨2, _⟩ => fun c => dat2 (X6 m ρ) c
  | ⟨3, _⟩ => fun c => dat3 (X10 m ρ) c
  | ⟨4, _⟩ => fun c => dat4 (X12 m ρ) c
abbrev 𝒱₀ : Variants := Variants.none
/-- No core owes another anything. -/
abbrev Lz : GSem nD τ sig → Finset Unit := fun _ => ∅
abbrev lvz : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)
/-- A stretch as a segment over the unscoped references from the contents `W`. -/
abbrev hsegT (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- Region 0 over the thread state: its arrays split out of the unscoped buffers and put back at the exit contents;
    the generator register into the class invariant and out; nothing owed; no semaphore of the kernel's own. -/
def reg0 : Pipeline.RegionSeg (pcfgs (F := F)) admT (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (X1 m ρ) c).loose
  hwaits := Pipeline.hwaits_of_owed_zero _ _ _ _ Lz lvz 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (X1 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (X1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (X1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers and put back at the exit contents;
    the generator register into the class invariant and out; nothing owed; no semaphore of the kernel's own. -/
def reg1 : Pipeline.RegionSeg (pcfgs (F := F)) admT (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (X5 m ρ) c).loose
  hwaits := Pipeline.hwaits_of_owed_zero _ _ _ _ Lz lvz 1 fun _ _ => rfl
  pre c := iprop(StableHlo.held (c : Thread nD τ) (Pipeline.ucRefs τ sig) (W5 m ρ c) ∗ Rr c)
  post c := iprop(StableHlo.held (c : Thread nD τ) (Pipeline.ucRefs τ sig) (W6 m ρ c) ∗ Rr c)
  X c := iprop(∃ r, prngReg c r)
  Y c := iprop(∃ r, prngReg c r)
  Z c := Pipeline.unscopedRest (Ix := Unit) (Name := ℕ) (U := UR sig nD τ) (Lvl := ℕ) spec1 c (X5 m ρ c)
  hentry c := by
    rw [Pipeline.ownSems0_none]
    have hsplit := Pipeline.arrays_of_unscopedBufs (p := 1) (pcfgs (F := F)) admT (pdats m ρ) launch1.win launch1.arr_whole c
      ((pdats m ρ 1 c).share_full fun _ => rfl) (X5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m ρ) ((pdats m ρ 1 c).share_full fun _ => rfl)
      (X5 m ρ c) (X6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers and put back at the exit contents;
    the generator register into the class invariant and out; nothing owed; no semaphore of the kernel's own. -/
def reg2 : Pipeline.RegionSeg (pcfgs (F := F)) admT (pdats m ρ) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (X6 m ρ) c).loose
  hwaits := Pipeline.hwaits_of_owed_zero _ _ _ _ Lz lvz 2 fun _ _ => rfl
  pre c := iprop(StableHlo.held (c : Thread nD τ) (Pipeline.ucRefs τ sig) (W6 m ρ c) ∗ Rr c)
  post c := iprop(StableHlo.held (c : Thread nD τ) (Pipeline.ucRefs τ sig) (W7 m ρ c) ∗ Rr c)
  X c := iprop(∃ r, prngReg c r)
  Y c := iprop(∃ r, prngReg c r)
  Z c := Pipeline.unscopedRest (Ix := Unit) (Name := ℕ) (U := UR sig nD τ) (Lvl := ℕ) spec2 c (X6 m ρ c)
  hentry c := by
    rw [Pipeline.ownSems0_none]
    have hsplit := Pipeline.arrays_of_unscopedBufs (p := 2) (pcfgs (F := F)) admT (pdats m ρ) launch2.win launch2.arr_whole c
      ((pdats m ρ 2 c).share_full fun _ => rfl) (X6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admT (Ix := Unit) (Name := ℕ) (U := UR sig nD τ) (Lvl := ℕ)
      launch2.win launch2.arr_whole c (pdats m ρ) ((pdats m ρ 2 c).share_full fun _ => rfl)
      (X6 m ρ c) (X7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: its arrays split out of the unscoped buffers and put back at the exit contents;
    the generator register into the class invariant and out; nothing owed; no semaphore of the kernel's own. -/
def reg3 : Pipeline.RegionSeg (pcfgs (F := F)) admT (pdats m ρ) () defs₀ 𝒱₀ Lz lvz 3 where
  win := launch3.win.to₀
  block_pos := launch3.block_pos
  stage_whole := launch3.stage_whole
  K := PEmpty
  osem k := k.elim
  ho := Pipeline.OwnSemFacts.none _
  hbody c := (body_obligation3 (X10 m ρ) c).loose
  hwaits := Pipeline.hwaits_of_owed_zero _ _ _ _ Lz lvz 3 fun _ _ => rfl
  pre c := iprop(StableHlo.held (c : Thread nD τ) (Pipeline.ucRefs τ sig) (W10 m ρ c) ∗ Rr c)
  post c := iprop(StableHlo.held (c : Thread nD τ) (Pipeline.ucRefs τ sig) (W11 m ρ c) ∗ Rr c)
  X c := iprop(∃ r, prngReg c r)
  Y c := iprop(∃ r, prngReg c r)
  Z c := Pipeline.unscopedRest (Ix := Unit) (Name := ℕ) (U := UR sig nD τ) (Lvl := ℕ) spec3 c (X10 m ρ c)
  hentry c := by
    rw [Pipeline.ownSems0_none]
    have hsplit := Pipeline.arrays_of_unscopedBufs (p := 3) (pcfgs (F := F)) admT (pdats m ρ) launch3.win launch3.arr_whole c
      ((pdats m ρ 3 c).share_full fun _ => rfl) (X10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admT (Ix := Unit) (Name := ℕ) (U := UR sig nD τ) (Lvl := ℕ)
      launch3.win launch3.arr_whole c (pdats m ρ) ((pdats m ρ 3 c).share_full fun _ => rfl)
      (X10 m ρ c) (X11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: its arrays split out of the unscoped buffers and put back at the exit contents;
    the generator register into the class invariant and out; nothing owed; no semaphore of the kernel's own. -/
def reg4 : Pipeline.RegionSeg (pcfgs (F := F)) admT (pdats m ρ) () defs₀ 𝒱₀ Lz lvz 4 where
  win := launch4.win.to₀
  block_pos := launch4.block_pos
  stage_whole := launch4.stage_whole
  K := PEmpty
  osem k := k.elim
  ho := Pipeline.OwnSemFacts.none _
  hbody c := (body_obligation4 (X12 m ρ) c).loose
  hwaits := Pipeline.hwaits_of_owed_zero _ _ _ _ Lz lvz 4 fun _ _ => rfl
  pre c := iprop(StableHlo.held (c : Thread nD τ) (Pipeline.ucRefs τ sig) (W12 m ρ c) ∗ Rr c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (X12 m ρ c)
  hentry c := by
    rw [Pipeline.ownSems0_none]
    have hsplit := Pipeline.arrays_of_unscopedBufs (p := 4) (pcfgs (F := F)) admT (pdats m ρ) launch4.win launch4.arr_whole c
      ((pdats m ρ 4 c).share_full fun _ => rfl) (X12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admT (Ix := Unit) (Name := ℕ) (U := UR sig nD τ) (Lvl := ℕ)
      launch4.win launch4.arr_whole c (pdats m ρ) ((pdats m ρ 4 c).share_full fun _ => rfl)
      (X12 m ρ c) (X13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's thirteen items in order. -/
abbrev pipeSegs : List (Pipeline.Seg (pcfgs (F := F)) admT (pdats m ρ) () defs₀ 𝒱₀ Lz lvz) :=
  [ .host (hsegT hostOps0 hostOps0_sub hostOps0_fresh (W0 m ρ)),
    .region (reg0 m ρ),
    .host (hsegT hostOps1 hostOps1_sub hostOps1_fresh (W2 m ρ)),
    .host (hsegT hostOps1_1 hostOps1_1_sub hostOps1_1_fresh (W3 m ρ)),
    .host (hsegT hostOps1_2 hostOps1_2_sub hostOps1_2_fresh (W4 m ρ)),
    .region (reg1 m ρ),
    .region (reg2 m ρ),
    .host (hsegT hostOps3 hostOps3_sub hostOps3_fresh (W7 m ρ)),
    .host (hsegT hostOps3_1 hostOps3_1_sub hostOps3_1_fresh (W8 m ρ)),
    .host (hsegT hostOps3_2 hostOps3_2_sub hostOps3_2_fresh (W9 m ρ)),
    .region (reg3 m ρ),
    .host (hsegT hostOps4 hostOps4_sub hostOps4_fresh (W11 m ρ)),
    .region (reg4 m ρ) ]
/-- @main is the run of the segments. -/
theorem main_run (c : Dev nD) : main (F := F) c = Pipeline.Seg.run (pipeSegs m ρ) := (main_chain c).trans (by chain_rfl)

set_option backward.isDefEq.respectTransparency.types false in
/-- From any memory with zero counters every weakly fair execution of @main terminates, nothing faulting, and every
    unscoped buffer of every core ends at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) admT (pdats m ρ) () cellOf_inj emb₁ defs₀ 𝒱₀ Lz lvz m ρ main (pipeSegs m ρ)
    (fun c Q => by rw [main_run m ρ c])
    (by simp only [pipeSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tend m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-- The frame: the twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c)⟩)
    (run_all m ρ)

/-- The run with the result array named: it ends at the last valuation's `main_v134`, the arguments as launched. -/
theorem run_result : θ_run defs (onTc (τ := τ) (main (F := F))) ⟨m, fun _ => 0, ρ⟩ (fun r => ∀ c : Dev nD,
      r.2.mem ((c.tc : Thread nD τ).loc main_v134) = W13 m ρ c (Proc.devRef .tc main_v134)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v134 (by decide)),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c)⟩)
    (run_all m ρ)

end Cert.Kernel.Fr

end
-- ==== Proof.KI.Region0.lean ====
/- The per-region half of the frame argument for region 0 of @main (the call of `cc0__matmul_kernel`), at any float
   instance `F` and at a PARAMETER `V`, the TensorCore's buffer contents when the region is entered: each window's block
   at a grid point, what the body leaves in the output window's staging buffer as a function of the input blocks, the
   body's separation-logic triple, the pipeline's proof data, and the body obligation at every grid point. -/
import proofs.«178479_j10943576671010_1_alg».proof.Proof.Gen.KernelIdeal.Launch
import proofs.«178479_j10943576671010_1_alg».proof.Proof.Gen.KernelIdeal.Skeleton
import proofs.«178479_j10943576671010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-row axis recurses once per coordinate of that axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place: where the window is not fetched its block index has
    not moved since the last fetch, and the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place: where the window is not fetched its block index has
    not moved since the last fetch, and the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev l0_0 : Rect S2000x256 := Rect.unit (s := S2000x256) ![0, 0] S2000x256.size inb_S2000x256_S2000x256_0_0
abbrev l0_1 : Rect S256x128 := Rect.unit (s := S256x128) ![0, 0] S256x128.size inb_S256x128_S256x128_0_0
abbrev r0_0 : Rect S2000x128 := Rect.unit (s := S2000x128) ![0, 0] S2000x128.size inb_S2000x128_S2000x128_0_0

/-! ## What the body leaves in the output window's buffer -/

/-- Window 2's staging buffer after the body, as a function of the input windows' blocks: its one store, over the whole
    buffer, of the payload computed from the whole-buffer loads of the inputs. -/
def out0_2 (x0 : Vec F S2000x256 .f32) (x1 : Vec F S256x128 .f32) : Vec F S2000x128 .f32 :=
  View.canon [⟨r0_0, k0_pay1 (View.ld x0 l0_0) (View.ld x1 l0_1)⟩]

/-- The store's rectangle is the whole buffer, so it covers every index. -/
theorem cover0_2 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 1000000 in
/-- The kernel body on whole staging memrefs, the inputs' at contents `xW` and the output's at anything, runs to the
    continuation holding the inputs' as they were and the output's at `out0_2` of the inputs'. The body also loads
    the output buffer once before storing to it; the loaded value is not used. -/
theorem sound_kernel0 (c : Dev nD) (E : Set ℕ) (i : grid0.Coords) (arg1 : Memref sig .tc .vmem S2000x256 .f32) (harg1 : arg1.IsWhole) (arg2 : Memref sig .tc .vmem S256x128 .f32) (harg2 : arg2.IsWhole) (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant leaves the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
/- The per-region half of the frame argument for region 1 of @main (the call of `cc1__bn_relu_kernel`), at any float
   instance `F` and at a PARAMETER `V`, the TensorCore's buffer contents when the region is entered: each window's block
   at a grid point, what the body leaves in the output window's staging buffer as a function of the input blocks, the
   body's separation-logic triple, the pipeline's proof data, and the body obligation at every grid point. -/
import proofs.«178479_j10943576671010_1_alg».proof.Proof.Gen.KernelIdeal.Launch
import proofs.«178479_j10943576671010_1_alg».proof.Proof.Gen.KernelIdeal.Skeleton
import proofs.«178479_j10943576671010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-row axis recurses once per coordinate of that axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: where the window is not fetched its block index has
    not moved since the last fetch, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: where the window is not fetched its block index has
    not moved since the last fetch, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: where the window is not fetched its block index has
    not moved since the last fetch, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev l1_0 : Rect S2000x128 := Rect.unit (s := S2000x128) ![0, 0] S2000x128.size inb_S2000x128_S2000x128_0_0
abbrev l1_1 : Rect S1x128 := Rect.unit (s := S1x128) ![0, 0] S1x128.size inb_S1x128_S1x128_0_0
abbrev l1_2 : Rect S1x128 := Rect.unit (s := S1x128) ![0, 0] S1x128.size inb_S1x128_S1x128_0_0
abbrev r1_0 : Rect S2000x128 := Rect.unit (s := S2000x128) ![0, 0] S2000x128.size inb_S2000x128_S2000x128_0_0

/-! ## What the body leaves in the output window's buffer -/

/-- Window 3's staging buffer after the body, as a function of the input windows' blocks: its one store, over the whole
    buffer, of the payload computed from the whole-buffer loads of the inputs. -/
def out1_3 (x0 : Vec F S2000x128 .f32) (x1 : Vec F S1x128 .f32) (x2 : Vec F S1x128 .f32) : Vec F S2000x128 .f32 :=
  View.canon [⟨r1_0, k1_pay1 (View.ld x0 l1_0) (View.ld x1 l1_1) (View.ld x2 l1_2)⟩]

/-- The store's rectangle is the whole buffer, so it covers every index. -/
theorem cover1_3 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The kernel body on whole staging memrefs, the inputs' at contents `xW` and the output's at anything, runs to the
    continuation holding the inputs' as they were and the output's at `out1_3` of the inputs'. The body also loads
    the output buffer once before storing to it; the loaded value is not used. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bn_relu_kernel i arg1 harg1 arg2 harg2 arg3 harg3 arg4 harg4) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant leaves the scoped
    rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Region2.lean ====
/- The per-region half of the frame argument for region 2 of @main (the call of `cc2__matmul_kernel`), at any float
   instance `F` and at a PARAMETER `V`, the TensorCore's buffer contents when the region is entered: each window's block
   at a grid point, what the body leaves in the output window's staging buffer as a function of the input blocks, the
   body's separation-logic triple, the pipeline's proof data, and the body obligation at every grid point. -/
import proofs.«178479_j10943576671010_1_alg».proof.Proof.Gen.KernelIdeal.Launch
import proofs.«178479_j10943576671010_1_alg».proof.Proof.Gen.KernelIdeal.Skeleton
import proofs.«178479_j10943576671010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-row axis recurses once per coordinate of that axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: where the window is not fetched its block index has
    not moved since the last fetch, and the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place: where the window is not fetched its block index has
    not moved since the last fetch, and the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole buffer -/

abbrev l2_0 : Rect S2000x128 := Rect.unit (s := S2000x128) ![0, 0] S2000x128.size inb_S2000x128_S2000x128_0_0
abbrev l2_1 : Rect S128x64 := Rect.unit (s := S128x64) ![0, 0] S128x64.size inb_S128x64_S128x64_0_0
abbrev r2_0 : Rect S2000x64 := Rect.unit (s := S2000x64) ![0, 0] S2000x64.size inb_S2000x64_S2000x64_0_0

/-! ## What the body leaves in the output window's buffer -/

/-- Window 2's staging buffer after the body, as a function of the input windows' blocks: its one store, over the whole
    buffer, of the payload computed from the whole-buffer loads of the inputs. -/
def out2_2 (x0 : Vec F S2000x128 .f32) (x1 : Vec F S128x64 .f32) : Vec F S2000x64 .f32 :=
  View.canon [⟨r2_0, k2_pay1 (View.ld x0 l2_0) (View.ld x1 l2_1)⟩]

/-- The store's rectangle is the whole buffer, so it covers every index. -/
theorem cover2_2 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The body's triple -/

set_option maxHeartbeats 1000000 in
/-- The kernel body on whole staging memrefs, the inputs' at contents `xW` and the output's at anything, runs to the
    continuation holding the inputs' as they were and the output's at `out2_2` of the inputs'. The body also loads
    the output buffer once before storing to it; the loaded value is not used. -/
theorem sound_kernel2 (c : Dev nD) (E : Set ℕ) (i : grid2.Coords) (arg1 : Memref sig .tc .vmem S2000x128 .f32) (harg1 : arg1.IsWhole) (arg2 : Memref sig .tc .vmem S128x64 .f32) (harg2 : arg2.IsWhole) (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point `t`
    each input's buffer at its block and the output's at `out2_2` of the input blocks; the invariant leaves the scoped
    rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Region3.lean ====
/- The per-region half of the frame argument for region 3 of @main (the call of `cc3__bn_relu_kernel`), at any float
   instance `F` and at a PARAMETER `V`, the TensorCore's buffer contents when the region is entered: each window's block
   at a grid point, what the body leaves in the output window's staging buffer as a function of the input blocks, the
   body's separation-logic triple, the pipeline's proof data, and the body obligation at every grid point. -/
import proofs.«178479_j10943576671010_1_alg».proof.Proof.Gen.KernelIdeal.Launch
import proofs.«178479_j10943576671010_1_alg».proof.Proof.Gen.KernelIdeal.Skeleton
import proofs.«178479_j10943576671010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-row axis recurses once per coordinate of that axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place: where the window is not fetched its block index has
    not moved since the last fetch, and the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s and whose body leaves the block in place: where the window is not fetched its block index has
    not moved since the last fetch, and the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is `V`'s and whose body leaves the block in place: where the window is not fetched its block index has
    not moved since the last fetch, and the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole buffer -/

abbrev l3_0 : Rect S2000x64 := Rect.unit (s := S2000x64) ![0, 0] S2000x64.size inb_S2000x64_S2000x64_0_0
abbrev l3_1 : Rect S1x64 := Rect.unit (s := S1x64) ![0, 0] S1x64.size inb_S1x64_S1x64_0_0
abbrev l3_2 : Rect S1x64 := Rect.unit (s := S1x64) ![0, 0] S1x64.size inb_S1x64_S1x64_0_0
abbrev r3_0 : Rect S2000x64 := Rect.unit (s := S2000x64) ![0, 0] S2000x64.size inb_S2000x64_S2000x64_0_0

/-! ## What the body leaves in the output window's buffer -/

/-- Window 3's staging buffer after the body, as a function of the input windows' blocks: its one store, over the whole
    buffer, of the payload computed from the whole-buffer loads of the inputs. -/
def out3_3 (x0 : Vec F S2000x64 .f32) (x1 : Vec F S1x64 .f32) (x2 : Vec F S1x64 .f32) : Vec F S2000x64 .f32 :=
  View.canon [⟨r3_0, k3_pay1 (View.ld x0 l3_0) (View.ld x1 l3_1) (View.ld x2 l3_2)⟩]

/-- The store's rectangle is the whole buffer, so it covers every index. -/
theorem cover3_3 (p0 : Vec F S2000x64 .f32) (y : S2000x64.Idx) :
    ∃ pc ∈ ([⟨r3_0, p0⟩] : List (View.Piece (Elt F) S2000x64 .f32)), y ∈ pc.1.set :=
  View.cover_of_tiled [⟨r3_0, p0⟩] S2000x64.size (by rfl) y

/-! ## The body's triple -/

set_option maxHeartbeats 1000000 in
/-- The kernel body on whole staging memrefs, the inputs' at contents `xW` and the output's at anything, runs to the
    continuation holding the inputs' as they were and the output's at `out3_3` of the inputs'. The body also loads
    the output buffer once before storing to it; the loaded value is not used. -/
theorem sound_kernel3 (c : Dev nD) (E : Set ℕ) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S2000x64 .f32) (harg4 : arg4.IsWhole)
    (x0 : Vec F S2000x64 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__bn_relu_kernel i arg1 harg1 arg2 harg2 arg3 harg3 arg4 harg4) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer at its block and the output's at `out3_3` of the input blocks; the invariant leaves the scoped
    rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Region4.lean ====
/- The per-region half of the frame argument for region 4 of @main (the call of `cc4__matmul_bias_relu_kernel`), at any float
   instance `F` and at a PARAMETER `V`, the TensorCore's buffer contents when the region is entered: each window's block
   at a grid point, what the body leaves in the output window's staging buffer as a function of the input blocks, the
   body's separation-logic triple, the pipeline's proof data, and the body obligation at every grid point. -/
import proofs.«178479_j10943576671010_1_alg».proof.Proof.Gen.KernelIdeal.Launch
import proofs.«178479_j10943576671010_1_alg».proof.Proof.Gen.KernelIdeal.Skeleton
import proofs.«178479_j10943576671010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-row axis recurses once per coordinate of that axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is `V`'s and whose body leaves the block in place: where the window is not fetched its block index has
    not moved since the last fetch, and the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is `V`'s and whose body leaves the block in place: where the window is not fetched its block index has
    not moved since the last fetch, and the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is `V`'s and whose body leaves the block in place: where the window is not fetched its block index has
    not moved since the last fetch, and the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each a whole buffer -/

abbrev l4_0 : Rect S2000x448 := Rect.unit (s := S2000x448) ![0, 0] S2000x448.size inb_S2000x448_S2000x448_0_0
abbrev l4_1 : Rect S448x256 := Rect.unit (s := S448x256) ![0, 0] S448x256.size inb_S448x256_S448x256_0_0
abbrev l4_2 : Rect S1x256 := Rect.unit (s := S1x256) ![0, 0] S1x256.size inb_S1x256_S1x256_0_0
abbrev r4_0 : Rect S2000x256 := Rect.unit (s := S2000x256) ![0, 0] S2000x256.size inb_S2000x256_S2000x256_0_0

/-! ## What the body leaves in the output window's buffer -/

/-- Window 3's staging buffer after the body, as a function of the input windows' blocks: its one store, over the whole
    buffer, of the payload computed from the whole-buffer loads of the inputs. -/
def out4_3 (x0 : Vec F S2000x448 .f32) (x1 : Vec F S448x256 .f32) (x2 : Vec F S1x256 .f32) : Vec F S2000x256 .f32 :=
  View.canon [⟨r4_0, k4_pay1 (View.ld x0 l4_0) (View.ld x1 l4_1) (View.ld x2 l4_2)⟩]

/-- The store's rectangle is the whole buffer, so it covers every index. -/
theorem cover4_3 (p0 : Vec F S2000x256 .f32) (y : S2000x256.Idx) :
    ∃ pc ∈ ([⟨r4_0, p0⟩] : List (View.Piece (Elt F) S2000x256 .f32)), y ∈ pc.1.set :=
  View.cover_of_tiled [⟨r4_0, p0⟩] S2000x256.size (by rfl) y

/-! ## The body's triple -/

set_option maxHeartbeats 1000000 in
/-- The kernel body on whole staging memrefs, the inputs' at contents `xW` and the output's at anything, runs to the
    continuation holding the inputs' as they were and the output's at `out4_3` of the inputs'. The body also loads
    the output buffer once before storing to it; the loaded value is not used. -/
theorem sound_kernel4 (c : Dev nD) (E : Set ℕ) (i : grid4.Coords) (arg1 : Memref sig .tc .vmem S2000x448 .f32) (harg1 : arg1.IsWhole) (arg2 : Memref sig .tc .vmem S448x256 .f32) (harg2 : arg2.IsWhole) (arg3 : Memref sig .tc .vmem S1x256 .f32) (harg3 : arg3.IsWhole) (arg4 : Memref sig .tc .vmem S2000x256 .f32) (harg4 : arg4.IsWhole)
    (x0 : Vec F S2000x448 .f32) (x1 : Vec F S448x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__matmul_bias_relu_kernel i arg1 harg1 arg2 harg2 arg3 harg3 arg4 harg4) K := by
  simp only [cc4__matmul_bias_relu_kernel_eq_skeleton]; unfold cc4__matmul_bias_relu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at point `t`
    each input's buffer at its block and the output's at `out4_3` of the input blocks; the invariant leaves the scoped
    rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Run.lean ====
import proofs.«178479_j10943576671010_1_alg».proof.Proof.KI.Region0
import proofs.«178479_j10943576671010_1_alg».proof.Proof.KI.Region1
import proofs.«178479_j10943576671010_1_alg».proof.Proof.KI.Region2
import proofs.«178479_j10943576671010_1_alg».proof.Proof.KI.Region3
import proofs.«178479_j10943576671010_1_alg».proof.Proof.KI.Region4
import proofs.«178479_j10943576671010_1_alg».proof.Proof.Gen.KernelIdeal.Regions

/-!
# The run of the five-region program

@main is thirteen items: stretches of host operations and five kernel regions.  Between two items every unscoped
buffer of a core is held at a known valuation: the launch memory, then `StableHlo.after` each stretch, and across a
region the region's arrays at what its pipeline leaves (the input arrays as entered, the output array at the fold of
its write-backs) with every other buffer as entered.  Each region is a segment over that thread state; the launch
theorem for a list of segments then gives: every weakly fair execution terminates, nothing faults, and every unscoped
buffer ends at the last valuation.  The argument arrays are written by no stretch and are output of no region, so the
last valuation has them as launched.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the stretch `hostOps0`. -/
abbrev W1 : Dev nD → Valuation τ sig (Elt F) := fun c => StableHlo.after hostOps0 (W0 m ρ c)
/-- The same read at the TensorCore's references. -/
abbrev X1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (X1 m ρ) c).arrAt w cfg0.N
/-- The same read at the TensorCore's references. -/
abbrev X2 : (c : Dev nD) → (b : Ref sig .tc) → Buf (Elt F) ((c : Thread nD τ).loc b) := fun c b => W2 m ρ c b
/-- After the stretch `hostOps1`. -/
abbrev W3 : Dev nD → Valuation τ sig (Elt F) := fun c => StableHlo.after hostOps1 (W2 m ρ c)
/-- After the stretch `hostOps1_1`. -/
abbrev W4 : Dev nD → Valuation τ sig (Elt F) := fun c => StableHlo.after hostOps1_1 (W3 m ρ c)
/-- After the stretch `hostOps1_2`. -/
abbrev W5 : Dev nD → Valuation τ sig (Elt F) := fun c => StableHlo.after hostOps1_2 (W4 m ρ c)
/-- The same read at the TensorCore's references. -/
abbrev X5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (X5 m ρ) c).arrAt w cfg1.N
/-- The same read at the TensorCore's references. -/
abbrev X6 : (c : Dev nD) → (b : Ref sig .tc) → Buf (Elt F) ((c : Thread nD τ).loc b) := fun c b => W6 m ρ c b
/-- At region 2's exit: its arrays at what the pipeline leaves, every other buffer as entered. -/
def W7 (c : Dev nD) : Valuation τ sig (Elt F) :=
  Pipeline.withArrays spec2 c (W6 m ρ c) fun w => (dat2 (X6 m ρ) c).arrAt w cfg2.N
/-- The same read at the TensorCore's references. -/
abbrev X7 : (c : Dev nD) → (b : Ref sig .tc) → Buf (Elt F) ((c : Thread nD τ).loc b) := fun c b => W7 m ρ c b
/-- After the stretch `hostOps3`. -/
abbrev W8 : Dev nD → Valuation τ sig (Elt F) := fun c => StableHlo.after hostOps3 (W7 m ρ c)
/-- After the stretch `hostOps3_1`. -/
abbrev W9 : Dev nD → Valuation τ sig (Elt F) := fun c => StableHlo.after hostOps3_1 (W8 m ρ c)
/-- After the stretch `hostOps3_2`. -/
abbrev W10 : Dev nD → Valuation τ sig (Elt F) := fun c => StableHlo.after hostOps3_2 (W9 m ρ c)
/-- The same read at the TensorCore's references. -/
abbrev X10 : (c : Dev nD) → (b : Ref sig .tc) → Buf (Elt F) ((c : Thread nD τ).loc b) := fun c b => W10 m ρ c b
/-- At region 3's exit: its arrays at what the pipeline leaves, every other buffer as entered. -/
def W11 (c : Dev nD) : Valuation τ sig (Elt F) :=
  Pipeline.withArrays spec3 c (W10 m ρ c) fun w => (dat3 (X10 m ρ) c).arrAt w cfg3.N
/-- The same read at the TensorCore's references. -/
abbrev X11 : (c : Dev nD) → (b : Ref sig .tc) → Buf (Elt F) ((c : Thread nD τ).loc b) := fun c b => W11 m ρ c b
/-- After the stretch `hostOps4`. -/
abbrev W12 : Dev nD → Valuation τ sig (Elt F) := fun c => StableHlo.after hostOps4 (W11 m ρ c)
/-- The same read at the TensorCore's references. -/
abbrev X12 : (c : Dev nD) → (b : Ref sig .tc) → Buf (Elt F) ((c : Thread nD τ).loc b) := fun c b => W12 m ρ c b
/-- At region 4's exit: its arrays at what the pipeline leaves, every other buffer as entered. -/
def W13 (c : Dev nD) : Valuation τ sig (Elt F) :=
  Pipeline.withArrays spec4 c (W12 m ρ c) fun w => (dat4 (X12 m ρ) c).arrAt w cfg4.N
/-- The same read at the TensorCore's references. -/
abbrev X13 : (c : Dev nD) → (b : Ref sig .tc) → Buf (Elt F) ((c : Thread nD τ).loc b) := fun c b => W13 m ρ c b

/-! ## What a region changes: its output array only -/

theorem W2_arr (c : Dev nD) (w : Fin cfg0.W) :
    W2 m ρ c (Proc.devRef .tc (Pipeline.arrRef spec0 w)) = (dat0 (X1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (dat0 (X1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = X1 m ρ c b :=
  fun b hb => W2_of_ne m ρ c b fun w e => hb (Finset.mem_image.mpr ⟨w, Finset.mem_univ _, e⟩)
/-- Region 0 leaves every buffer but its output array `main_v4` as it found it: an input array is read, never
    written back; any other buffer is none of its arrays. -/
theorem W2_keep (c : Dev nD) (b : Ref sig .tc) (hb : b ≠ main_v4) :
    W2 m ρ c (Proc.devRef .tc b) = W1 m ρ c (Proc.devRef .tc b) := by
  by_cases h0 : b = main_arg0
  · subst h0
    exact (W2_arr m ρ c 0).trans (((dat0 (X1 m ρ) c).arrAt_in 0 rfl _).trans (A_eq0 (X1 m ρ) c 0))
  by_cases h1 : b = main_arg2
  · subst h1
    exact (W2_arr m ρ c 1).trans (((dat0 (X1 m ρ) c).arrAt_in 1 rfl _).trans (A_eq0 (X1 m ρ) c 1))
  exact W2_of_ne m ρ c b fun w => match w with
    | ⟨0, _⟩ => fun e => h0 e.symm
    | ⟨1, _⟩ => fun e => h1 e.symm
    | ⟨2, _⟩ => fun e => hb e.symm

theorem W6_arr (c : Dev nD) (w : Fin cfg1.W) :
    W6 m ρ c (Proc.devRef .tc (Pipeline.arrRef spec1 w)) = (dat1 (X5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
theorem hF1 (c : Dev nD) (w : Fin cfg1.W) : (dat1 (X5 m ρ) c).arrAt w cfg1.N = X6 m ρ c (Pipeline.arrRef spec1 w) :=
  (W6_arr m ρ c w).symm
theorem hrest1 (c : Dev nD) : ∀ b, b ∉ Finset.univ.image (Pipeline.arrRef spec1) → X6 m ρ c b = X5 m ρ c b :=
  fun b hb => W6_of_ne m ρ c b fun w e => hb (Finset.mem_image.mpr ⟨w, Finset.mem_univ _, e⟩)
/-- Region 1 leaves every buffer but its output array `main_v67` as it found it: an input array is read, never
    written back; any other buffer is none of its arrays. -/
theorem W6_keep (c : Dev nD) (b : Ref sig .tc) (hb : b ≠ main_v67) :
    W6 m ρ c (Proc.devRef .tc b) = W5 m ρ c (Proc.devRef .tc b) := by
  by_cases h0 : b = main_v48
  · subst h0
    exact (W6_arr m ρ c 0).trans (((dat1 (X5 m ρ) c).arrAt_in 0 rfl _).trans (A_eq1 (X5 m ρ) c 0))
  by_cases h1 : b = main_v65
  · subst h1
    exact (W6_arr m ρ c 1).trans (((dat1 (X5 m ρ) c).arrAt_in 1 rfl _).trans (A_eq1 (X5 m ρ) c 1))
  by_cases h2 : b = main_v66
  · subst h2
    exact (W6_arr m ρ c 2).trans (((dat1 (X5 m ρ) c).arrAt_in 2 rfl _).trans (A_eq1 (X5 m ρ) c 2))
  exact W6_of_ne m ρ c b fun w => match w with
    | ⟨0, _⟩ => fun e => h0 e.symm
    | ⟨1, _⟩ => fun e => h1 e.symm
    | ⟨2, _⟩ => fun e => h2 e.symm
    | ⟨3, _⟩ => fun e => hb e.symm

theorem W7_arr (c : Dev nD) (w : Fin cfg2.W) :
    W7 m ρ c (Proc.devRef .tc (Pipeline.arrRef spec2 w)) = (dat2 (X6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
theorem hF2 (c : Dev nD) (w : Fin cfg2.W) : (dat2 (X6 m ρ) c).arrAt w cfg2.N = X7 m ρ c (Pipeline.arrRef spec2 w) :=
  (W7_arr m ρ c w).symm
theorem hrest2 (c : Dev nD) : ∀ b, b ∉ Finset.univ.image (Pipeline.arrRef spec2) → X7 m ρ c b = X6 m ρ c b :=
  fun b hb => W7_of_ne m ρ c b fun w e => hb (Finset.mem_image.mpr ⟨w, Finset.mem_univ _, e⟩)
/-- Region 2 leaves every buffer but its output array `main_v68` as it found it: an input array is read, never
    written back; any other buffer is none of its arrays. -/
theorem W7_keep (c : Dev nD) (b : Ref sig .tc) (hb : b ≠ main_v68) :
    W7 m ρ c (Proc.devRef .tc b) = W6 m ρ c (Proc.devRef .tc b) := by
  by_cases h0 : b = main_v67
  · subst h0
    exact (W7_arr m ρ c 0).trans (((dat2 (X6 m ρ) c).arrAt_in 0 rfl _).trans (A_eq2 (X6 m ρ) c 0))
  by_cases h1 : b = main_arg6
  · subst h1
    exact (W7_arr m ρ c 1).trans (((dat2 (X6 m ρ) c).arrAt_in 1 rfl _).trans (A_eq2 (X6 m ρ) c 1))
  exact W7_of_ne m ρ c b fun w => match w with
    | ⟨0, _⟩ => fun e => h0 e.symm
    | ⟨1, _⟩ => fun e => h1 e.symm
    | ⟨2, _⟩ => fun e => hb e.symm

theorem W11_arr (c : Dev nD) (w : Fin cfg3.W) :
    W11 m ρ c (Proc.devRef .tc (Pipeline.arrRef spec3 w)) = (dat3 (X10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
theorem hF3 (c : Dev nD) (w : Fin cfg3.W) : (dat3 (X10 m ρ) c).arrAt w cfg3.N = X11 m ρ c (Pipeline.arrRef spec3 w) :=
  (W11_arr m ρ c w).symm
theorem hrest3 (c : Dev nD) : ∀ b, b ∉ Finset.univ.image (Pipeline.arrRef spec3) → X11 m ρ c b = X10 m ρ c b :=
  fun b hb => W11_of_ne m ρ c b fun w e => hb (Finset.mem_image.mpr ⟨w, Finset.mem_univ _, e⟩)
/-- Region 3 leaves every buffer but its output array `main_v131` as it found it: an input array is read, never
    written back; any other buffer is none of its arrays. -/
theorem W11_keep (c : Dev nD) (b : Ref sig .tc) (hb : b ≠ main_v131) :
    W11 m ρ c (Proc.devRef .tc b) = W10 m ρ c (Proc.devRef .tc b) := by
  by_cases h0 : b = main_v112
  · subst h0
    exact (W11_arr m ρ c 0).trans (((dat3 (X10 m ρ) c).arrAt_in 0 rfl _).trans (A_eq3 (X10 m ρ) c 0))
  by_cases h1 : b = main_v129
  · subst h1
    exact (W11_arr m ρ c 1).trans (((dat3 (X10 m ρ) c).arrAt_in 1 rfl _).trans (A_eq3 (X10 m ρ) c 1))
  by_cases h2 : b = main_v130
  · subst h2
    exact (W11_arr m ρ c 2).trans (((dat3 (X10 m ρ) c).arrAt_in 2 rfl _).trans (A_eq3 (X10 m ρ) c 2))
  exact W11_of_ne m ρ c b fun w => match w with
    | ⟨0, _⟩ => fun e => h0 e.symm
    | ⟨1, _⟩ => fun e => h1 e.symm
    | ⟨2, _⟩ => fun e => h2 e.symm
    | ⟨3, _⟩ => fun e => hb e.symm

theorem W13_arr (c : Dev nD) (w : Fin cfg4.W) :
    W13 m ρ c (Proc.devRef .tc (Pipeline.arrRef spec4 w)) = (dat4 (X12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
theorem hF4 (c : Dev nD) (w : Fin cfg4.W) : (dat4 (X12 m ρ) c).arrAt w cfg4.N = X13 m ρ c (Pipeline.arrRef spec4 w) :=
  (W13_arr m ρ c w).symm
theorem hrest4 (c : Dev nD) : ∀ b, b ∉ Finset.univ.image (Pipeline.arrRef spec4) → X13 m ρ c b = X12 m ρ c b :=
  fun b hb => W13_of_ne m ρ c b fun w e => hb (Finset.mem_image.mpr ⟨w, Finset.mem_univ _, e⟩)
/-- Region 4 leaves every buffer but its output array `main_v134` as it found it: an input array is read, never
    written back; any other buffer is none of its arrays. -/
theorem W13_keep (c : Dev nD) (b : Ref sig .tc) (hb : b ≠ main_v134) :
    W13 m ρ c (Proc.devRef .tc b) = W12 m ρ c (Proc.devRef .tc b) := by
  by_cases h0 : b = main_v132
  · subst h0
    exact (W13_arr m ρ c 0).trans (((dat4 (X12 m ρ) c).arrAt_in 0 rfl _).trans (A_eq4 (X12 m ρ) c 0))
  by_cases h1 : b = main_arg10
  · subst h1
    exact (W13_arr m ρ c 1).trans (((dat4 (X12 m ρ) c).arrAt_in 1 rfl _).trans (A_eq4 (X12 m ρ) c 1))
  by_cases h2 : b = main_v133
  · subst h2
    exact (W13_arr m ρ c 2).trans (((dat4 (X12 m ρ) c).arrAt_in 2 rfl _).trans (A_eq4 (X12 m ρ) c 2))
  exact W13_of_ne m ρ c b fun w => match w with
    | ⟨0, _⟩ => fun e => h0 e.symm
    | ⟨1, _⟩ => fun e => h1 e.symm
    | ⟨2, _⟩ => fun e => h2 e.symm
    | ⟨3, _⟩ => fun e => hb e.symm

/-! ## What a stretch changes: the buffers its operations write -/
theorem W1_keep (c : Dev nD) (b : Ref sig .tc) (hb : b ∉ hostOps0_W) : W1 m ρ c (Proc.devRef .tc b) = W0 m ρ c (Proc.devRef .tc b) :=
  StableHlo.after_of_writes_sub hostOps0 _ hostOps0_writes hb
theorem W3_keep (c : Dev nD) (b : Ref sig .tc) (hb : b ∉ hostOps1_W) : W3 m ρ c (Proc.devRef .tc b) = W2 m ρ c (Proc.devRef .tc b) :=
  StableHlo.after_of_writes_sub hostOps1 _ hostOps1_writes hb
theorem W4_keep (c : Dev nD) (b : Ref sig .tc) (hb : b ∉ hostOps1_1_W) : W4 m ρ c (Proc.devRef .tc b) = W3 m ρ c (Proc.devRef .tc b) :=
  StableHlo.after_of_writes_sub hostOps1_1 _ hostOps1_1_writes hb
theorem W5_keep (c : Dev nD) (b : Ref sig .tc) (hb : b ∉ hostOps1_2_W) : W5 m ρ c (Proc.devRef .tc b) = W4 m ρ c (Proc.devRef .tc b) :=
  StableHlo.after_of_writes_sub hostOps1_2 _ hostOps1_2_writes hb
theorem W8_keep (c : Dev nD) (b : Ref sig .tc) (hb : b ∉ hostOps3_W) : W8 m ρ c (Proc.devRef .tc b) = W7 m ρ c (Proc.devRef .tc b) :=
  StableHlo.after_of_writes_sub hostOps3 _ hostOps3_writes hb
theorem W9_keep (c : Dev nD) (b : Ref sig .tc) (hb : b ∉ hostOps3_1_W) : W9 m ρ c (Proc.devRef .tc b) = W8 m ρ c (Proc.devRef .tc b) :=
  StableHlo.after_of_writes_sub hostOps3_1 _ hostOps3_1_writes hb
theorem W10_keep (c : Dev nD) (b : Ref sig .tc) (hb : b ∉ hostOps3_2_W) : W10 m ρ c (Proc.devRef .tc b) = W9 m ρ c (Proc.devRef .tc b) :=
  StableHlo.after_of_writes_sub hostOps3_2 _ hostOps3_2_writes hb
theorem W12_keep (c : Dev nD) (b : Ref sig .tc) (hb : b ∉ hostOps4_W) : W12 m ρ c (Proc.devRef .tc b) = W11 m ρ c (Proc.devRef .tc b) :=
  StableHlo.after_of_writes_sub hostOps4 _ hostOps4_writes hb

/-- A buffer that no stretch writes and that is no region's output ends as launched. -/
theorem W13_launch (c : Dev nD) (b : Ref sig .tc)
    (h1 : b ∉ hostOps0_W) (h2 : b ≠ main_v4) (h3 : b ∉ hostOps1_W) (h4 : b ∉ hostOps1_1_W) (h5 : b ∉ hostOps1_2_W)
    (h6 : b ≠ main_v67) (h7 : b ≠ main_v68) (h8 : b ∉ hostOps3_W) (h9 : b ∉ hostOps3_1_W) (h10 : b ∉ hostOps3_2_W)
    (h11 : b ≠ main_v131) (h12 : b ∉ hostOps4_W) (h13 : b ≠ main_v134) :
    W13 m ρ c (Proc.devRef .tc b) = m ((c : Thread nD τ).loc b) :=
  (W13_keep m ρ c b h13).trans <| (W12_keep m ρ c b h12).trans <| (W11_keep m ρ c b h11).trans <| (W10_keep m ρ c b h10).trans <|
  (W9_keep m ρ c b h9).trans <| (W8_keep m ρ c b h8).trans <| (W7_keep m ρ c b h7).trans <| (W6_keep m ρ c b h6).trans <|
  (W5_keep m ρ c b h5).trans <| (W4_keep m ρ c b h4).trans <| (W3_keep m ρ c b h3).trans <| (W2_keep m ρ c b h2).trans <|
  (W1_keep m ρ c b h1).trans rfl
theorem W13_main_arg0 (c : Dev nD) : W13 m ρ c (Proc.devRef .tc main_arg0) = m ((c : Thread nD τ).loc main_arg0) :=
  W13_launch m ρ c main_arg0 (by decide) (by decide) (by decide) (by decide) (by decide) (by decide) (by decide) (by decide) (by decide) (by decide) (by decide) (by decide) (by decide)
theorem W13_main_arg1 (c : Dev nD) : W13 m ρ c (Proc.devRef .tc main_arg1) = m ((c : Thread nD τ).loc main_arg1) :=
  W13_launch m ρ c main_arg1 (by decide) (by decide) (by decide) (by decide) (by decide) (by decide) (by decide) (by decide) (by decide) (by decide) (by decide) (by decide) (by decide)
theorem W13_main_arg2 (c : Dev nD) : W13 m ρ c (Proc.devRef .tc main_arg2) = m ((c : Thread nD τ).loc main_arg2) :=
  W13_launch m ρ c main_arg2 (by decide) (by decide) (by decide) (by decide) (by decide) (by decide) (by decide) (by decide) (by decide) (by decide) (by decide) (by decide) (by decide)
theorem W13_main_arg3 (c : Dev nD) : W13 m ρ c (Proc.devRef .tc main_arg3) = m ((c : Thread nD τ).loc main_arg3) :=
  W13_launch m ρ c main_arg3 (by decide) (by decide) (by decide) (by decide) (by decide) (by decide) (by decide) (by decide) (by decide) (by decide) (by decide) (by decide) (by decide)
theorem W13_main_arg4 (c : Dev nD) : W13 m ρ c (Proc.devRef .tc main_arg4) = m ((c : Thread nD τ).loc main_arg4) :=
  W13_launch m ρ c main_arg4 (by decide) (by decide) (by decide) (by decide) (by decide) (by decide) (by decide) (by decide) (by decide) (by decide) (by decide) (by decide) (by decide)
theorem W13_main_arg5 (c : Dev nD) : W13 m ρ c (Proc.devRef .tc main_arg5) = m ((c : Thread nD τ).loc main_arg5) :=
  W13_launch m ρ c main_arg5 (by decide) (by decide) (by decide) (by decide) (by decide) (by decide) (by decide) (by decide) (by decide) (by decide) (by decide) (by decide) (by decide)
theorem W13_main_arg6 (c : Dev nD) : W13 m ρ c (Proc.devRef .tc main_arg6) = m ((c : Thread nD τ).loc main_arg6) :=
  W13_launch m ρ c main_arg6 (by decide) (by decide) (by decide) (by decide) (by decide) (by decide) (by decide) (by decide) (by decide) (by decide) (by decide) (by decide) (by decide)
theorem W13_main_arg7 (c : Dev nD) : W13 m ρ c (Proc.devRef .tc main_arg7) = m ((c : Thread nD τ).loc main_arg7) :=
  W13_launch m ρ c main_arg7 (by decide) (by decide) (by decide) (by decide) (by decide) (by decide) (by decide) (by decide) (by decide) (by decide) (by decide) (by decide) (by decide)
theorem W13_main_arg8 (c : Dev nD) : W13 m ρ c (Proc.devRef .tc main_arg8) = m ((c : Thread nD τ).loc main_arg8) :=
  W13_launch m ρ c main_arg8 (by decide) (by decide) (by decide) (by decide) (by decide) (by decide) (by decide) (by decide) (by decide) (by decide) (by decide) (by decide) (by decide)
theorem W13_main_arg9 (c : Dev nD) : W13 m ρ c (Proc.devRef .tc main_arg9) = m ((c : Thread nD τ).loc main_arg9) :=
  W13_launch m ρ c main_arg9 (by decide) (by decide) (by decide) (by decide) (by decide) (by decide) (by decide) (by decide) (by decide) (by decide) (by decide) (by decide) (by decide)
theorem W13_main_arg10 (c : Dev nD) : W13 m ρ c (Proc.devRef .tc main_arg10) = m ((c : Thread nD τ).loc main_arg10) :=
  W13_launch m ρ c main_arg10 (by decide) (by decide) (by decide) (by decide) (by decide) (by decide) (by decide) (by decide) (by decide) (by decide) (by decide) (by decide) (by decide)
theorem W13_main_arg11 (c : Dev nD) : W13 m ρ c (Proc.devRef .tc main_arg11) = m ((c : Thread nD τ).loc main_arg11) :=
  W13_launch m ρ c main_arg11 (by decide) (by decide) (by decide) (by decide) (by decide) (by decide) (by decide) (by decide) (by decide) (by decide) (by decide) (by decide) (by decide)

/-! ## The proof data family and the thread state -/

/-- No pipeline has a prefetched table. -/
abbrev admT : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) admT p) c
  | ⟨0, _⟩ => fun c => dat0 (X1 m ρ) c
  | ⟨1, _⟩ => fun c => dat1 (X5 m ρ) c
  | ⟨2, _⟩ => fun c => dat2 (X6 m ρ) c
  | ⟨3, _⟩ => fun c => dat3 (X10 m ρ) c
  | ⟨4, _⟩ => fun c => dat4 (X12 m ρ) c
abbrev 𝒱₀ : Variants := Variants.none
/-- No core owes another anything. -/
abbrev Lz : GSem nD τ sig → Finset Unit := fun _ => ∅
abbrev lvz : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)
/-- A stretch as a segment over the unscoped references from the contents `W`. -/
abbrev hsegT (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- Region 0 over the thread state: its arrays split out of the unscoped buffers and put back at the exit contents;
    the generator register into the class invariant and out; nothing owed; no semaphore of the kernel's own. -/
def reg0 : Pipeline.RegionSeg (pcfgs (F := F)) admT (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (X1 m ρ) c).loose
  hwaits := Pipeline.hwaits_of_owed_zero _ _ _ _ Lz lvz 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (X1 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (X1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (X1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers and put back at the exit contents;
    the generator register into the class invariant and out; nothing owed; no semaphore of the kernel's own. -/
def reg1 : Pipeline.RegionSeg (pcfgs (F := F)) admT (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (X5 m ρ) c).loose
  hwaits := Pipeline.hwaits_of_owed_zero _ _ _ _ Lz lvz 1 fun _ _ => rfl
  pre c := iprop(StableHlo.held (c : Thread nD τ) (Pipeline.ucRefs τ sig) (W5 m ρ c) ∗ Rr c)
  post c := iprop(StableHlo.held (c : Thread nD τ) (Pipeline.ucRefs τ sig) (W6 m ρ c) ∗ Rr c)
  X c := iprop(∃ r, prngReg c r)
  Y c := iprop(∃ r, prngReg c r)
  Z c := Pipeline.unscopedRest (Ix := Unit) (Name := ℕ) (U := UR sig nD τ) (Lvl := ℕ) spec1 c (X5 m ρ c)
  hentry c := by
    rw [Pipeline.ownSems0_none]
    have hsplit := Pipeline.arrays_of_unscopedBufs (p := 1) (pcfgs (F := F)) admT (pdats m ρ) launch1.win launch1.arr_whole c
      ((pdats m ρ 1 c).share_full fun _ => rfl) (X5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m ρ) ((pdats m ρ 1 c).share_full fun _ => rfl)
      (X5 m ρ c) (X6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers and put back at the exit contents;
    the generator register into the class invariant and out; nothing owed; no semaphore of the kernel's own. -/
def reg2 : Pipeline.RegionSeg (pcfgs (F := F)) admT (pdats m ρ) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (X6 m ρ) c).loose
  hwaits := Pipeline.hwaits_of_owed_zero _ _ _ _ Lz lvz 2 fun _ _ => rfl
  pre c := iprop(StableHlo.held (c : Thread nD τ) (Pipeline.ucRefs τ sig) (W6 m ρ c) ∗ Rr c)
  post c := iprop(StableHlo.held (c : Thread nD τ) (Pipeline.ucRefs τ sig) (W7 m ρ c) ∗ Rr c)
  X c := iprop(∃ r, prngReg c r)
  Y c := iprop(∃ r, prngReg c r)
  Z c := Pipeline.unscopedRest (Ix := Unit) (Name := ℕ) (U := UR sig nD τ) (Lvl := ℕ) spec2 c (X6 m ρ c)
  hentry c := by
    rw [Pipeline.ownSems0_none]
    have hsplit := Pipeline.arrays_of_unscopedBufs (p := 2) (pcfgs (F := F)) admT (pdats m ρ) launch2.win launch2.arr_whole c
      ((pdats m ρ 2 c).share_full fun _ => rfl) (X6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admT (Ix := Unit) (Name := ℕ) (U := UR sig nD τ) (Lvl := ℕ)
      launch2.win launch2.arr_whole c (pdats m ρ) ((pdats m ρ 2 c).share_full fun _ => rfl)
      (X6 m ρ c) (X7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: its arrays split out of the unscoped buffers and put back at the exit contents;
    the generator register into the class invariant and out; nothing owed; no semaphore of the kernel's own. -/
def reg3 : Pipeline.RegionSeg (pcfgs (F := F)) admT (pdats m ρ) () defs₀ 𝒱₀ Lz lvz 3 where
  win := launch3.win.to₀
  block_pos := launch3.block_pos
  stage_whole := launch3.stage_whole
  K := PEmpty
  osem k := k.elim
  ho := Pipeline.OwnSemFacts.none _
  hbody c := (body_obligation3 (X10 m ρ) c).loose
  hwaits := Pipeline.hwaits_of_owed_zero _ _ _ _ Lz lvz 3 fun _ _ => rfl
  pre c := iprop(StableHlo.held (c : Thread nD τ) (Pipeline.ucRefs τ sig) (W10 m ρ c) ∗ Rr c)
  post c := iprop(StableHlo.held (c : Thread nD τ) (Pipeline.ucRefs τ sig) (W11 m ρ c) ∗ Rr c)
  X c := iprop(∃ r, prngReg c r)
  Y c := iprop(∃ r, prngReg c r)
  Z c := Pipeline.unscopedRest (Ix := Unit) (Name := ℕ) (U := UR sig nD τ) (Lvl := ℕ) spec3 c (X10 m ρ c)
  hentry c := by
    rw [Pipeline.ownSems0_none]
    have hsplit := Pipeline.arrays_of_unscopedBufs (p := 3) (pcfgs (F := F)) admT (pdats m ρ) launch3.win launch3.arr_whole c
      ((pdats m ρ 3 c).share_full fun _ => rfl) (X10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admT (Ix := Unit) (Name := ℕ) (U := UR sig nD τ) (Lvl := ℕ)
      launch3.win launch3.arr_whole c (pdats m ρ) ((pdats m ρ 3 c).share_full fun _ => rfl)
      (X10 m ρ c) (X11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: its arrays split out of the unscoped buffers and put back at the exit contents;
    the generator register into the class invariant and out; nothing owed; no semaphore of the kernel's own. -/
def reg4 : Pipeline.RegionSeg (pcfgs (F := F)) admT (pdats m ρ) () defs₀ 𝒱₀ Lz lvz 4 where
  win := launch4.win.to₀
  block_pos := launch4.block_pos
  stage_whole := launch4.stage_whole
  K := PEmpty
  osem k := k.elim
  ho := Pipeline.OwnSemFacts.none _
  hbody c := (body_obligation4 (X12 m ρ) c).loose
  hwaits := Pipeline.hwaits_of_owed_zero _ _ _ _ Lz lvz 4 fun _ _ => rfl
  pre c := iprop(StableHlo.held (c : Thread nD τ) (Pipeline.ucRefs τ sig) (W12 m ρ c) ∗ Rr c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (X12 m ρ c)
  hentry c := by
    rw [Pipeline.ownSems0_none]
    have hsplit := Pipeline.arrays_of_unscopedBufs (p := 4) (pcfgs (F := F)) admT (pdats m ρ) launch4.win launch4.arr_whole c
      ((pdats m ρ 4 c).share_full fun _ => rfl) (X12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admT (Ix := Unit) (Name := ℕ) (U := UR sig nD τ) (Lvl := ℕ)
      launch4.win launch4.arr_whole c (pdats m ρ) ((pdats m ρ 4 c).share_full fun _ => rfl)
      (X12 m ρ c) (X13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's thirteen items in order. -/
abbrev pipeSegs : List (Pipeline.Seg (pcfgs (F := F)) admT (pdats m ρ) () defs₀ 𝒱₀ Lz lvz) :=
  [ .host (hsegT hostOps0 hostOps0_sub hostOps0_fresh (W0 m ρ)),
    .region (reg0 m ρ),
    .host (hsegT hostOps1 hostOps1_sub hostOps1_fresh (W2 m ρ)),
    .host (hsegT hostOps1_1 hostOps1_1_sub hostOps1_1_fresh (W3 m ρ)),
    .host (hsegT hostOps1_2 hostOps1_2_sub hostOps1_2_fresh (W4 m ρ)),
    .region (reg1 m ρ),
    .region (reg2 m ρ),
    .host (hsegT hostOps3 hostOps3_sub hostOps3_fresh (W7 m ρ)),
    .host (hsegT hostOps3_1 hostOps3_1_sub hostOps3_1_fresh (W8 m ρ)),
    .host (hsegT hostOps3_2 hostOps3_2_sub hostOps3_2_fresh (W9 m ρ)),
    .region (reg3 m ρ),
    .host (hsegT hostOps4 hostOps4_sub hostOps4_fresh (W11 m ρ)),
    .region (reg4 m ρ) ]
/-- @main is the run of the segments. -/
theorem main_run (c : Dev nD) : main (F := F) c = Pipeline.Seg.run (pipeSegs m ρ) := (main_chain c).trans (by chain_rfl)

set_option backward.isDefEq.respectTransparency.types false in
/-- From any memory with zero counters every weakly fair execution of @main terminates, nothing faulting, and every
    unscoped buffer of every core ends at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) admT (pdats m ρ) () cellOf_inj emb₁ defs₀ 𝒱₀ Lz lvz m ρ main (pipeSegs m ρ)
    (fun c Q => by rw [main_run m ρ c])
    (by simp only [pipeSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tend m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-- The frame: the twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c)⟩)
    (run_all m ρ)

/-- The run with the result array named: it ends at the last valuation's `main_v134`, the arguments as launched. -/
theorem run_result : θ_run defs (onTc (τ := τ) (main (F := F))) ⟨m, fun _ => 0, ρ⟩ (fun r => ∀ c : Dev nD,
      r.2.mem ((c.tc : Thread nD τ).loc main_v134) = W13 m ρ c (Proc.devRef .tc main_v134)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v134 (by decide)),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c)⟩)
    (run_all m ρ)

end Cert.KernelIdeal.Fr

end
-- ==== Proof.Spec.lean ====
import proofs.«178479_j10943576671010_1_alg».proof.Proof.Gen.ReferenceIdeal
import proofs.«178479_j10943576671010_1_alg».proof.Proof.Gen.KernelIdeal
import Idealize.ShloMosaic.PureOps.Ideal
import Idealize.ShloMosaic.Lib.ValueIdx

/-!
# The stages of the two-layer graph network, as functions of arrays

Both programs compute, for node features `x : [N,256]` and an edge list `e : [2,E]`,

* a linear map `h = x · W`;
* a graph convolution `conv h e b`: with the self loops appended to the edge list (`src`, `dst`), the in-degree
  `deg` of every node, `dinv = deg^(-1/2)` where the degree is positive and `0` elsewhere, the edge weight
  `norm = dinv[src] · dinv[dst]`, the messages `h[src] · norm` summed into their destination rows, plus the bias;
* a batch normalisation over the node axis followed by `max(·, 0)`: with the column mean `mean`, the biased column
  variance `var` and `rstd = (var + ε)^(-1/2)`, the value `((x − mean) · rstd) · γ + β`;
* the same three once more at widths 128 → 64;
* the three feature blocks side by side, a last linear map, a bias and `max(·, 0)`.

The definitions below spell each stage exactly as the host operations of the plain program compose it, so that the
plain program's result is `final` of its arguments by unfolding, and the tiled program's host stretches are the same
stages of what its kernels leave.  The tiled program applies the normalisation in the other arrangement,
`x · (γ · rstd) + (β − mean · (γ · rstd))`, through `scale` and `shift`.
-/

noncomputable section

namespace Cert.Spec

open Idealize.ShloMosaic Cert.ReferenceIdeal Cert.ReferenceIdeal.Facts₀

variable {F : FTy → Type} [FloatOps F]

abbrev FV (F : FTy → Type) (s : Shape) : Type := (⟨s, .f32⟩ : BufTy).Contents (Elt F)
abbrev IV (F : FTy → Type) (s : Shape) : Type := (⟨s, .i32⟩ : BufTy).Contents (Elt F)

/-! ## The edge list -/

/-- The sources: row 0 of the edge list. -/
def idxRow0 (e : (IV F S2x1600000)) : (IV F S1600000) :=
  shapeCast S1600000 (extractStridedSlice S1x1600000 ![0, 0] e slices_S2x1600000_S1x1600000_0_0) shapeCasts_S1x1600000_S1600000

/-- The destinations: row 1 of the edge list. -/
def idxRow1 (e : (IV F S2x1600000)) : (IV F S1600000) :=
  shapeCast S1600000 (extractStridedSlice S1x1600000 ![1, 0] e slices_S2x1600000_S1x1600000_1_0) shapeCasts_S1x1600000_S1600000

/-- A row of the edge list with one self loop per node appended. -/
def withLoops (r : (IV F S1600000)) : (IV F S1700000) :=
  concatenate S1700000 0 [⟨S1600000, r⟩, ⟨S100000, iotaInDim S100000 32 0⟩] concatenates_S1600000_S100000_S1700000_d0

def src (e : (IV F S2x1600000)) : (IV F S1700000) := withLoops (idxRow0 e)
def dst (e : (IV F S2x1600000)) : (IV F S1700000) := withLoops (idxRow1 e)

/-- An index vector as a column of start indices. -/
def col (i : (IV F S1700000)) : (IV F S1700000x1) := broadcastInDim S1700000x1 ![0] bcast_S1700000_S1700000x1_0 i

/-- A negative index counted from the end. -/
def wrap (i : (IV F S1700000)) : (IV F S1700000) :=
  select (cmpi .slt i (broadcastInDim S1700000 ![] bcast_S_S1700000 (constantI S_ 32 0#32)))
    (addi i (broadcastInDim S1700000 ![] bcast_S_S1700000 (constantI S_ 32 100000#32))) i

/-! ## The symmetric normalisation -/

/-- The in-degree of every node: ones summed into their destinations. -/
def deg (d : (IV F S1700000)) : (FV F S100000) :=
  Host.scatterAdd scatter_S100000_S1700000x1_S1700000_n_0_0_1
    (broadcastInDim S100000 ![] bcast_S_S100000 (constant S_ .f32 0x00000000#32)) (col d)
    (broadcastInDim S1700000 ![] bcast_S_S1700000 (constant S_ .f32 0x3F800000#32))

/-- `deg^(-1/2)` where the degree is positive, `0` elsewhere. -/
def dinv (d : (IV F S1700000)) : (FV F S100000) :=
  select (cmpf .ogt (deg d) (broadcastInDim S100000 ![] bcast_S_S100000 (constant S_ .f32 0x00000000#32)))
    (Host.rsqrt (maximumf (deg d) (broadcastInDim S100000 ![] bcast_S_S100000 (constant S_ .f32 0x3F800000#32))))
    (broadcastInDim S100000 ![] bcast_S_S100000 (id (constant S_ .f32 0x00000000#32)))

/-- The weight of every edge. -/
def norm (s d : (IV F S1700000)) : (FV F S1700000) :=
  mulf (Host.gather gather_S100000_S1700000x1_S1700000_n_0_n_n_0_1_1 (dinv d) (col (wrap s)))
    (Host.gather gather_S100000_S1700000x1_S1700000_n_0_n_n_0_1_1 (dinv d) (col (wrap d)))

/-- The edge weights as a column. -/
def normCol (s d : (IV F S1700000)) : (FV F S1700000x1) := broadcastInDim S1700000x1 ![0] bcast_S1700000_S1700000x1_0 (norm s d)

/-! ## Width 128 -/

def mm1 (x : (FV F S100000x256)) (w : (FV F S256x128)) : (FV F S100000x128) :=
  Host.dotGeneral dot_S100000x256_S256x128_S100000x128_1_0_0_1_n_n none x w

def conv128 (h : (FV F S100000x128)) (s d : (IV F S1700000)) (b : (FV F S128)) : (FV F S100000x128) :=
  addf (Host.scatterAdd scatter_S100000x128_S1700000x1_S1700000x128_1_0_0_1
      (broadcastInDim S100000x128 ![] bcast_S_S100000x128 (constant S_ .f32 0x00000000#32)) (col d)
      (mulf (Host.gather gather_S100000x128_S1700000x1_S1700000x128_1_0_n_n_0_1_1128 h (col (wrap s)))
        (broadcastInDim S1700000x128 ![0, 1] bcast_S1700000x1_S1700000x128_0_1 (normCol s d))))
    (broadcastInDim S100000x128 ![0, 1] bcast_S1x128_S100000x128_0_1 (broadcastInDim S1x128 ![1] bcast_S128_S1x128_1 b))

/-- A vector over the columns repeated down the rows. -/
def rows128 (v : (FV F S128)) : (FV F S100000x128) :=
  broadcastInDim S100000x128 ![0, 1] bcast_S1x128_S100000x128_0_1 (broadcastInDim S1x128 ![1] bcast_S128_S1x128_1 v)

def mean128 (x : (FV F S100000x128)) : (FV F S128) :=
  Host.divf (Host.reduceAdd x (constant S_ .f32 0x00000000#32) reducesTo_S100000x128_S128_d0 h_S_)
    (broadcastInDim S128 ![] bcast_S_S128 (constant S_ .f32 0x47C35000#32))

def var128 (x : (FV F S100000x128)) : (FV F S128) :=
  Host.divf (Host.reduceAdd (mulf (subf x (rows128 (mean128 x))) (subf x (rows128 (mean128 x))))
      (constant S_ .f32 0x00000000#32) reducesTo_S100000x128_S128_d0 h_S_)
    (broadcastInDim S128 ![] bcast_S_S128 (constant S_ .f32 0x47C35000#32))

def rstd128 (x : (FV F S100000x128)) : (FV F S128) :=
  Host.rsqrt (addf (var128 x) (broadcastInDim S128 ![] bcast_S_S128 (constant S_ .f32 0x3727C5AC#32)))

/-- Normalisation then `max(·, 0)`, in the arrangement `((x − mean) · rstd) · γ + β`. -/
def bnRef128 (x : (FV F S100000x128)) (g be : (FV F S128)) : (FV F S100000x128) :=
  maximumf (addf (mulf (mulf (subf x (rows128 (mean128 x))) (rows128 (rstd128 x))) (rows128 g)) (rows128 be))
    (broadcastInDim S100000x128 ![] bcast_S_S100000x128 (constant S_ .f32 0x00000000#32))

/-- `γ · rstd`, as a row. -/
def scale128 (x : (FV F S100000x128)) (g : (FV F S128)) : (FV F Cert.KernelIdeal.S1x128) :=
  shapeCast Cert.KernelIdeal.S1x128 (mulf g (rstd128 x)) Cert.KernelIdeal.Facts₀.shapeCasts_S128_S1x128

/-- `β − mean · (γ · rstd)`, as a row. -/
def shift128 (x : (FV F S100000x128)) (g be : (FV F S128)) : (FV F Cert.KernelIdeal.S1x128) :=
  shapeCast Cert.KernelIdeal.S1x128 (subf be (mulf (mean128 x) (mulf g (rstd128 x)))) Cert.KernelIdeal.Facts₀.shapeCasts_S128_S1x128

/-! ## Width 64 -/

def mm2 (x : (FV F S100000x128)) (w : (FV F S128x64)) : (FV F S100000x64) :=
  Host.dotGeneral dot_S100000x128_S128x64_S100000x64_1_0_0_1_n_n none x w

def conv64 (h : (FV F S100000x64)) (s d : (IV F S1700000)) (b : (FV F S64)) : (FV F S100000x64) :=
  addf (Host.scatterAdd scatter_S100000x64_S1700000x1_S1700000x64_1_0_0_1
      (broadcastInDim S100000x64 ![] bcast_S_S100000x64 (constant S_ .f32 0x00000000#32)) (col d)
      (mulf (Host.gather gather_S100000x64_S1700000x1_S1700000x64_1_0_n_n_0_1_164 h (col (wrap s)))
        (broadcastInDim S1700000x64 ![0, 1] bcast_S1700000x1_S1700000x64_0_1 (normCol s d))))
    (broadcastInDim S100000x64 ![0, 1] bcast_S1x64_S100000x64_0_1 (broadcastInDim S1x64 ![1] bcast_S64_S1x64_1 b))

def rows64 (v : (FV F S64)) : (FV F S100000x64) :=
  broadcastInDim S100000x64 ![0, 1] bcast_S1x64_S100000x64_0_1 (broadcastInDim S1x64 ![1] bcast_S64_S1x64_1 v)

def mean64 (x : (FV F S100000x64)) : (FV F S64) :=
  Host.divf (Host.reduceAdd x (constant S_ .f32 0x00000000#32) reducesTo_S100000x64_S64_d0 h_S_)
    (broadcastInDim S64 ![] bcast_S_S64 (constant S_ .f32 0x47C35000#32))

def var64 (x : (FV F S100000x64)) : (FV F S64) :=
  Host.divf (Host.reduceAdd (mulf (subf x (rows64 (mean64 x))) (subf x (rows64 (mean64 x))))
      (constant S_ .f32 0x00000000#32) reducesTo_S100000x64_S64_d0 h_S_)
    (broadcastInDim S64 ![] bcast_S_S64 (constant S_ .f32 0x47C35000#32))

def rstd64 (x : (FV F S100000x64)) : (FV F S64) :=
  Host.rsqrt (addf (var64 x) (broadcastInDim S64 ![] bcast_S_S64 (constant S_ .f32 0x3727C5AC#32)))

def bnRef64 (x : (FV F S100000x64)) (g be : (FV F S64)) : (FV F S100000x64) :=
  maximumf (addf (mulf (mulf (subf x (rows64 (mean64 x))) (rows64 (rstd64 x))) (rows64 g)) (rows64 be))
    (broadcastInDim S100000x64 ![] bcast_S_S100000x64 (constant S_ .f32 0x00000000#32))

def scale64 (x : (FV F S100000x64)) (g : (FV F S64)) : (FV F Cert.KernelIdeal.S1x64) :=
  shapeCast Cert.KernelIdeal.S1x64 (mulf g (rstd64 x)) Cert.KernelIdeal.Facts₀.shapeCasts_S64_S1x64

def shift64 (x : (FV F S100000x64)) (g be : (FV F S64)) : (FV F Cert.KernelIdeal.S1x64) :=
  shapeCast Cert.KernelIdeal.S1x64 (subf be (mulf (mean64 x) (mulf g (rstd64 x)))) Cert.KernelIdeal.Facts₀.shapeCasts_S64_S1x64

/-! ## The head -/

/-- The three feature blocks side by side. -/
def cat448 (a : (FV F S100000x256)) (b : (FV F S100000x128)) (c : (FV F S100000x64)) : (FV F S100000x448) :=
  concatenate S100000x448 1 [⟨S100000x256, a⟩, ⟨S100000x128, b⟩, ⟨S100000x64, c⟩] concatenates_S100000x256_S100000x128_S100000x64_S100000x448_d1

/-- The last linear map, its bias, and `max(·, 0)`. -/
def fc (x : (FV F S100000x448)) (w : (FV F S448x256)) (b : (FV F S256)) : (FV F S100000x256) :=
  maximumf (addf (Host.dotGeneral dot_S100000x448_S448x256_S100000x256_1_0_0_1_n_n none x w)
      (broadcastInDim S100000x256 ![0, 1] bcast_S1x256_S100000x256_0_1 (broadcastInDim S1x256 ![1] bcast_S256_S1x256_1 b)))
    (broadcastInDim S100000x256 ![] bcast_S_S100000x256 (constant S_ .f32 0x00000000#32))

/-- The bias of the head as a row. -/
def biasRow (b : (FV F S256)) : (FV F Cert.KernelIdeal.S1x256) :=
  shapeCast Cert.KernelIdeal.S1x256 b Cert.KernelIdeal.Facts₀.shapeCasts_S256_S1x256

/-! ## The tiled program's normalisation, as a function of whole arrays -/

/-- `max (x · s + t, 0)`, the rows `s` and `t` repeated down the node axis: what the scale-shift kernel computes. -/
def bnKer128 (x : FV Ideal S100000x128) (s t : FV Ideal Cert.KernelIdeal.S1x128) : FV Ideal S100000x128 :=
  fun i => (max ((x i : EReal) * (s (ValueIdx.ix2 (0 : Fin 1) (i 1)) : EReal) + (t (ValueIdx.ix2 (0 : Fin 1) (i 1)) : EReal)) 0 : EReal)

def bnKer64 (x : FV Ideal S100000x64) (s t : FV Ideal Cert.KernelIdeal.S1x64) : FV Ideal S100000x64 :=
  fun i => (max ((x i : EReal) * (s (ValueIdx.ix2 (0 : Fin 1) (i 1)) : EReal) + (t (ValueIdx.ix2 (0 : Fin 1) (i 1)) : EReal)) 0 : EReal)

/-! ## The whole network -/

def layer1 (x : (FV F S100000x256)) (e : (IV F S2x1600000)) (w1 : (FV F S256x128)) (b1 g1 be1 : (FV F S128)) : (FV F S100000x128) :=
  bnRef128 (conv128 (mm1 x w1) (src e) (dst e) b1) g1 be1

def layer2 (y : (FV F S100000x128)) (e : (IV F S2x1600000)) (w2 : (FV F S128x64)) (b2 g2 be2 : (FV F S64)) : (FV F S100000x64) :=
  bnRef64 (conv64 (mm2 y w2) (src e) (dst e) b2) g2 be2

def final (x : (FV F S100000x256)) (e : (IV F S2x1600000)) (w1 : (FV F S256x128)) (b1 g1 be1 : (FV F S128))
    (w2 : (FV F S128x64)) (b2 g2 be2 : (FV F S64)) (wfc : (FV F S448x256)) (bfc : (FV F S256)) : (FV F S100000x256) :=
  fc (cat448 x (layer1 x e w1 b1 g1 be1) (layer2 (layer1 x e w1 b1 g1 be1) e w2 b2 g2 be2)) wfc bfc

end Cert.Spec

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.KI.Val0.lean ====
/- What the first kernel, the [100000,256] × [256,128] product tiled in fifty blocks of 2000 rows, leaves in its output
   array at the ideal values: the whole-array product of the two arrays it reads.  Entry (p, q) of a block's payload is
   the sum over the 256 contracted coordinates of the products of the operands' entries (rounding to bf16 is the
   identity on the extended reals); block t's rows are rows 2000·t … 2000·t + 1999 of the left array and the right array
   is read whole, so what point t writes back is block t of the whole-array product; the fifty blocks cover the array. -/
import proofs.«178479_j10943576671010_1_alg».proof.Proof.KI.Region0
import proofs.«178479_j10943576671010_1_alg».proof.Proof.Spec
import proofs.«178479_j10943576671010_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, at the ideal values
variable (V : (c : Dev nD) → (b : Ref sig .tc) → Buf (Elt Ideal) ((c : Thread nD τ).loc b))

/-- The zero offsets of a whole-block access, spelt as the constant function. -/
theorem origin0 : (![0, 0] : Fin 2 → Nat) = fun _ => 0 := funext fun a => by fin_cases a <;> rfl

/-! ## A block's payload and the whole-array product, entry by entry -/

/-- Entry (p, q) of the block product: the sum over the contracted axis of the entries' products. -/
theorem pay0_apply (x : Vec Ideal S2000x256 .f32) (w : Vec Ideal S256x128 .f32) (p : Fin 2000) (q : Fin 128) :
    k0_pay1 x w (ix2 p q) = ∑ k : Fin 256, (x (ix2 p k) : EReal) * (w (ix2 k q) : EReal) := by
  unfold k0_pay1
  exact Cert.PlainMatmul.matmul_zero_apply Facts₀.dot_S2000x256_S256x128_S2000x128_1_0_0_1_n_n_wf none _ _ p q

/-- Entry (r, q) of the whole-array product: the same sum over the whole arrays' entries. -/
theorem mm1_apply (X : Cert.Spec.FV Ideal S100000x256) (W : Cert.Spec.FV Ideal S256x128) (r : Fin 100000) (q : Fin 128) :
    Cert.Spec.mm1 X W (ix2 r q) = ∑ k : Fin 256, (X (ix2 r k) : EReal) * (W (ix2 k q) : EReal) := by
  unfold Cert.Spec.mm1
  exact Cert.PlainMatmul.dotGeneral_apply Cert.ReferenceIdeal.Facts₀.dot_S100000x256_S256x128_S100000x128_1_0_0_1_n_n_wf none .single _ _ r q

/-! ## The blocks -/

/-- The printed index maps over the grid: the left operand's and the output's blocks move down the rows with the point,
    the right operand's block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 2000·t … 2000·t + 1999 of its array. -/
theorem iblk0_0_apply (c : Dev nD) (t : Fin cfg0.N) (x : S2000x256.Idx) (k : S100000x256.Idx)
    (hk0 : (k 0).val = 2000 * t.val + (x 0).val) (hk1 : (k 1).val = (x 1).val) :
    (Fr.iblk0 V c 0 t : Vec Ideal S2000x256 .f32) x = (V c main_arg0 : S100000x256.Idx → Elt Ideal .f32) k := by
  obtain ⟨e0, e1, -⟩ := idx_facts0 t
  unfold Fr.iblk0
  rw [View.read_apply]
  show V c main_arg0 _ = V c main_arg0 _
  refine congrArg (V c main_arg0) ?_
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 256 + 1 * (x 1).val = (k 1).val; rw [e1, hk1]; omega

/-- The right operand's block at every point is its whole array. -/
theorem iblk0_1_apply (c : Dev nD) (t : Fin cfg0.N) (x : S256x128.Idx) :
    (Fr.iblk0 V c 1 t : Vec Ideal S256x128 .f32) x = (V c main_arg2 : S256x128.Idx → Elt Ideal .f32) x := by
  obtain ⟨-, -, e0, e1, -⟩ := idx_facts0 t
  unfold Fr.iblk0
  rw [View.read_apply]
  show V c main_arg2 _ = V c main_arg2 _
  refine congrArg (V c main_arg2) ?_
  funext a
  apply Fin.ext
  match a with
  | ⟨0, _⟩ => show win0_1.index t (0 : Fin 2) * 256 + 1 * (x 0).val = (x 0).val; rw [e0]; omega
  | ⟨1, _⟩ => show win0_1.index t (1 : Fin 2) * 128 + 1 * (x 1).val = (x 1).val; rw [e1]; omega

/-- An entry of the output's block at point t sits in the array 2000·t rows further down. -/
theorem oblk0_emb (t : Fin cfg0.N) (p : Fin 2000) (q : Fin 128) (h : 2000 * t.val + p.val < 100000) :
    (((cfg0.win 2).blk t).view.emb (ix2 p q) : S100000x128.Idx) = ix2 (⟨2000 * t.val + p.val, h⟩ : Fin 100000) q := by
  obtain ⟨-, -, -, -, e0, e1⟩ := idx_facts0 t
  funext a
  apply Fin.ext
  match a with
  | ⟨0, _⟩ => show win0_2.index t (0 : Fin 2) * 2000 + 1 * p.val = 2000 * t.val + p.val; rw [e0]; omega
  | ⟨1, _⟩ => show win0_2.index t (1 : Fin 2) * 128 + 1 * q.val = q.val; rw [e1]; omega

/-- What point t writes back is block t of the whole-array product. -/
theorem flushed0_eq (c : Dev nD) (t : Fin cfg0.N) :
    (Fr.dat0 V c).flushed 2 t
      = ((cfg0.win 2).blk t).view.read (Elt Ideal) (Cert.Spec.mm1 (V c main_arg0) (V c main_arg2)) := by
  show (cfg0.win 2).cut (grid0.coords t) ((Fr.dat0 V c).after 2 t) = _
  rw [Fr.after0_2]
  unfold Fr.out0_2
  rw [View.canon_unit_zero origin0]
  simp only [View.ld_unit_zero (S := S2000x256) origin0, View.ld_unit_zero (S := S256x128) origin0]
  funext j
  obtain ⟨p, q, rfl⟩ : ∃ (p : Fin 2000) (q : Fin 128), j = ix2 p q := ⟨j 0, j 1, eq_ix2 j⟩
  have hN : cfg0.N = 50 := N_0
  have ht : t.val < 50 := hN ▸ t.isLt
  have hp : 2000 * t.val + p.val < 100000 := by have := p.isLt; omega
  show k0_pay1 (Fr.iblk0 V c 0 t) (Fr.iblk0 V c 1 t) (ix2 p q)
    = Cert.Spec.mm1 (V c main_arg0) (V c main_arg2) (((cfg0.win 2).blk t).view.emb (ix2 p q))
  rw [oblk0_emb t p q hp]
  refine (pay0_apply (Fr.iblk0 V c 0 t) (Fr.iblk0 V c 1 t) p q).trans ?_
  refine Eq.trans ?_ (mm1_apply (V c main_arg0) (V c main_arg2) ⟨2000 * t.val + p.val, hp⟩ q).symm
  refine Finset.sum_congr rfl fun k _ => ?_
  exact congrArg₂ (fun a b : EReal => a * b)
    (iblk0_0_apply V c t (ix2 p k) (ix2 (⟨2000 * t.val + p.val, hp⟩ : Fin 100000) k) rfl rfl)
    (iblk0_1_apply V c t (ix2 k q))

/-! ## The cover, and the array after the region -/

/-- An index of the array is in point t's block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v4).slice (win0_2.rect t)).set ↔ _
  rw [View.set_slice_whole, Rect.mem_set_unit]
  exact Iff.rfl

/-- Row r of the array is in the block of point r / 2000. -/
theorem cover0 (i : S100000x128.Idx) : ∃ t : Fin cfg0.N, (cfg0.win 2).flush t = true ∧ i ∈ ((cfg0.win 2).blk t).view.set := by
  have hN : cfg0.N = 50 := N_0
  have hi0 : (i 0).val < 100000 := idx2_lt0 i
  have hi1 : (i 1).val < 128 := idx2_lt1 i
  have ht : (i 0).val / 2000 < cfg0.N := by rw [hN]; omega
  obtain ⟨-, -, -, -, e0, e1⟩ := idx_facts0 ⟨(i 0).val / 2000, ht⟩
  have e0' : win0_2.index ⟨(i 0).val / 2000, ht⟩ (0 : Fin 2) = (i 0).val / 2000 := e0
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e0']; omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e1]; omega

/-- After the region the output array holds the whole-array product of the two arrays the kernel reads. -/
theorem val0 (c : Dev nD) : (Fr.dat0 V c).arrAt 2 cfg0.N = Cert.Spec.mm1 (V c main_arg0) (V c main_arg2) :=
  (Fr.dat0 V c).arrAt_eq_of_cover 2 (Cert.Spec.mm1 (V c main_arg0) (V c main_arg2)) (fun t _ => flushed0_eq V c t) cover0

end Cert.KernelIdeal.Val

end
-- ==== Proof.KI.Val1.lean ====
/- What the second kernel, the scale-shift-and-clamp over the [100000,128] array tiled in fifty blocks of 2000 rows, leaves
   in its output array at the ideal values: entry (r, q) is max(x(r, q) · s(0, q) + t(0, q), 0) for the array x and the two
   rows s and t it reads.  Entry (p, q) of a block's payload is that expression of the block's entry and the rows' entries
   (the rows are broadcast down the block); block t's rows are rows 2000·t … 2000·t + 1999 of x and the two rows are read
   whole, so what point t writes back is block t of the whole-array function; the fifty blocks cover the array. -/
import proofs.«178479_j10943576671010_1_alg».proof.Proof.KI.Region1
import proofs.«178479_j10943576671010_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, at the ideal values
variable (V : (c : Dev nD) → (b : Ref sig .tc) → Buf (Elt Ideal) ((c : Thread nD τ).loc b))

/-- The zero offsets of a whole-block access, spelt as the constant function. -/
theorem origin1 : (![0, 0] : Fin 2 → Nat) = fun _ => 0 := funext fun a => by fin_cases a <;> rfl

/-! ## A block's payload, entry by entry -/

/-- Entry (p, q) of the block's payload: the block's entry times the scale row's entry plus the shift row's entry,
    clamped below at zero. -/
theorem pay1_apply (x : Vec Ideal S2000x128 .f32) (s u : Vec Ideal S1x128 .f32) (p : Fin 2000) (q : Fin 128) :
    k1_pay1 x s u (ix2 p q)
      = (max ((x (ix2 p q) : EReal) * (s (ix2 (0 : Fin 1) q) : EReal) + (u (ix2 (0 : Fin 1) q) : EReal)) 0 : EReal) := by
  unfold k1_pay1
  simp only [shapeCast_self]
  show max ((x (ix2 p q) : EReal) * broadcastTo S2000x128 s Facts₀.broadcasts_S1x128_S2000x128 (ix2 p q)
      + broadcastTo S2000x128 u Facts₀.broadcasts_S1x128_S2000x128 (ix2 p q)) (Ideal.ofBits .f32 0x00000000#32) = _
  rw [broadcastTo_1b_ab_apply s Facts₀.broadcasts_S1x128_S2000x128 p q,
    broadcastTo_1b_ab_apply u Facts₀.broadcasts_S1x128_S2000x128 p q, Ideal.ofBits_zero_f32]

/-! ## The blocks -/

/-- The printed index maps over the grid: the array's and the output's blocks move down the rows with the point, the two
    rows' blocks stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The array's block at point t is rows 2000·t … 2000·t + 1999 of it. -/
theorem iblk1_0_apply (c : Dev nD) (t : Fin cfg1.N) (x : S2000x128.Idx) (k : S100000x128.Idx)
    (hk0 : (k 0).val = 2000 * t.val + (x 0).val) (hk1 : (k 1).val = (x 1).val) :
    (Fr.iblk1 V c 0 t : Vec Ideal S2000x128 .f32) x = (V c main_v48 : S100000x128.Idx → Elt Ideal .f32) k := by
  obtain ⟨e0, e1, -⟩ := idx_facts1 t
  unfold Fr.iblk1
  rw [View.read_apply]
  show V c main_v48 _ = V c main_v48 _
  refine congrArg (V c main_v48) ?_
  funext a
  apply Fin.ext
  match a with
  | ⟨0, _⟩ => show win1_0.index t (0 : Fin 2) * 2000 + 1 * (x 0).val = (k 0).val; rw [e0, hk0]; omega
  | ⟨1, _⟩ => show win1_0.index t (1 : Fin 2) * 128 + 1 * (x 1).val = (k 1).val; rw [e1, hk1]; omega

/-- The scale row's block at every point is the whole row. -/
theorem iblk1_1_apply (c : Dev nD) (t : Fin cfg1.N) (x : S1x128.Idx) :
    (Fr.iblk1 V c 1 t : Vec Ideal S1x128 .f32) x = (V c main_v65 : S1x128.Idx → Elt Ideal .f32) x := by
  obtain ⟨-, -, e0, e1, -⟩ := idx_facts1 t
  unfold Fr.iblk1
  rw [View.read_apply]
  show V c main_v65 _ = V c main_v65 _
  refine congrArg (V c main_v65) ?_
  funext a
  apply Fin.ext
  match a with
  | ⟨0, _⟩ => show win1_1.index t (0 : Fin 2) * 1 + 1 * (x 0).val = (x 0).val; rw [e0]; omega
  | ⟨1, _⟩ => show win1_1.index t (1 : Fin 2) * 128 + 1 * (x 1).val = (x 1).val; rw [e1]; omega

/-- The shift row's block at every point is the whole row. -/
theorem iblk1_2_apply (c : Dev nD) (t : Fin cfg1.N) (x : S1x128.Idx) :
    (Fr.iblk1 V c 2 t : Vec Ideal S1x128 .f32) x = (V c main_v66 : S1x128.Idx → Elt Ideal .f32) x := by
  obtain ⟨-, -, -, -, e0, e1, -⟩ := idx_facts1 t
  unfold Fr.iblk1
  rw [View.read_apply]
  show V c main_v66 _ = V c main_v66 _
  refine congrArg (V c main_v66) ?_
  funext a
  apply Fin.ext
  match a with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

/-- An entry of the output's block at point t sits in the array 2000·t rows further down. -/
theorem oblk1_emb (t : Fin cfg1.N) (p : Fin 2000) (q : Fin 128) (h : 2000 * t.val + p.val < 100000) :
    (((cfg1.win 3).blk t).view.emb (ix2 p q) : S100000x128.Idx) = ix2 (⟨2000 * t.val + p.val, h⟩ : Fin 100000) q := by
  obtain ⟨-, -, -, -, -, -, e0, e1⟩ := idx_facts1 t
  funext a
  apply Fin.ext
  match a with
  | ⟨0, _⟩ => show win1_3.index t (0 : Fin 2) * 2000 + 1 * p.val = 2000 * t.val + p.val; rw [e0]; omega
  | ⟨1, _⟩ => show win1_3.index t (1 : Fin 2) * 128 + 1 * q.val = q.val; rw [e1]; omega

/-- What point t writes back is block t of the whole-array function. -/
theorem flushed1_eq (c : Dev nD) (t : Fin cfg1.N) :
    (Fr.dat1 V c).flushed 3 t
      = ((cfg1.win 3).blk t).view.read (Elt Ideal) (Cert.Spec.bnKer128 (V c main_v48) (V c main_v65) (V c main_v66)) := by
  show (cfg1.win 3).cut (grid1.coords t) ((Fr.dat1 V c).after 3 t) = _
  rw [Fr.after1_3]
  unfold Fr.out1_3
  rw [View.canon_unit_zero origin1]
  simp only [View.ld_unit_zero (S := S2000x128) origin1, View.ld_unit_zero (S := S1x128) origin1]
  funext j
  obtain ⟨p, q, rfl⟩ : ∃ (p : Fin 2000) (q : Fin 128), j = ix2 p q := ⟨j 0, j 1, eq_ix2 j⟩
  have hN : cfg1.N = 50 := N_1
  have ht : t.val < 50 := hN ▸ t.isLt
  have hp : 2000 * t.val + p.val < 100000 := by have := p.isLt; omega
  show k1_pay1 (Fr.iblk1 V c 0 t) (Fr.iblk1 V c 1 t) (Fr.iblk1 V c 2 t) (ix2 p q)
    = Cert.Spec.bnKer128 (V c main_v48) (V c main_v65) (V c main_v66) (((cfg1.win 3).blk t).view.emb (ix2 p q))
  rw [oblk1_emb t p q hp]
  refine (pay1_apply (Fr.iblk1 V c 0 t) (Fr.iblk1 V c 1 t) (Fr.iblk1 V c 2 t) p q).trans ?_
  exact congrArg₂ (fun a b : EReal => max (a + b) 0)
    (congrArg₂ (fun a b : EReal => a * b)
      (iblk1_0_apply V c t (ix2 p q) (ix2 (⟨2000 * t.val + p.val, hp⟩ : Fin 100000) q) rfl rfl)
      (iblk1_1_apply V c t (ix2 (0 : Fin 1) q)))
    (iblk1_2_apply V c t (ix2 (0 : Fin 1) q))

/-! ## The cover, and the array after the region -/

/-- An index of the array is in point t's block iff each coordinate is in the block's range on its axis. -/
theorem mem_blk1 (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v67).slice (win1_3.rect t)).set ↔ _
  rw [View.set_slice_whole, Rect.mem_set_unit]
  exact Iff.rfl

/-- Row r of the array is in the block of point r / 2000. -/
theorem cover1 (i : S100000x128.Idx) : ∃ t : Fin cfg1.N, (cfg1.win 3).flush t = true ∧ i ∈ ((cfg1.win 3).blk t).view.set := by
  have hN : cfg1.N = 50 := N_1
  have hi0 : (i 0).val < 100000 := idx2_lt0 i
  have hi1 : (i 1).val < 128 := idx2_lt1 i
  have ht : (i 0).val / 2000 < cfg1.N := by rw [hN]; omega
  obtain ⟨-, -, -, -, -, -, e0, e1⟩ := idx_facts1 ⟨(i 0).val / 2000, ht⟩
  have e0' : win1_3.index ⟨(i 0).val / 2000, ht⟩ (0 : Fin 2) = (i 0).val / 2000 := e0
  refine ⟨⟨(i 0).val / 2000, ht⟩, flush1_3 _, ?_⟩
  rw [mem_blk1]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e0']; omega
  | ⟨1, _⟩ =>
    show win1_3.index ⟨(i 0).val / 2000, ht⟩ (1 : Fin 2) * 128 ≤ (i 1).val
      ∧ (i 1).val < win1_3.index ⟨(i 0).val / 2000, ht⟩ (1 : Fin 2) * 128 + 128
    rw [e1]; omega

/-- After the region the output array holds the scale-shift-and-clamp of the array by the two rows. -/
theorem val1 (c : Dev nD) :
    (Fr.dat1 V c).arrAt 3 cfg1.N = Cert.Spec.bnKer128 (V c main_v48) (V c main_v65) (V c main_v66) :=
  (Fr.dat1 V c).arrAt_eq_of_cover 3 (Cert.Spec.bnKer128 (V c main_v48) (V c main_v65) (V c main_v66))
    (fun t _ => flushed1_eq V c t) cover1

end Cert.KernelIdeal.Val

end
-- ==== Proof.KI.Val2.lean ====
/- What the third kernel, the [100000,128] × [128,64] product tiled in fifty blocks of 2000 rows, leaves in its output
   array at the ideal values: the whole-array product of the two arrays it reads.  Entry (p, q) of a block's payload is
   the sum over the 128 contracted coordinates of the products of the operands' entries (a reshape to the same shape and
   rounding to bf16 are the identity on the extended reals); block t's rows are rows 2000·t … 2000·t + 1999 of the left
   array and the right array is read whole, so what point t writes back is block t of the whole-array product; the fifty
   blocks cover the array. -/
import proofs.«178479_j10943576671010_1_alg».proof.Proof.KI.Region2
import proofs.«178479_j10943576671010_1_alg».proof.Proof.Spec
import proofs.«178479_j10943576671010_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, at the ideal values
variable (V : (c : Dev nD) → (b : Ref sig .tc) → Buf (Elt Ideal) ((c : Thread nD τ).loc b))

/-- The zero offsets of a whole-block access, spelt as the constant function. -/
theorem origin2 : (![0, 0] : Fin 2 → Nat) = fun _ => 0 := funext fun a => by fin_cases a <;> rfl

/-! ## A block's payload and the whole-array product, entry by entry -/

/-- Entry (p, q) of the block product: the sum over the contracted axis of the entries' products. -/
theorem pay2_apply (x : Vec Ideal S2000x128 .f32) (w : Vec Ideal S128x64 .f32) (p : Fin 2000) (q : Fin 64) :
    k2_pay1 x w (ix2 p q) = ∑ k : Fin 128, (x (ix2 p k) : EReal) * (w (ix2 k q) : EReal) := by
  unfold k2_pay1
  simp only [shapeCast_self]
  exact Cert.PlainMatmul.matmul_zero_apply Facts₀.dot_S2000x128_S128x64_S2000x64_1_0_0_1_n_n_wf none _ _ p q

/-- Entry (r, q) of the whole-array product: the same sum over the whole arrays' entries. -/
theorem mm2_apply (X : Cert.Spec.FV Ideal S100000x128) (W : Cert.Spec.FV Ideal S128x64) (r : Fin 100000) (q : Fin 64) :
    Cert.Spec.mm2 X W (ix2 r q) = ∑ k : Fin 128, (X (ix2 r k) : EReal) * (W (ix2 k q) : EReal) := by
  unfold Cert.Spec.mm2
  exact Cert.PlainMatmul.dotGeneral_apply Cert.ReferenceIdeal.Facts₀.dot_S100000x128_S128x64_S100000x64_1_0_0_1_n_n_wf none .single _ _ r q

/-! ## The blocks -/

/-- The printed index maps over the grid: the left operand's and the output's blocks move down the rows with the point,
    the right operand's block stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 2000·t … 2000·t + 1999 of its array. -/
theorem iblk2_0_apply (c : Dev nD) (t : Fin cfg2.N) (x : S2000x128.Idx) (k : S100000x128.Idx)
    (hk0 : (k 0).val = 2000 * t.val + (x 0).val) (hk1 : (k 1).val = (x 1).val) :
    (Fr.iblk2 V c 0 t : Vec Ideal S2000x128 .f32) x = (V c main_v67 : S100000x128.Idx → Elt Ideal .f32) k := by
  obtain ⟨e0, e1, -⟩ := idx_facts2 t
  unfold Fr.iblk2
  rw [View.read_apply]
  show V c main_v67 _ = V c main_v67 _
  refine congrArg (V c main_v67) ?_
  funext a
  apply Fin.ext
  match a with
  | ⟨0, _⟩ => show win2_0.index t (0 : Fin 2) * 2000 + 1 * (x 0).val = (k 0).val; rw [e0, hk0]; omega
  | ⟨1, _⟩ => show win2_0.index t (1 : Fin 2) * 128 + 1 * (x 1).val = (k 1).val; rw [e1, hk1]; omega

/-- The right operand's block at every point is its whole array. -/
theorem iblk2_1_apply (c : Dev nD) (t : Fin cfg2.N) (x : S128x64.Idx) :
    (Fr.iblk2 V c 1 t : Vec Ideal S128x64 .f32) x = (V c main_arg6 : S128x64.Idx → Elt Ideal .f32) x := by
  obtain ⟨-, -, e0, e1, -⟩ := idx_facts2 t
  unfold Fr.iblk2
  rw [View.read_apply]
  show V c main_arg6 _ = V c main_arg6 _
  refine congrArg (V c main_arg6) ?_
  funext a
  apply Fin.ext
  match a with
  | ⟨0, _⟩ => show win2_1.index t (0 : Fin 2) * 128 + 1 * (x 0).val = (x 0).val; rw [e0]; omega
  | ⟨1, _⟩ => show win2_1.index t (1 : Fin 2) * 64 + 1 * (x 1).val = (x 1).val; rw [e1]; omega

/-- An entry of the output's block at point t sits in the array 2000·t rows further down. -/
theorem oblk2_emb (t : Fin cfg2.N) (p : Fin 2000) (q : Fin 64) (h : 2000 * t.val + p.val < 100000) :
    (((cfg2.win 2).blk t).view.emb (ix2 p q) : S100000x64.Idx) = ix2 (⟨2000 * t.val + p.val, h⟩ : Fin 100000) q := by
  obtain ⟨-, -, -, -, e0, e1⟩ := idx_facts2 t
  funext a
  apply Fin.ext
  match a with
  | ⟨0, _⟩ => show win2_2.index t (0 : Fin 2) * 2000 + 1 * p.val = 2000 * t.val + p.val; rw [e0]; omega
  | ⟨1, _⟩ => show win2_2.index t (1 : Fin 2) * 64 + 1 * q.val = q.val; rw [e1]; omega

/-- What point t writes back is block t of the whole-array product. -/
theorem flushed2_eq (c : Dev nD) (t : Fin cfg2.N) :
    (Fr.dat2 V c).flushed 2 t
      = ((cfg2.win 2).blk t).view.read (Elt Ideal) (Cert.Spec.mm2 (V c main_v67) (V c main_arg6)) := by
  show (cfg2.win 2).cut (grid2.coords t) ((Fr.dat2 V c).after 2 t) = _
  rw [Fr.after2_2]
  unfold Fr.out2_2
  rw [View.canon_unit_zero origin2]
  simp only [View.ld_unit_zero (S := S2000x128) origin2, View.ld_unit_zero (S := S128x64) origin2]
  funext j
  obtain ⟨p, q, rfl⟩ : ∃ (p : Fin 2000) (q : Fin 64), j = ix2 p q := ⟨j 0, j 1, eq_ix2 j⟩
  have hN : cfg2.N = 50 := N_2
  have ht : t.val < 50 := hN ▸ t.isLt
  have hp : 2000 * t.val + p.val < 100000 := by have := p.isLt; omega
  show k2_pay1 (Fr.iblk2 V c 0 t) (Fr.iblk2 V c 1 t) (ix2 p q)
    = Cert.Spec.mm2 (V c main_v67) (V c main_arg6) (((cfg2.win 2).blk t).view.emb (ix2 p q))
  rw [oblk2_emb t p q hp]
  refine (pay2_apply (Fr.iblk2 V c 0 t) (Fr.iblk2 V c 1 t) p q).trans ?_
  refine Eq.trans ?_ (mm2_apply (V c main_v67) (V c main_arg6) ⟨2000 * t.val + p.val, hp⟩ q).symm
  refine Finset.sum_congr rfl fun k _ => ?_
  exact congrArg₂ (fun a b : EReal => a * b)
    (iblk2_0_apply V c t (ix2 p k) (ix2 (⟨2000 * t.val + p.val, hp⟩ : Fin 100000) k) rfl rfl)
    (iblk2_1_apply V c t (ix2 k q))

/-! ## The cover, and the array after the region -/

/-- An index of the array is in point t's block iff each coordinate is in the block's range on its axis. -/
theorem mem_blk2 (t : Fin cfg2.N) (i : S100000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v68).slice (win2_2.rect t)).set ↔ _
  rw [View.set_slice_whole, Rect.mem_set_unit]
  exact Iff.rfl

/-- Row r of the array is in the block of point r / 2000. -/
theorem cover2 (i : S100000x64.Idx) : ∃ t : Fin cfg2.N, (cfg2.win 2).flush t = true ∧ i ∈ ((cfg2.win 2).blk t).view.set := by
  have hN : cfg2.N = 50 := N_2
  have hi0 : (i 0).val < 100000 := idx2_lt0 i
  have hi1 : (i 1).val < 64 := idx2_lt1 i
  have ht : (i 0).val / 2000 < cfg2.N := by rw [hN]; omega
  obtain ⟨-, -, -, -, e0, e1⟩ := idx_facts2 ⟨(i 0).val / 2000, ht⟩
  have e0' : win2_2.index ⟨(i 0).val / 2000, ht⟩ (0 : Fin 2) = (i 0).val / 2000 := e0
  refine ⟨⟨(i 0).val / 2000, ht⟩, flush2_2 _, ?_⟩
  rw [mem_blk2]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e0']; omega
  | ⟨1, _⟩ =>
    show win2_2.index ⟨(i 0).val / 2000, ht⟩ (1 : Fin 2) * 64 ≤ (i 1).val
      ∧ (i 1).val < win2_2.index ⟨(i 0).val / 2000, ht⟩ (1 : Fin 2) * 64 + 64
    rw [e1]; omega

/-- After the region the output array holds the whole-array product of the two arrays the kernel reads. -/
theorem val2 (c : Dev nD) : (Fr.dat2 V c).arrAt 2 cfg2.N = Cert.Spec.mm2 (V c main_v67) (V c main_arg6) :=
  (Fr.dat2 V c).arrAt_eq_of_cover 2 (Cert.Spec.mm2 (V c main_v67) (V c main_arg6)) (fun t _ => flushed2_eq V c t) cover2

end Cert.KernelIdeal.Val

end
-- ==== Proof.KI.Val3.lean ====
/- What the fourth kernel, the scale-shift-and-clamp over the [100000,64] array tiled in fifty blocks of 2000 rows, leaves
   in its output array at the ideal values: entry (r, q) is max(x(r, q) · s(0, q) + t(0, q), 0) for the array x and the two
   rows s and t it reads.  Entry (p, q) of a block's payload is that expression of the block's entry and the rows' entries
   (the rows are broadcast down the block); block t's rows are rows 2000·t … 2000·t + 1999 of x and the two rows are read
   whole, so what point t writes back is block t of the whole-array function; the fifty blocks cover the array. -/
import proofs.«178479_j10943576671010_1_alg».proof.Proof.KI.Region3
import proofs.«178479_j10943576671010_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, at the ideal values
variable (V : (c : Dev nD) → (b : Ref sig .tc) → Buf (Elt Ideal) ((c : Thread nD τ).loc b))

/-- The zero offsets of a whole-block access, spelt as the constant function. -/
theorem origin3 : (![0, 0] : Fin 2 → Nat) = fun _ => 0 := funext fun a => by fin_cases a <;> rfl

/-! ## A block's payload, entry by entry -/

/-- Entry (p, q) of the block's payload: the block's entry times the scale row's entry plus the shift row's entry,
    clamped below at zero. -/
theorem pay3_apply (x : Vec Ideal S2000x64 .f32) (s u : Vec Ideal S1x64 .f32) (p : Fin 2000) (q : Fin 64) :
    k3_pay1 x s u (ix2 p q)
      = (max ((x (ix2 p q) : EReal) * (s (ix2 (0 : Fin 1) q) : EReal) + (u (ix2 (0 : Fin 1) q) : EReal)) 0 : EReal) := by
  unfold k3_pay1
  simp only [shapeCast_self]
  show max ((x (ix2 p q) : EReal) * broadcastTo S2000x64 s Facts₀.broadcasts_S1x64_S2000x64 (ix2 p q)
      + broadcastTo S2000x64 u Facts₀.broadcasts_S1x64_S2000x64 (ix2 p q)) (Ideal.ofBits .f32 0x00000000#32) = _
  rw [broadcastTo_1b_ab_apply s Facts₀.broadcasts_S1x64_S2000x64 p q,
    broadcastTo_1b_ab_apply u Facts₀.broadcasts_S1x64_S2000x64 p q, Ideal.ofBits_zero_f32]

/-! ## The blocks -/

/-- The printed index maps over the grid: the array's and the output's blocks move down the rows with the point, the two
    rows' blocks stay. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The array's block at point t is rows 2000·t … 2000·t + 1999 of it. -/
theorem iblk3_0_apply (c : Dev nD) (t : Fin cfg3.N) (x : S2000x64.Idx) (k : S100000x64.Idx)
    (hk0 : (k 0).val = 2000 * t.val + (x 0).val) (hk1 : (k 1).val = (x 1).val) :
    (Fr.iblk3 V c 0 t : Vec Ideal S2000x64 .f32) x = (V c main_v112 : S100000x64.Idx → Elt Ideal .f32) k := by
  obtain ⟨e0, e1, -⟩ := idx_facts3 t
  unfold Fr.iblk3
  rw [View.read_apply]
  show V c main_v112 _ = V c main_v112 _
  refine congrArg (V c main_v112) ?_
  funext a
  apply Fin.ext
  match a with
  | ⟨0, _⟩ => show win3_0.index t (0 : Fin 2) * 2000 + 1 * (x 0).val = (k 0).val; rw [e0, hk0]; omega
  | ⟨1, _⟩ => show win3_0.index t (1 : Fin 2) * 64 + 1 * (x 1).val = (k 1).val; rw [e1, hk1]; omega

/-- The scale row's block at every point is the whole row. -/
theorem iblk3_1_apply (c : Dev nD) (t : Fin cfg3.N) (x : S1x64.Idx) :
    (Fr.iblk3 V c 1 t : Vec Ideal S1x64 .f32) x = (V c main_v129 : S1x64.Idx → Elt Ideal .f32) x := by
  obtain ⟨-, -, e0, e1, -⟩ := idx_facts3 t
  unfold Fr.iblk3
  rw [View.read_apply]
  show V c main_v129 _ = V c main_v129 _
  refine congrArg (V c main_v129) ?_
  funext a
  apply Fin.ext
  match a with
  | ⟨0, _⟩ => show win3_1.index t (0 : Fin 2) * 1 + 1 * (x 0).val = (x 0).val; rw [e0]; omega
  | ⟨1, _⟩ => show win3_1.index t (1 : Fin 2) * 64 + 1 * (x 1).val = (x 1).val; rw [e1]; omega

/-- The shift row's block at every point is the whole row. -/
theorem iblk3_2_apply (c : Dev nD) (t : Fin cfg3.N) (x : S1x64.Idx) :
    (Fr.iblk3 V c 2 t : Vec Ideal S1x64 .f32) x = (V c main_v130 : S1x64.Idx → Elt Ideal .f32) x := by
  obtain ⟨-, -, -, -, e0, e1, -⟩ := idx_facts3 t
  unfold Fr.iblk3
  rw [View.read_apply]
  show V c main_v130 _ = V c main_v130 _
  refine congrArg (V c main_v130) ?_
  funext a
  apply Fin.ext
  match a with
  | ⟨0, _⟩ => show win3_2.index t (0 : Fin 2) * 1 + 1 * (x 0).val = (x 0).val; rw [e0]; omega
  | ⟨1, _⟩ => show win3_2.index t (1 : Fin 2) * 64 + 1 * (x 1).val = (x 1).val; rw [e1]; omega

/-- An entry of the output's block at point t sits in the array 2000·t rows further down. -/
theorem oblk3_emb (t : Fin cfg3.N) (p : Fin 2000) (q : Fin 64) (h : 2000 * t.val + p.val < 100000) :
    (((cfg3.win 3).blk t).view.emb (ix2 p q) : S100000x64.Idx) = ix2 (⟨2000 * t.val + p.val, h⟩ : Fin 100000) q := by
  obtain ⟨-, -, -, -, -, -, e0, e1⟩ := idx_facts3 t
  funext a
  apply Fin.ext
  match a with
  | ⟨0, _⟩ => show win3_3.index t (0 : Fin 2) * 2000 + 1 * p.val = 2000 * t.val + p.val; rw [e0]; omega
  | ⟨1, _⟩ => show win3_3.index t (1 : Fin 2) * 64 + 1 * q.val = q.val; rw [e1]; omega

/-- What point t writes back is block t of the whole-array function. -/
theorem flushed3_eq (c : Dev nD) (t : Fin cfg3.N) :
    (Fr.dat3 V c).flushed 3 t
      = ((cfg3.win 3).blk t).view.read (Elt Ideal) (Cert.Spec.bnKer64 (V c main_v112) (V c main_v129) (V c main_v130)) := by
  show (cfg3.win 3).cut (grid3.coords t) ((Fr.dat3 V c).after 3 t) = _
  rw [Fr.after3_3]
  unfold Fr.out3_3
  rw [View.canon_unit_zero origin3]
  simp only [View.ld_unit_zero (S := S2000x64) origin3, View.ld_unit_zero (S := S1x64) origin3]
  funext j
  obtain ⟨p, q, rfl⟩ : ∃ (p : Fin 2000) (q : Fin 64), j = ix2 p q := ⟨j 0, j 1, eq_ix2 j⟩
  have hN : cfg3.N = 50 := N_3
  have ht : t.val < 50 := hN ▸ t.isLt
  have hp : 2000 * t.val + p.val < 100000 := by have := p.isLt; omega
  show k3_pay1 (Fr.iblk3 V c 0 t) (Fr.iblk3 V c 1 t) (Fr.iblk3 V c 2 t) (ix2 p q)
    = Cert.Spec.bnKer64 (V c main_v112) (V c main_v129) (V c main_v130) (((cfg3.win 3).blk t).view.emb (ix2 p q))
  rw [oblk3_emb t p q hp]
  refine (pay3_apply (Fr.iblk3 V c 0 t) (Fr.iblk3 V c 1 t) (Fr.iblk3 V c 2 t) p q).trans ?_
  exact congrArg₂ (fun a b : EReal => max (a + b) 0)
    (congrArg₂ (fun a b : EReal => a * b)
      (iblk3_0_apply V c t (ix2 p q) (ix2 (⟨2000 * t.val + p.val, hp⟩ : Fin 100000) q) rfl rfl)
      (iblk3_1_apply V c t (ix2 (0 : Fin 1) q)))
    (iblk3_2_apply V c t (ix2 (0 : Fin 1) q))

/-! ## The cover, and the array after the region -/

/-- An index of the array is in point t's block iff each coordinate is in the block's range on its axis. -/
theorem mem_blk3 (t : Fin cfg3.N) (i : S100000x64.Idx) :
    i ∈ ((cfg3.win 3).blk t).view.set ↔ ∀ a : Fin 2, win3_3.index t a * S2000x64.size a ≤ (i a).val
      ∧ (i a).val < win3_3.index t a * S2000x64.size a + S2000x64.size a := by
  show i ∈ ((View.whole main_v131).slice (win3_3.rect t)).set ↔ _
  rw [View.set_slice_whole, Rect.mem_set_unit]
  exact Iff.rfl

/-- Row r of the array is in the block of point r / 2000. -/
theorem cover3 (i : S100000x64.Idx) : ∃ t : Fin cfg3.N, (cfg3.win 3).flush t = true ∧ i ∈ ((cfg3.win 3).blk t).view.set := by
  have hN : cfg3.N = 50 := N_3
  have hi0 : (i 0).val < 100000 := idx2_lt0 i
  have hi1 : (i 1).val < 64 := idx2_lt1 i
  have ht : (i 0).val / 2000 < cfg3.N := by rw [hN]; omega
  obtain ⟨-, -, -, -, -, -, e0, e1⟩ := idx_facts3 ⟨(i 0).val / 2000, ht⟩
  have e0' : win3_3.index ⟨(i 0).val / 2000, ht⟩ (0 : Fin 2) = (i 0).val / 2000 := e0
  refine ⟨⟨(i 0).val / 2000, ht⟩, flush3_3 _, ?_⟩
  rw [mem_blk3]
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    rw [e0']; omega
  | ⟨1, _⟩ =>
    show win3_3.index ⟨(i 0).val / 2000, ht⟩ (1 : Fin 2) * 64 ≤ (i 1).val
      ∧ (i 1).val < win3_3.index ⟨(i 0).val / 2000, ht⟩ (1 : Fin 2) * 64 + 64
    rw [e1]; omega

/-- After the region the output array holds the scale-shift-and-clamp of the array by the two rows. -/
theorem val3 (c : Dev nD) :
    (Fr.dat3 V c).arrAt 3 cfg3.N = Cert.Spec.bnKer64 (V c main_v112) (V c main_v129) (V c main_v130) :=
  (Fr.dat3 V c).arrAt_eq_of_cover 3 (Cert.Spec.bnKer64 (V c main_v112) (V c main_v129) (V c main_v130))
    (fun t _ => flushed3_eq V c t) cover3

end Cert.KernelIdeal.Val

end
-- ==== Proof.KI.Val4.lean ====
/- What the fifth kernel, the [100000,448] × [448,256] product with a bias row added and a clamp below at zero, tiled in
   fifty blocks of 2000 rows, leaves in its output array at the ideal values: the head of the network, the whole-array
   product plus the bias repeated down the rows, clamped at zero.  Entry (p, q) of a block's payload is the sum over the 448
   contracted coordinates of the products of the operands' entries (a reshape to the same shape and rounding to bf16 are
   the identity on the extended reals) plus the bias row's entry q, clamped; block t's rows are rows 2000·t … 2000·t + 1999
   of the left array, the right array and the bias row are read whole, and the bias row is the bias vector with a unit
   axis in front, so what point t writes back is block t of the whole-array function; the fifty blocks cover the array. -/
import proofs.«178479_j10943576671010_1_alg».proof.Proof.KI.Region4
import proofs.«178479_j10943576671010_1_alg».proof.Proof.Spec
import proofs.«178479_j10943576671010_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, at the ideal values
variable (V : (c : Dev nD) → (b : Ref sig .tc) → Buf (Elt Ideal) ((c : Thread nD τ).loc b))

/-- The zero offsets of a whole-block access, spelt as the constant function. -/
theorem origin4 : (![0, 0] : Fin 2 → Nat) = fun _ => 0 := funext fun a => by fin_cases a <;> rfl

/-! ## A block's payload and the head of the network, entry by entry -/

/-- Entry (p, q) of the block's payload: the sum over the contracted axis of the entries' products, plus the bias row's
    entry, clamped below at zero. -/
theorem pay4_apply (x : Vec Ideal S2000x448 .f32) (w : Vec Ideal S448x256 .f32) (b : Vec Ideal S1x256 .f32)
    (p : Fin 2000) (q : Fin 256) :
    k4_pay1 x w b (ix2 p q)
      = (max ((∑ k : Fin 448, (x (ix2 p k) : EReal) * (w (ix2 k q) : EReal)) + (b (ix2 (0 : Fin 1) q) : EReal)) 0 : EReal) := by
  unfold k4_pay1
  simp only [shapeCast_self]
  exact congrArg₂ (fun a z : EReal => max a z)
    (congrArg₂ (fun a d : EReal => a + d)
      (Cert.PlainMatmul.matmul_zero_apply Facts₀.dot_S2000x448_S448x256_S2000x256_1_0_0_1_n_n_wf none _ _ p q)
      (broadcastTo_1b_ab_apply b Facts₀.broadcasts_S1x256_S2000x256 p q))
    Ideal.ofBits_zero_f32

/-- Entry (r, q) of the head: the same sum over the whole arrays' entries, plus the bias vector's entry, clamped. -/
theorem fc_apply (X : Cert.Spec.FV Ideal S100000x448) (W : Cert.Spec.FV Ideal S448x256) (b : Cert.Spec.FV Ideal S256)
    (r : Fin 100000) (q : Fin 256) :
    Cert.Spec.fc X W b (ix2 r q)
      = (max ((∑ k : Fin 448, (X (ix2 r k) : EReal) * (W (ix2 k q) : EReal)) + (b (ix1 q) : EReal)) 0 : EReal) := by
  unfold Cert.Spec.fc
  -- the bias vector as a row, the row repeated down the rows, read at (r, q)
  have hrow : broadcastInDim S100000x256 ![0, 1] Cert.ReferenceIdeal.Facts₀.bcast_S1x256_S100000x256_0_1
      (broadcastInDim S1x256 ![1] Cert.ReferenceIdeal.Facts₀.bcast_S256_S1x256_1 b) (ix2 r q) = b (ix1 q) := by
    refine (broadcastInDim_apply _ Cert.ReferenceIdeal.Facts₀.bcast_S1x256_S100000x256_0_1 _ (ix2 r q) (ix2 (0 : Fin 1) q)
      (fun a => match a with
        | ⟨0, _⟩ => by show (0 : Nat) = if (1 : Nat) = 1 then 0 else r.val; rw [if_pos rfl]
        | ⟨1, _⟩ => by show q.val = if (256 : Nat) = 1 then 0 else q.val; rw [if_neg (by decide)])).trans ?_
    exact broadcastInDim_apply _ Cert.ReferenceIdeal.Facts₀.bcast_S256_S1x256_1 b (ix2 (0 : Fin 1) q) (ix1 q)
      (fun a => match a with
        | ⟨0, _⟩ => by show q.val = if (256 : Nat) = 1 then 0 else q.val; rw [if_neg (by decide)])
  -- the zero the sum is clamped at
  have hzero : broadcastInDim S100000x256 ![] Cert.ReferenceIdeal.Facts₀.bcast_S_S100000x256
      (constant (F := Ideal) Cert.ReferenceIdeal.S_ .f32 0x00000000#32) (ix2 r q) = (0 : EReal) := by
    refine (broadcastInDim_apply _ Cert.ReferenceIdeal.Facts₀.bcast_S_S100000x256 _ (ix2 r q) ix0 (fun a => a.elim0)).trans ?_
    exact Ideal.ofBits_zero_f32
  exact congrArg₂ (fun a z : EReal => max a z)
    (congrArg₂ (fun a d : EReal => a + d)
      (Cert.PlainMatmul.dotGeneral_apply Cert.ReferenceIdeal.Facts₀.dot_S100000x448_S448x256_S100000x256_1_0_0_1_n_n_wf
        none .single X W r q)
      hrow)
    hzero

/-- The bias vector with a unit axis in front, read at (0, q), is its entry q. -/
theorem biasRow_apply (b : Cert.Spec.FV Ideal S256) (q : Fin 256) :
    Cert.Spec.biasRow b (ix2 (0 : Fin 1) q) = b (ix1 q) := by
  unfold Cert.Spec.biasRow
  exact shapeCast_a_1a_apply b Facts₀.shapeCasts_S256_S1x256 (0 : Fin 1) q

/-! ## The blocks -/

/-- The printed index maps over the grid: the left operand's and the output's blocks move down the rows with the point,
    the right operand's and the bias row's blocks stay. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The left operand's block at point t is rows 2000·t … 2000·t + 1999 of its array. -/
theorem iblk4_0_apply (c : Dev nD) (t : Fin cfg4.N) (x : S2000x448.Idx) (k : S100000x448.Idx)
    (hk0 : (k 0).val = 2000 * t.val + (x 0).val) (hk1 : (k 1).val = (x 1).val) :
    (Fr.iblk4 V c 0 t : Vec Ideal S2000x448 .f32) x = (V c main_v132 : S100000x448.Idx → Elt Ideal .f32) k := by
  obtain ⟨e0, e1, -⟩ := idx_facts4 t
  unfold Fr.iblk4
  rw [View.read_apply]
  show V c main_v132 _ = V c main_v132 _
  refine congrArg (V c main_v132) ?_
  funext a
  apply Fin.ext
  match a with
  | ⟨0, _⟩ => show win4_0.index t (0 : Fin 2) * 2000 + 1 * (x 0).val = (k 0).val; rw [e0, hk0]; omega
  | ⟨1, _⟩ => show win4_0.index t (1 : Fin 2) * 448 + 1 * (x 1).val = (k 1).val; rw [e1, hk1]; omega

/-- The right operand's block at every point is its whole array. -/
theorem iblk4_1_apply (c : Dev nD) (t : Fin cfg4.N) (x : S448x256.Idx) :
    (Fr.iblk4 V c 1 t : Vec Ideal S448x256 .f32) x = (V c main_arg10 : S448x256.Idx → Elt Ideal .f32) x := by
  obtain ⟨-, -, e0, e1, -⟩ := idx_facts4 t
  unfold Fr.iblk4
  rw [View.read_apply]
  show V c main_arg10 _ = V c main_arg10 _
  refine congrArg (V c main_arg10) ?_
  funext a
  apply Fin.ext
  match a with
  | ⟨0, _⟩ => show win4_1.index t (0 : Fin 2) * 448 + 1 * (x 0).val = (x 0).val; rw [e0]; omega
  | ⟨1, _⟩ => show win4_1.index t (1 : Fin 2) * 256 + 1 * (x 1).val = (x 1).val; rw [e1]; omega

/-- The bias row's block at every point is the whole row. -/
theorem iblk4_2_apply (c : Dev nD) (t : Fin cfg4.N) (x : S1x256.Idx) :
    (Fr.iblk4 V c 2 t : Vec Ideal S1x256 .f32) x = (V c main_v133 : S1x256.Idx → Elt Ideal .f32) x := by
  obtain ⟨-, -, -, -, e0, e1, -⟩ := idx_facts4 t
  unfold Fr.iblk4
  rw [View.read_apply]
  show V c main_v133 _ = V c main_v133 _
  refine congrArg (V c main_v133) ?_
  funext a
  apply Fin.ext
  match a with
  | ⟨0, _⟩ => show win4_2.index t (0 : Fin 2) * 1 + 1 * (x 0).val = (x 0).val; rw [e0]; omega
  | ⟨1, _⟩ => show win4_2.index t (1 : Fin 2) * 256 + 1 * (x 1).val = (x 1).val; rw [e1]; omega

/-- An entry of the output's block at point t sits in the array 2000·t rows further down. -/
theorem oblk4_emb (t : Fin cfg4.N) (p : Fin 2000) (q : Fin 256) (h : 2000 * t.val + p.val < 100000) :
    (((cfg4.win 3).blk t).view.emb (ix2 p q) : S100000x256.Idx) = ix2 (⟨2000 * t.val + p.val, h⟩ : Fin 100000) q := by
  obtain ⟨-, -, -, -, -, -, e0, e1⟩ := idx_facts4 t
  funext a
  apply Fin.ext
  match a with
  | ⟨0, _⟩ => show win4_3.index t (0 : Fin 2) * 2000 + 1 * p.val = 2000 * t.val + p.val; rw [e0]; omega
  | ⟨1, _⟩ => show win4_3.index t (1 : Fin 2) * 256 + 1 * q.val = q.val; rw [e1]; omega

/-- What point t writes back is block t of the head of the network, when the bias row the kernel reads is the bias vector
    with a unit axis in front. -/
theorem flushed4_eq (c : Dev nD) (b : Cert.Spec.FV Ideal S256) (hb : V c main_v133 = Cert.Spec.biasRow b) (t : Fin cfg4.N) :
    (Fr.dat4 V c).flushed 3 t
      = ((cfg4.win 3).blk t).view.read (Elt Ideal) (Cert.Spec.fc (V c main_v132) (V c main_arg10) b) := by
  show (cfg4.win 3).cut (grid4.coords t) ((Fr.dat4 V c).after 3 t) = _
  rw [Fr.after4_3]
  unfold Fr.out4_3
  rw [View.canon_unit_zero origin4]
  simp only [View.ld_unit_zero (S := S2000x448) origin4, View.ld_unit_zero (S := S448x256) origin4,
    View.ld_unit_zero (S := S1x256) origin4]
  funext j
  obtain ⟨p, q, rfl⟩ : ∃ (p : Fin 2000) (q : Fin 256), j = ix2 p q := ⟨j 0, j 1, eq_ix2 j⟩
  have hN : cfg4.N = 50 := N_4
  have ht : t.val < 50 := hN ▸ t.isLt
  have hp : 2000 * t.val + p.val < 100000 := by have := p.isLt; omega
  -- the bias row's block at (0, q) is the bias vector's entry q
  have hbq : (Fr.iblk4 V c 2 t : Vec Ideal S1x256 .f32) (ix2 (0 : Fin 1) q) = b (ix1 q) :=
    (iblk4_2_apply V c t (ix2 (0 : Fin 1) q)).trans ((congrFun hb (ix2 (0 : Fin 1) q)).trans (biasRow_apply b q))
  show k4_pay1 (Fr.iblk4 V c 0 t) (Fr.iblk4 V c 1 t) (Fr.iblk4 V c 2 t) (ix2 p q)
    = Cert.Spec.fc (V c main_v132) (V c main_arg10) b (((cfg4.win 3).blk t).view.emb (ix2 p q))
  rw [oblk4_emb t p q hp]
  refine (pay4_apply (Fr.iblk4 V c 0 t) (Fr.iblk4 V c 1 t) (Fr.iblk4 V c 2 t) p q).trans ?_
  refine Eq.trans ?_ (fc_apply (V c main_v132) (V c main_arg10) b ⟨2000 * t.val + p.val, hp⟩ q).symm
  refine congrArg₂ (fun a d : EReal => max (a + d) 0) (Finset.sum_congr rfl fun k _ => ?_) hbq
  exact congrArg₂ (fun a d : EReal => a * d)
    (iblk4_0_apply V c t (ix2 p k) (ix2 (⟨2000 * t.val + p.val, hp⟩ : Fin 100000) k) rfl rfl)
    (iblk4_1_apply V c t (ix2 k q))

/-! ## The cover, and the array after the region -/

/-- An index of the array is in point t's block iff each coordinate is in the block's range on its axis. -/
theorem mem_blk4 (t : Fin cfg4.N) (i : S100000x256.Idx) :
    i ∈ ((cfg4.win 3).blk t).view.set ↔ ∀ a : Fin 2, win4_3.index t a * S2000x256.size a ≤ (i a).val
      ∧ (i a).val < win4_3.index t a * S2000x256.size a + S2000x256.size a := by
  show i ∈ ((View.whole main_v134).slice (win4_3.rect t)).set ↔ _
  rw [View.set_slice_whole, Rect.mem_set_unit]
  exact Iff.rfl

/-- Row r of the array is in the block of point r / 2000. -/
theorem cover4 (i : S100000x256.Idx) : ∃ t : Fin cfg4.N, (cfg4.win 3).flush t = true ∧ i ∈ ((cfg4.win 3).blk t).view.set := by
  have hN : cfg4.N = 50 := N_4
  have hi0 : (i 0).val < 100000 := idx2_lt0 i
  have hi1 : (i 1).val < 256 := idx2_lt1 i
  have ht : (i 0).val / 2000 < cfg4.N := by rw [hN]; omega
  obtain ⟨-, -, -, -, -, -, e0, e1⟩ := idx_facts4 ⟨(i 0).val / 2000, ht⟩
  have e0' : win4_3.index ⟨(i 0).val / 2000, ht⟩ (0 : Fin 2) = (i 0).val / 2000 := e0
  refine ⟨⟨(i 0).val / 2000, ht⟩, flush4_3 _, ?_⟩
  rw [mem_blk4]
  intro a
  match a with
  | ⟨0, _⟩ =>
    show win4_3.index ⟨(i 0).val / 2000, ht⟩ (0 : Fin 2) * 2000 ≤ (i 0).val
      ∧ (i 0).val < win4_3.index ⟨(i 0).val / 2000, ht⟩ (0 : Fin 2) * 2000 + 2000
    rw [e0']; omega
  | ⟨1, _⟩ =>
    show win4_3.index ⟨(i 0).val / 2000, ht⟩ (1 : Fin 2) * 256 ≤ (i 1).val
      ∧ (i 1).val < win4_3.index ⟨(i 0).val / 2000, ht⟩ (1 : Fin 2) * 256 + 256
    rw [e1]; omega

/-- After the region the output array holds the head of the network of the two arrays the kernel reads and the bias
    vector, when the bias row it reads is that vector with a unit axis in front. -/
theorem val4 (c : Dev nD) (b : Cert.Spec.FV Ideal S256) (hb : V c main_v133 = Cert.Spec.biasRow b) :
    (Fr.dat4 V c).arrAt 3 cfg4.N = Cert.Spec.fc (V c main_v132) (V c main_arg10) b :=
  (Fr.dat4 V c).arrAt_eq_of_cover 3 (Cert.Spec.fc (V c main_v132) (V c main_arg10) b)
    (fun t _ => flushed4_eq V c b hb t) cover4

end Cert.KernelIdeal.Val

end
-- ==== Proof.KI.HostStages.lean ====
/-
  The tiled program's host stretches read as stage functions.

  Between its five kernels the tiled program runs plain array operations: it cuts the edge list into its two rows, and,
  before each normalisation kernel, appends the self loops, counts the degrees, forms the edge weights, gathers, weights and
  sums the messages, adds the bias, and reduces the result to the column mean and variance from which the kernel's scale and
  shift rows are made; before the last kernel it sets the three feature blocks side by side.  Each theorem below evaluates
  one such stretch from ARBITRARY buffer contents `V` and states what one of the buffers it writes then holds, as the stage
  function of `Spec` applied to `V`'s entries.  Every proof is the same computation: the fold of the operations is unfolded
  at the buffer, each operation contributing its function's value at the buffer it writes and nothing elsewhere, and the
  composed term is the stage function's definition.
-/
import proofs.«178479_j10943576671010_1_alg».proof.Proof.Gen.KernelIdeal.Launch
import proofs.«178479_j10943576671010_1_alg».proof.Proof.Spec
import Idealize.ShloMosaic.Lib.StableHlo.Run

noncomputable section

namespace Cert.KernelIdeal.Host

open Cert.KernelIdeal Cert.KernelIdeal.Gen Idealize.ShloMosaic Idealize.ShloMosaic.StableHlo
open Idealize.ShloMosaic.TcCoe

variable (V : Valuation τ sig (Elt Ideal))

/-! ## The edge list's two rows -/

theorem host0_v1 : StableHlo.after (hostOps0 (F := Ideal)) V main_v1 = Cert.Spec.idxRow0 (V main_arg1) := by
  after_results
  rfl

theorem host0_v3 : StableHlo.after (hostOps0 (F := Ideal)) V main_v3 = Cert.Spec.idxRow1 (V main_arg1) := by
  after_results
  rfl

set_option maxRecDepth 8192

/-! ## Before the normalisation kernel at width 128 -/

section Width128

/-- The edge rows with the self loops appended. -/
theorem l1_src : (StableHlo.after (hostOps1_1 (F := Ideal)) (StableHlo.after (hostOps1 (F := Ideal)) V)) main_v6 = Cert.Spec.withLoops (V main_v1) := by
  after_results
  rfl

theorem l1_dst : (StableHlo.after (hostOps1_1 (F := Ideal)) (StableHlo.after (hostOps1 (F := Ideal)) V)) main_v7 = Cert.Spec.withLoops (V main_v3) := by
  after_results
  rfl

/-- The degrees' positivity test, the inverse square root of the clamped degrees, and the zero they are chosen against. -/
theorem l1_pos : StableHlo.after (hostOps1 (F := Ideal)) V main_v13
    = cmpf .ogt (Cert.Spec.deg (Cert.Spec.withLoops (V main_v3)))
        (broadcastInDim S100000 ![] bcast_S_S100000 (constant (F := Ideal) S_ .f32 0x00000000#32)) := by
  after_results
  rfl

theorem l1_rs : StableHlo.after (hostOps1 (F := Ideal)) V main_v16
    = Host.rsqrt (maximumf (Cert.Spec.deg (Cert.Spec.withLoops (V main_v3)))
        (broadcastInDim S100000 ![] bcast_S_S100000 (constant (F := Ideal) S_ .f32 0x3F800000#32))) := by
  after_results
  rfl

theorem l1_zero : StableHlo.after (hostOps1 (F := Ideal)) V main_cst_3 = constant (F := Ideal) S_ .f32 0x00000000#32 := by
  after_results

/-- The choice between the two, from any contents. -/
theorem l1_sel (W : Valuation τ sig (Elt Ideal)) : StableHlo.after (hostOps1_1 (F := Ideal)) W main_v17
    = select (W main_v13) (W main_v16) (broadcastInDim S100000 ![] bcast_S_S100000 (id (W main_cst_3))) := by
  after_results
  rfl

/-- The inverse square-root degrees. -/
theorem l1_dinv : (StableHlo.after (hostOps1_1 (F := Ideal)) (StableHlo.after (hostOps1 (F := Ideal)) V)) main_v17 = Cert.Spec.dinv (Cert.Spec.withLoops (V main_v3)) := by
  rw [l1_sel, l1_pos, l1_rs, l1_zero]
  rfl

/-- Buffers the two stretches leave alone. -/
theorem l1_keep_h : (StableHlo.after (hostOps1_1 (F := Ideal)) (StableHlo.after (hostOps1 (F := Ideal)) V)) main_v4 = V main_v4 := by
  after_results
theorem l1_keep_b : (StableHlo.after (hostOps1_1 (F := Ideal)) (StableHlo.after (hostOps1 (F := Ideal)) V)) main_arg3 = V main_arg3 := by
  after_results
theorem l1_keep_g : (StableHlo.after (hostOps1_1 (F := Ideal)) (StableHlo.after (hostOps1 (F := Ideal)) V)) main_arg4 = V main_arg4 := by
  after_results
theorem l1_keep_be : (StableHlo.after (hostOps1_1 (F := Ideal)) (StableHlo.after (hostOps1 (F := Ideal)) V)) main_arg5 = V main_arg5 := by
  after_results

/-- The last stretch from any contents holding the linear map's result, the edge rows, the inverse square-root degrees
    and the parameters: the convolution. -/
theorem l1_conv (W : Valuation τ sig (Elt Ideal)) {h : Cert.Spec.FV Ideal S100000x128} {s d : Cert.Spec.IV Ideal S1700000}
    {b : Cert.Spec.FV Ideal S128}
    (hh : W main_v4 = h) (hs : W main_v6 = s) (hd : W main_v7 = d) (hv : W main_v17 = Cert.Spec.dinv d) (hb : W main_arg3 = b) :
    StableHlo.after (hostOps1_2 (F := Ideal)) W main_v48 = Cert.Spec.conv128 h s d b := by
  subst hh hs hd hb
  first | after_results_simp | fail "evaluation failed"
  rw [hv]
  first | rfl | fail "not the convolution"

/-- The same stretch further on: the scale row `γ · rstd` of the convolution's column statistics. -/
theorem l1_scale (W : Valuation τ sig (Elt Ideal)) {h : Cert.Spec.FV Ideal S100000x128} {s d : Cert.Spec.IV Ideal S1700000}
    {b g : Cert.Spec.FV Ideal S128}
    (hh : W main_v4 = h) (hs : W main_v6 = s) (hd : W main_v7 = d) (hv : W main_v17 = Cert.Spec.dinv d) (hb : W main_arg3 = b)
    (hg : W main_arg4 = g) :
    StableHlo.after (hostOps1_2 (F := Ideal)) W main_v65 = Cert.Spec.scale128 (Cert.Spec.conv128 h s d b) g := by
  subst hh hs hd hb hg
  first | after_results_simp | fail "evaluation failed"
  rw [hv]
  first | rfl | fail "not the scale row"

/-- And the shift row `β − mean · (γ · rstd)`. -/
theorem l1_shift (W : Valuation τ sig (Elt Ideal)) {h : Cert.Spec.FV Ideal S100000x128} {s d : Cert.Spec.IV Ideal S1700000}
    {b g be : Cert.Spec.FV Ideal S128}
    (hh : W main_v4 = h) (hs : W main_v6 = s) (hd : W main_v7 = d) (hv : W main_v17 = Cert.Spec.dinv d) (hb : W main_arg3 = b)
    (hg : W main_arg4 = g) (hbe : W main_arg5 = be) :
    StableHlo.after (hostOps1_2 (F := Ideal)) W main_v66 = Cert.Spec.shift128 (Cert.Spec.conv128 h s d b) g be := by
  subst hh hs hd hb hg hbe
  first | after_results_simp | fail "evaluation failed"
  rw [hv]
  first | rfl | fail "not the shift row"

/-- The three stretches in a row: the convolution of what the matmul kernel left, and the normalisation kernel's two rows. -/
theorem host1_v48 :
    StableHlo.after (hostOps1_2 (F := Ideal)) (StableHlo.after (hostOps1_1 (F := Ideal)) (StableHlo.after (hostOps1 (F := Ideal)) V)) main_v48
      = Cert.Spec.conv128 (V main_v4) (Cert.Spec.withLoops (V main_v1)) (Cert.Spec.withLoops (V main_v3)) (V main_arg3) :=
  l1_conv _ (l1_keep_h V) (l1_src V) (l1_dst V) (l1_dinv V) (l1_keep_b V)

theorem host1_v65 :
    StableHlo.after (hostOps1_2 (F := Ideal)) (StableHlo.after (hostOps1_1 (F := Ideal)) (StableHlo.after (hostOps1 (F := Ideal)) V)) main_v65
      = Cert.Spec.scale128 (Cert.Spec.conv128 (V main_v4) (Cert.Spec.withLoops (V main_v1)) (Cert.Spec.withLoops (V main_v3)) (V main_arg3)) (V main_arg4) :=
  l1_scale _ (l1_keep_h V) (l1_src V) (l1_dst V) (l1_dinv V) (l1_keep_b V) (l1_keep_g V)

theorem host1_v66 :
    StableHlo.after (hostOps1_2 (F := Ideal)) (StableHlo.after (hostOps1_1 (F := Ideal)) (StableHlo.after (hostOps1 (F := Ideal)) V)) main_v66
      = Cert.Spec.shift128 (Cert.Spec.conv128 (V main_v4) (Cert.Spec.withLoops (V main_v1)) (Cert.Spec.withLoops (V main_v3)) (V main_arg3)) (V main_arg4) (V main_arg5) :=
  l1_shift _ (l1_keep_h V) (l1_src V) (l1_dst V) (l1_dinv V) (l1_keep_b V) (l1_keep_g V)
    (l1_keep_be V)

end Width128

/-! ## The head's operands -/

theorem host4_v132 : StableHlo.after (hostOps4 (F := Ideal)) V main_v132
    = Cert.Spec.cat448 (V main_arg0) (V main_v67) (V main_v131) := by
  after_results
  rfl

theorem host4_v133 : StableHlo.after (hostOps4 (F := Ideal)) V main_v133 = Cert.Spec.biasRow (V main_arg11) := by
  after_results
  rfl

end Cert.KernelIdeal.Host

end
-- ==== Proof.KI.HostStages3.lean ====
/-
  The tiled program's host stretch before its second normalisation kernel, read as stage functions.

  After the second matmul kernel the tiled program again appends the self loops to the edge rows, counts the degrees, forms
  the edge weights, gathers, weights and sums the messages at width 64, adds the bias, and reduces the result to the column
  mean and variance from which the kernel's scale and shift rows are made.  Each theorem below evaluates the stretch from
  ARBITRARY buffer contents `V` and states what one of the buffers it writes then holds, as the stage function of `Spec`
  applied to `V`'s entries: the fold of the operations is unfolded at the buffer, each operation contributing its function's
  value at the buffer it writes and nothing elsewhere, and the composed term is the stage function's definition.
-/
import proofs.«178479_j10943576671010_1_alg».proof.Proof.Gen.KernelIdeal.Launch
import proofs.«178479_j10943576671010_1_alg».proof.Proof.Spec
import Idealize.ShloMosaic.Lib.StableHlo.Run

noncomputable section

namespace Cert.KernelIdeal.Host3

open Cert.KernelIdeal Cert.KernelIdeal.Gen Idealize.ShloMosaic Idealize.ShloMosaic.StableHlo
open Idealize.ShloMosaic.TcCoe

variable (V : Valuation τ sig (Elt Ideal))

set_option maxRecDepth 8192

/-! ## Before the normalisation kernel at width 64 -/

section Width64

/-- The edge rows with the self loops appended. -/
theorem l3_src : (StableHlo.after (hostOps3_1 (F := Ideal)) (StableHlo.after (hostOps3 (F := Ideal)) V)) main_v70 = Cert.Spec.withLoops (V main_v1) := by
  after_results
  rfl

theorem l3_dst : (StableHlo.after (hostOps3_1 (F := Ideal)) (StableHlo.after (hostOps3 (F := Ideal)) V)) main_v71 = Cert.Spec.withLoops (V main_v3) := by
  after_results
  rfl

/-- The degrees' positivity test, the inverse square root of the clamped degrees, and the zero they are chosen against. -/
theorem l3_pos : StableHlo.after (hostOps3 (F := Ideal)) V main_v77
    = cmpf .ogt (Cert.Spec.deg (Cert.Spec.withLoops (V main_v3)))
        (broadcastInDim S100000 ![] bcast_S_S100000 (constant (F := Ideal) S_ .f32 0x00000000#32)) := by
  after_results
  rfl

theorem l3_rs : StableHlo.after (hostOps3 (F := Ideal)) V main_v80
    = Host.rsqrt (maximumf (Cert.Spec.deg (Cert.Spec.withLoops (V main_v3)))
        (broadcastInDim S100000 ![] bcast_S_S100000 (constant (F := Ideal) S_ .f32 0x3F800000#32))) := by
  after_results
  rfl

theorem l3_zero : StableHlo.after (hostOps3 (F := Ideal)) V main_cst_19 = constant (F := Ideal) S_ .f32 0x00000000#32 := by
  after_results

/-- The choice between the two, from any contents. -/
theorem l3_sel (W : Valuation τ sig (Elt Ideal)) : StableHlo.after (hostOps3_1 (F := Ideal)) W main_v81
    = select (W main_v77) (W main_v80) (broadcastInDim S100000 ![] bcast_S_S100000 (id (W main_cst_19))) := by
  after_results
  rfl

/-- The inverse square-root degrees. -/
theorem l3_dinv : (StableHlo.after (hostOps3_1 (F := Ideal)) (StableHlo.after (hostOps3 (F := Ideal)) V)) main_v81 = Cert.Spec.dinv (Cert.Spec.withLoops (V main_v3)) := by
  rw [l3_sel, l3_pos, l3_rs, l3_zero]
  rfl

/-- Buffers the two stretches leave alone. -/
theorem l3_keep_h : (StableHlo.after (hostOps3_1 (F := Ideal)) (StableHlo.after (hostOps3 (F := Ideal)) V)) main_v68 = V main_v68 := by
  after_results
theorem l3_keep_b : (StableHlo.after (hostOps3_1 (F := Ideal)) (StableHlo.after (hostOps3 (F := Ideal)) V)) main_arg7 = V main_arg7 := by
  after_results
theorem l3_keep_g : (StableHlo.after (hostOps3_1 (F := Ideal)) (StableHlo.after (hostOps3 (F := Ideal)) V)) main_arg8 = V main_arg8 := by
  after_results
theorem l3_keep_be : (StableHlo.after (hostOps3_1 (F := Ideal)) (StableHlo.after (hostOps3 (F := Ideal)) V)) main_arg9 = V main_arg9 := by
  after_results

/-- The last stretch from any contents holding the linear map's result, the edge rows, the inverse square-root degrees
    and the parameters: the convolution. -/
theorem l3_conv (W : Valuation τ sig (Elt Ideal)) {h : Cert.Spec.FV Ideal S100000x64} {s d : Cert.Spec.IV Ideal S1700000}
    {b : Cert.Spec.FV Ideal S64}
    (hh : W main_v68 = h) (hs : W main_v70 = s) (hd : W main_v71 = d) (hv : W main_v81 = Cert.Spec.dinv d) (hb : W main_arg7 = b) :
    StableHlo.after (hostOps3_2 (F := Ideal)) W main_v112 = Cert.Spec.conv64 h s d b := by
  subst hh hs hd hb
  first | after_results_simp | fail "evaluation failed"
  rw [hv]
  first | rfl | fail "not the convolution"

/-- The same stretch further on: the scale row `γ · rstd` of the convolution's column statistics. -/
theorem l3_scale (W : Valuation τ sig (Elt Ideal)) {h : Cert.Spec.FV Ideal S100000x64} {s d : Cert.Spec.IV Ideal S1700000}
    {b g : Cert.Spec.FV Ideal S64}
    (hh : W main_v68 = h) (hs : W main_v70 = s) (hd : W main_v71 = d) (hv : W main_v81 = Cert.Spec.dinv d) (hb : W main_arg7 = b)
    (hg : W main_arg8 = g) :
    StableHlo.after (hostOps3_2 (F := Ideal)) W main_v129 = Cert.Spec.scale64 (Cert.Spec.conv64 h s d b) g := by
  subst hh hs hd hb hg
  first | after_results_simp | fail "evaluation failed"
  rw [hv]
  first | rfl | fail "not the scale row"

/-- And the shift row `β − mean · (γ · rstd)`. -/
theorem l3_shift (W : Valuation τ sig (Elt Ideal)) {h : Cert.Spec.FV Ideal S100000x64} {s d : Cert.Spec.IV Ideal S1700000}
    {b g be : Cert.Spec.FV Ideal S64}
    (hh : W main_v68 = h) (hs : W main_v70 = s) (hd : W main_v71 = d) (hv : W main_v81 = Cert.Spec.dinv d) (hb : W main_arg7 = b)
    (hg : W main_arg8 = g) (hbe : W main_arg9 = be) :
    StableHlo.after (hostOps3_2 (F := Ideal)) W main_v130 = Cert.Spec.shift64 (Cert.Spec.conv64 h s d b) g be := by
  subst hh hs hd hb hg hbe
  first | after_results_simp | fail "evaluation failed"
  rw [hv]
  first | rfl | fail "not the shift row"

/-- The three stretches in a row: the convolution of what the matmul kernel left, and the normalisation kernel's two rows. -/
theorem host3_v112 :
    StableHlo.after (hostOps3_2 (F := Ideal)) (StableHlo.after (hostOps3_1 (F := Ideal)) (StableHlo.after (hostOps3 (F := Ideal)) V)) main_v112
      = Cert.Spec.conv64 (V main_v68) (Cert.Spec.withLoops (V main_v1)) (Cert.Spec.withLoops (V main_v3)) (V main_arg7) :=
  l3_conv _ (l3_keep_h V) (l3_src V) (l3_dst V) (l3_dinv V) (l3_keep_b V)

theorem host3_v129 :
    StableHlo.after (hostOps3_2 (F := Ideal)) (StableHlo.after (hostOps3_1 (F := Ideal)) (StableHlo.after (hostOps3 (F := Ideal)) V)) main_v129
      = Cert.Spec.scale64 (Cert.Spec.conv64 (V main_v68) (Cert.Spec.withLoops (V main_v1)) (Cert.Spec.withLoops (V main_v3)) (V main_arg7)) (V main_arg8) :=
  l3_scale _ (l3_keep_h V) (l3_src V) (l3_dst V) (l3_dinv V) (l3_keep_b V) (l3_keep_g V)

theorem host3_v130 :
    StableHlo.after (hostOps3_2 (F := Ideal)) (StableHlo.after (hostOps3_1 (F := Ideal)) (StableHlo.after (hostOps3 (F := Ideal)) V)) main_v130
      = Cert.Spec.shift64 (Cert.Spec.conv64 (V main_v68) (Cert.Spec.withLoops (V main_v1)) (Cert.Spec.withLoops (V main_v3)) (V main_arg7)) (V main_arg8) (V main_arg9) :=
  l3_shift _ (l3_keep_h V) (l3_src V) (l3_dst V) (l3_dinv V) (l3_keep_b V) (l3_keep_g V)
    (l3_keep_be V)

end Width64

end Cert.KernelIdeal.Host3

end
-- ==== Proof.KI.Value.lean ====
import proofs.«178479_j10943576671010_1_alg».proof.Proof.KI.Run
import proofs.«178479_j10943576671010_1_alg».proof.Proof.KI.Val0
import proofs.«178479_j10943576671010_1_alg».proof.Proof.KI.Val1
import proofs.«178479_j10943576671010_1_alg».proof.Proof.KI.Val2
import proofs.«178479_j10943576671010_1_alg».proof.Proof.KI.Val3
import proofs.«178479_j10943576671010_1_alg».proof.Proof.KI.Val4
import proofs.«178479_j10943576671010_1_alg».proof.Proof.KI.HostStages
import proofs.«178479_j10943576671010_1_alg».proof.Proof.KI.HostStages3

/-!
# The tiled program's result as the network of its arguments

The last valuation of the run is followed back through @main, one item at a time: a region's output array is the
stage its kernel computes of the arrays it reads (a linear map; `max (x · s + t, 0)`; the head), a stretch's buffers are
the host stages (edge rows, convolution, `scale` and `shift`, the three blocks side by side) of what it reads, and a buffer
that nothing in between writes is carried along unchanged.  The two places where the tiled program's arrangement of the
normalisation differs from the plain one are taken as hypotheses here (`hbn1`, `hbn2`): they hold when the
convolution's output is real.
-/

set_option maxRecDepth 16384

noncomputable section

namespace Cert.KernelIdeal.Fr

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The convolution's output in the first layer. -/
abbrev conv1Of : Cert.Spec.FV Ideal Cert.ReferenceIdeal.S100000x128 :=
  Cert.Spec.conv128 (Cert.Spec.mm1 (m ((c.tc : Thread nD τ).loc main_arg0)) (m ((c.tc : Thread nD τ).loc main_arg2))) (Cert.Spec.src (m ((c.tc : Thread nD τ).loc main_arg1))) (Cert.Spec.dst (m ((c.tc : Thread nD τ).loc main_arg1))) (m ((c.tc : Thread nD τ).loc main_arg3))
/-- The first layer's output. -/
abbrev y1Of : Cert.Spec.FV Ideal Cert.ReferenceIdeal.S100000x128 := Cert.Spec.bnRef128 (conv1Of m c) (m ((c.tc : Thread nD τ).loc main_arg4)) (m ((c.tc : Thread nD τ).loc main_arg5))
/-- The convolution's output in the second layer. -/
abbrev conv2Of : Cert.Spec.FV Ideal Cert.ReferenceIdeal.S100000x64 :=
  Cert.Spec.conv64 (Cert.Spec.mm2 (y1Of m c) (m ((c.tc : Thread nD τ).loc main_arg6))) (Cert.Spec.src (m ((c.tc : Thread nD τ).loc main_arg1))) (Cert.Spec.dst (m ((c.tc : Thread nD τ).loc main_arg1))) (m ((c.tc : Thread nD τ).loc main_arg7))
/-- The second layer's output. -/
abbrev y2Of : Cert.Spec.FV Ideal Cert.ReferenceIdeal.S100000x64 := Cert.Spec.bnRef64 (conv2Of m c) (m ((c.tc : Thread nD τ).loc main_arg8)) (m ((c.tc : Thread nD τ).loc main_arg9))

/-- The edge rows, computed by the first stretch, reach every later item unchanged. -/
theorem W2_v1 : W2 m ρ c (Proc.devRef .tc main_v1) = Cert.Spec.idxRow0 (m ((c.tc : Thread nD τ).loc main_arg1)) :=
  (W2_keep m ρ c main_v1 (by decide)).trans (Host.host0_v1 (W0 m ρ c))
theorem W2_v3 : W2 m ρ c (Proc.devRef .tc main_v3) = Cert.Spec.idxRow1 (m ((c.tc : Thread nD τ).loc main_arg1)) :=
  (W2_keep m ρ c main_v3 (by decide)).trans (Host.host0_v3 (W0 m ρ c))
theorem W7_v1 : W7 m ρ c (Proc.devRef .tc main_v1) = Cert.Spec.idxRow0 (m ((c.tc : Thread nD τ).loc main_arg1)) :=
  ((W7_keep m ρ c main_v1 (by decide)).trans <| (W6_keep m ρ c main_v1 (by decide)).trans <| (W5_keep m ρ c main_v1 (by decide)).trans <| (W4_keep m ρ c main_v1 (by decide)).trans <| (W3_keep m ρ c main_v1 (by decide))).trans (W2_v1 m ρ c)
theorem W7_v3 : W7 m ρ c (Proc.devRef .tc main_v3) = Cert.Spec.idxRow1 (m ((c.tc : Thread nD τ).loc main_arg1)) :=
  ((W7_keep m ρ c main_v3 (by decide)).trans <| (W6_keep m ρ c main_v3 (by decide)).trans <| (W5_keep m ρ c main_v3 (by decide)).trans <| (W4_keep m ρ c main_v3 (by decide)).trans <| (W3_keep m ρ c main_v3 (by decide))).trans (W2_v3 m ρ c)

/-- Region 0 leaves the first linear map in `main_v4`. -/
theorem W2_v4 : W2 m ρ c (Proc.devRef .tc main_v4) = Cert.Spec.mm1 (m ((c.tc : Thread nD τ).loc main_arg0)) (m ((c.tc : Thread nD τ).loc main_arg2)) := by
  have e0 : X1 m ρ c main_arg0 = (m ((c.tc : Thread nD τ).loc main_arg0)) := (((W1_keep m ρ c main_arg0 (by decide))).trans rfl)
  have e2 : X1 m ρ c main_arg2 = (m ((c.tc : Thread nD τ).loc main_arg2)) := (((W1_keep m ρ c main_arg2 (by decide))).trans rfl)
  refine (W2_arr m ρ c 2).trans ((Val.val0 (X1 m ρ) c).trans ?_)
  rw [e0, e2]

/-- The first stretch of host operations after region 0 leaves the convolution and the two rows of the normalisation. -/
theorem W5_v48 : W5 m ρ c (Proc.devRef .tc main_v48) = conv1Of m c := by
  have e3 : W2 m ρ c (Proc.devRef .tc main_arg3) = (m ((c.tc : Thread nD τ).loc main_arg3)) := (((W2_keep m ρ c main_arg3 (by decide)).trans <| (W1_keep m ρ c main_arg3 (by decide))).trans rfl)
  refine (Host.host1_v48 (W2 m ρ c)).trans ?_
  rw [W2_v4 m ρ c, W2_v1 m ρ c, W2_v3 m ρ c, e3]
  rfl
theorem W5_v65 : W5 m ρ c (Proc.devRef .tc main_v65) = Cert.Spec.scale128 (conv1Of m c) (m ((c.tc : Thread nD τ).loc main_arg4)) := by
  have e3 : W2 m ρ c (Proc.devRef .tc main_arg3) = (m ((c.tc : Thread nD τ).loc main_arg3)) := (((W2_keep m ρ c main_arg3 (by decide)).trans <| (W1_keep m ρ c main_arg3 (by decide))).trans rfl)
  have e4 : W2 m ρ c (Proc.devRef .tc main_arg4) = (m ((c.tc : Thread nD τ).loc main_arg4)) := (((W2_keep m ρ c main_arg4 (by decide)).trans <| (W1_keep m ρ c main_arg4 (by decide))).trans rfl)
  refine (Host.host1_v65 (W2 m ρ c)).trans ?_
  rw [W2_v4 m ρ c, W2_v1 m ρ c, W2_v3 m ρ c, e3, e4]
  rfl
theorem W5_v66 : W5 m ρ c (Proc.devRef .tc main_v66) = Cert.Spec.shift128 (conv1Of m c) (m ((c.tc : Thread nD τ).loc main_arg4)) (m ((c.tc : Thread nD τ).loc main_arg5)) := by
  have e3 : W2 m ρ c (Proc.devRef .tc main_arg3) = (m ((c.tc : Thread nD τ).loc main_arg3)) := (((W2_keep m ρ c main_arg3 (by decide)).trans <| (W1_keep m ρ c main_arg3 (by decide))).trans rfl)
  have e4 : W2 m ρ c (Proc.devRef .tc main_arg4) = (m ((c.tc : Thread nD τ).loc main_arg4)) := (((W2_keep m ρ c main_arg4 (by decide)).trans <| (W1_keep m ρ c main_arg4 (by decide))).trans rfl)
  have e5 : W2 m ρ c (Proc.devRef .tc main_arg5) = (m ((c.tc : Thread nD τ).loc main_arg5)) := (((W2_keep m ρ c main_arg5 (by decide)).trans <| (W1_keep m ρ c main_arg5 (by decide))).trans rfl)
  refine (Host.host1_v66 (W2 m ρ c)).trans ?_
  rw [W2_v4 m ρ c, W2_v1 m ρ c, W2_v3 m ρ c, e3, e4, e5]
  rfl

/-- Region 1 leaves the first layer's output in `main_v67`, given the normalisation's law at the convolution's output. -/
theorem W6_v67
    (hbn1 : Cert.Spec.bnKer128 (conv1Of m c) (Cert.Spec.scale128 (conv1Of m c) (m ((c.tc : Thread nD τ).loc main_arg4))) (Cert.Spec.shift128 (conv1Of m c) (m ((c.tc : Thread nD τ).loc main_arg4)) (m ((c.tc : Thread nD τ).loc main_arg5)))
      = Cert.Spec.bnRef128 (conv1Of m c) (m ((c.tc : Thread nD τ).loc main_arg4)) (m ((c.tc : Thread nD τ).loc main_arg5))) :
    W6 m ρ c (Proc.devRef .tc main_v67) = y1Of m c := by
  refine (W6_arr m ρ c 3).trans ((Val.val1 (X5 m ρ) c).trans ?_)
  rw [show X5 m ρ c main_v48 = conv1Of m c from W5_v48 m ρ c,
    show X5 m ρ c main_v65 = _ from W5_v65 m ρ c, show X5 m ρ c main_v66 = _ from W5_v66 m ρ c]
  exact hbn1

/-- Region 2 leaves the second linear map in `main_v68`. -/
theorem W7_v68 (hbn1 : Cert.Spec.bnKer128 (conv1Of m c) (Cert.Spec.scale128 (conv1Of m c) (m ((c.tc : Thread nD τ).loc main_arg4))) (Cert.Spec.shift128 (conv1Of m c) (m ((c.tc : Thread nD τ).loc main_arg4)) (m ((c.tc : Thread nD τ).loc main_arg5)))
      = Cert.Spec.bnRef128 (conv1Of m c) (m ((c.tc : Thread nD τ).loc main_arg4)) (m ((c.tc : Thread nD τ).loc main_arg5))) :
    W7 m ρ c (Proc.devRef .tc main_v68) = Cert.Spec.mm2 (y1Of m c) (m ((c.tc : Thread nD τ).loc main_arg6)) := by
  have e6 : X6 m ρ c main_arg6 = (m ((c.tc : Thread nD τ).loc main_arg6)) := (((W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide))).trans rfl)
  refine (W7_arr m ρ c 2).trans ((Val.val2 (X6 m ρ) c).trans ?_)
  rw [show X6 m ρ c main_v67 = y1Of m c from W6_v67 m ρ c hbn1, e6]

/-- The second stretch: the second convolution and the two rows of its normalisation. -/
theorem W10_v112 (hbn1 : Cert.Spec.bnKer128 (conv1Of m c) (Cert.Spec.scale128 (conv1Of m c) (m ((c.tc : Thread nD τ).loc main_arg4))) (Cert.Spec.shift128 (conv1Of m c) (m ((c.tc : Thread nD τ).loc main_arg4)) (m ((c.tc : Thread nD τ).loc main_arg5)))
      = Cert.Spec.bnRef128 (conv1Of m c) (m ((c.tc : Thread nD τ).loc main_arg4)) (m ((c.tc : Thread nD τ).loc main_arg5))) :
    W10 m ρ c (Proc.devRef .tc main_v112) = conv2Of m c := by
  have e7 : W7 m ρ c (Proc.devRef .tc main_arg7) = (m ((c.tc : Thread nD τ).loc main_arg7)) := (((W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide))).trans rfl)
  refine (Host3.host3_v112 (W7 m ρ c)).trans ?_
  rw [W7_v68 m ρ c hbn1, W7_v1 m ρ c, W7_v3 m ρ c, e7]
  rfl
theorem W10_v129 (hbn1 : Cert.Spec.bnKer128 (conv1Of m c) (Cert.Spec.scale128 (conv1Of m c) (m ((c.tc : Thread nD τ).loc main_arg4))) (Cert.Spec.shift128 (conv1Of m c) (m ((c.tc : Thread nD τ).loc main_arg4)) (m ((c.tc : Thread nD τ).loc main_arg5)))
      = Cert.Spec.bnRef128 (conv1Of m c) (m ((c.tc : Thread nD τ).loc main_arg4)) (m ((c.tc : Thread nD τ).loc main_arg5))) :
    W10 m ρ c (Proc.devRef .tc main_v129) = Cert.Spec.scale64 (conv2Of m c) (m ((c.tc : Thread nD τ).loc main_arg8)) := by
  have e7 : W7 m ρ c (Proc.devRef .tc main_arg7) = (m ((c.tc : Thread nD τ).loc main_arg7)) := (((W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide))).trans rfl)
  have e8 : W7 m ρ c (Proc.devRef .tc main_arg8) = (m ((c.tc : Thread nD τ).loc main_arg8)) := (((W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide))).trans rfl)
  refine (Host3.host3_v129 (W7 m ρ c)).trans ?_
  rw [W7_v68 m ρ c hbn1, W7_v1 m ρ c, W7_v3 m ρ c, e7, e8]
  rfl
theorem W10_v130 (hbn1 : Cert.Spec.bnKer128 (conv1Of m c) (Cert.Spec.scale128 (conv1Of m c) (m ((c.tc : Thread nD τ).loc main_arg4))) (Cert.Spec.shift128 (conv1Of m c) (m ((c.tc : Thread nD τ).loc main_arg4)) (m ((c.tc : Thread nD τ).loc main_arg5)))
      = Cert.Spec.bnRef128 (conv1Of m c) (m ((c.tc : Thread nD τ).loc main_arg4)) (m ((c.tc : Thread nD τ).loc main_arg5))) :
    W10 m ρ c (Proc.devRef .tc main_v130) = Cert.Spec.shift64 (conv2Of m c) (m ((c.tc : Thread nD τ).loc main_arg8)) (m ((c.tc : Thread nD τ).loc main_arg9)) := by
  have e7 : W7 m ρ c (Proc.devRef .tc main_arg7) = (m ((c.tc : Thread nD τ).loc main_arg7)) := (((W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide))).trans rfl)
  have e8 : W7 m ρ c (Proc.devRef .tc main_arg8) = (m ((c.tc : Thread nD τ).loc main_arg8)) := (((W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide))).trans rfl)
  have e9 : W7 m ρ c (Proc.devRef .tc main_arg9) = (m ((c.tc : Thread nD τ).loc main_arg9)) := (((W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide))).trans rfl)
  refine (Host3.host3_v130 (W7 m ρ c)).trans ?_
  rw [W7_v68 m ρ c hbn1, W7_v1 m ρ c, W7_v3 m ρ c, e7, e8, e9]
  rfl

/-- Region 3 leaves the second layer's output in `main_v131`. -/
theorem W11_v131 (hbn1 : Cert.Spec.bnKer128 (conv1Of m c) (Cert.Spec.scale128 (conv1Of m c) (m ((c.tc : Thread nD τ).loc main_arg4))) (Cert.Spec.shift128 (conv1Of m c) (m ((c.tc : Thread nD τ).loc main_arg4)) (m ((c.tc : Thread nD τ).loc main_arg5)))
      = Cert.Spec.bnRef128 (conv1Of m c) (m ((c.tc : Thread nD τ).loc main_arg4)) (m ((c.tc : Thread nD τ).loc main_arg5)))
    (hbn2 : Cert.Spec.bnKer64 (conv2Of m c) (Cert.Spec.scale64 (conv2Of m c) (m ((c.tc : Thread nD τ).loc main_arg8))) (Cert.Spec.shift64 (conv2Of m c) (m ((c.tc : Thread nD τ).loc main_arg8)) (m ((c.tc : Thread nD τ).loc main_arg9)))
      = Cert.Spec.bnRef64 (conv2Of m c) (m ((c.tc : Thread nD τ).loc main_arg8)) (m ((c.tc : Thread nD τ).loc main_arg9))) :
    W11 m ρ c (Proc.devRef .tc main_v131) = y2Of m c := by
  refine (W11_arr m ρ c 3).trans ((Val.val3 (X10 m ρ) c).trans ?_)
  rw [show X10 m ρ c main_v112 = conv2Of m c from W10_v112 m ρ c hbn1,
    show X10 m ρ c main_v129 = _ from W10_v129 m ρ c hbn1, show X10 m ρ c main_v130 = _ from W10_v130 m ρ c hbn1]
  exact hbn2

/-- THE RESULT: the last valuation's `main_v134` is the network of the arguments. -/
theorem kernel_value (hbn1 : Cert.Spec.bnKer128 (conv1Of m c) (Cert.Spec.scale128 (conv1Of m c) (m ((c.tc : Thread nD τ).loc main_arg4))) (Cert.Spec.shift128 (conv1Of m c) (m ((c.tc : Thread nD τ).loc main_arg4)) (m ((c.tc : Thread nD τ).loc main_arg5)))
      = Cert.Spec.bnRef128 (conv1Of m c) (m ((c.tc : Thread nD τ).loc main_arg4)) (m ((c.tc : Thread nD τ).loc main_arg5)))
    (hbn2 : Cert.Spec.bnKer64 (conv2Of m c) (Cert.Spec.scale64 (conv2Of m c) (m ((c.tc : Thread nD τ).loc main_arg8))) (Cert.Spec.shift64 (conv2Of m c) (m ((c.tc : Thread nD τ).loc main_arg8)) (m ((c.tc : Thread nD τ).loc main_arg9)))
      = Cert.Spec.bnRef64 (conv2Of m c) (m ((c.tc : Thread nD τ).loc main_arg8)) (m ((c.tc : Thread nD τ).loc main_arg9))) :
    W13 m ρ c (Proc.devRef .tc main_v134) = Cert.Spec.final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have e0 : W11 m ρ c (Proc.devRef .tc main_arg0) = (m ((c.tc : Thread nD τ).loc main_arg0)) := (((W11_keep m ρ c main_arg0 (by decide)).trans <| (W10_keep m ρ c main_arg0 (by decide)).trans <| (W9_keep m ρ c main_arg0 (by decide)).trans <| (W8_keep m ρ c main_arg0 (by decide)).trans <| (W7_keep m ρ c main_arg0 (by decide)).trans <| (W6_keep m ρ c main_arg0 (by decide)).trans <| (W5_keep m ρ c main_arg0 (by decide)).trans <| (W4_keep m ρ c main_arg0 (by decide)).trans <| (W3_keep m ρ c main_arg0 (by decide)).trans <| (W2_keep m ρ c main_arg0 (by decide)).trans <| (W1_keep m ρ c main_arg0 (by decide))).trans rfl)
  have e11 : W11 m ρ c (Proc.devRef .tc main_arg11) = (m ((c.tc : Thread nD τ).loc main_arg11)) := (((W11_keep m ρ c main_arg11 (by decide)).trans <| (W10_keep m ρ c main_arg11 (by decide)).trans <| (W9_keep m ρ c main_arg11 (by decide)).trans <| (W8_keep m ρ c main_arg11 (by decide)).trans <| (W7_keep m ρ c main_arg11 (by decide)).trans <| (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide))).trans rfl)
  have e10 : X12 m ρ c main_arg10 = (m ((c.tc : Thread nD τ).loc main_arg10)) := (((W12_keep m ρ c main_arg10 (by decide)).trans <| (W11_keep m ρ c main_arg10 (by decide)).trans <| (W10_keep m ρ c main_arg10 (by decide)).trans <| (W9_keep m ρ c main_arg10 (by decide)).trans <| (W8_keep m ρ c main_arg10 (by decide)).trans <| (W7_keep m ρ c main_arg10 (by decide)).trans <| (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide))).trans rfl)
  have e67 : W11 m ρ c (Proc.devRef .tc main_v67) = y1Of m c :=
    ((W11_keep m ρ c main_v67 (by decide)).trans <| (W10_keep m ρ c main_v67 (by decide)).trans <| (W9_keep m ρ c main_v67 (by decide)).trans <| (W8_keep m ρ c main_v67 (by decide)).trans <| (W7_keep m ρ c main_v67 (by decide))).trans (W6_v67 m ρ c hbn1)
  have h132 : X12 m ρ c main_v132 = Cert.Spec.cat448 (m ((c.tc : Thread nD τ).loc main_arg0)) (y1Of m c) (y2Of m c) := by
    refine (Host.host4_v132 (W11 m ρ c)).trans ?_
    rw [e0, e67, W11_v131 m ρ c hbn1 hbn2]
  have h133 : X12 m ρ c main_v133 = Cert.Spec.biasRow (m ((c.tc : Thread nD τ).loc main_arg11)) := by
    refine (Host.host4_v133 (W11 m ρ c)).trans ?_
    rw [e11]
  refine (W13_arr m ρ c 3).trans ((Val.val4 (X12 m ρ) c (m ((c.tc : Thread nD τ).loc main_arg11)) h133).trans ?_)
  rw [h132, e10]
  rfl

end Cert.KernelIdeal.Fr

end
-- ==== Proof.LibAppend.lean ====
/-
  A list in parts: three laws about `l₁ ++ l₂`.

  A property that holds of every member of two lists holds of every member of their concatenation (stated once for
  `List.Forall`, once for `∀ x ∈ l`); and the buffer contents after a straight-line list of operations `l₁ ++ l₂` are the
  contents after `l₂` FROM the contents after `l₁`. With them a long operation list given as a concatenation of short ones is
  handled one short list at a time.
-/
import Idealize.ShloMosaic.Lib.StableHlo.Run

namespace Cert.ListParts

open Idealize.ShloMosaic Idealize.ShloMosaic.StableHlo

/-- `List.Forall` of a concatenation, from its two parts. -/
theorem forall_append {α : Type} {P : α → Prop} {l₁ l₂ : List α} (h₁ : l₁.Forall P) (h₂ : l₂.Forall P) :
    (l₁ ++ l₂).Forall P :=
  List.forall_iff_forall_mem.mpr fun x hx =>
    (List.mem_append.mp hx).elim (List.forall_iff_forall_mem.mp h₁ x) (List.forall_iff_forall_mem.mp h₂ x)

/-- A property of every member of a concatenation, from its two parts. -/
theorem mem_append_all {α : Type} {P : α → Prop} {l₁ l₂ : List α} (h₁ : ∀ x ∈ l₁, P x) (h₂ : ∀ x ∈ l₂, P x) :
    ∀ x ∈ l₁ ++ l₂, P x :=
  fun x hx => (List.mem_append.mp hx).elim (h₁ x) (h₂ x)

/-- The contents after two lists of operations in a row are the second list's, from the first list's. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih (op.result V)

end Cert.ListParts
-- ==== Proof.RefRun.lean ====
/-
  The plain program's run, read back stage by stage.

  @main of the plain program is a straight line of 196 host operations.  Read as one composed term its result repeats
  the first layer's term wherever a later operation reads it; read stage by stage — the edge list's two rows, a linear
  map, a graph convolution, a normalisation, the same three at the next width, the head — each stage is a short list
  whose last buffer holds that stage (`Cert.Spec`) of the buffers it reads, from ANY contents, and which leaves every
  buffer it does not write as it was.  The contents after a concatenation of lists are the second list's from the
  first list's, so the eight stages compose to `Cert.Spec.final` of the arguments, and no stage writes an argument.
-/
import proofs.«178479_j10943576671010_1_alg».proof.Proof.Gen.ReferenceIdeal
import proofs.«178479_j10943576671010_1_alg».proof.Proof.Spec
import proofs.«178479_j10943576671010_1_alg».proof.Proof.LibAppend
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-! ## @main's 196 operations, stage by stage -/

/-- The two rows of the edge list, each as a vector. -/
abbrev opsRows : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- The first linear map. -/
abbrev opsMm1 : List (HloOp τ sig (Elt F)) :=
  [ binary main_arg0 main_arg2 main_v4 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]

/-- The first graph convolution: self loops, degrees, edge weights, gather, weighted scatter-add, bias. -/
abbrev opsConv1 : List (HloOp τ sig (Elt F)) :=
  [ nullary main_v5 (iotaInDim S100000 32 0),
    binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v16) (TRef.of (T := ⟨S100000, .f32⟩) main_call0_v1) (TRef.of (T := ⟨S100000, .f32⟩) main_v17) select,
    nullary main_c (constantI S_ 32 0#32),
    unary main_c main_v18 (broadcastInDim S1700000 ![] bcast_S_S1700000 : (⟨S_, .i32⟩ : BufTy).Contents (Elt F) → (⟨S1700000, .i32⟩ : BufTy).Contents (Elt F)),
    binary main_v6 main_v18 main_v19 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v20 (broadcastInDim S1700000 ![] bcast_S_S1700000 : (⟨S_, .i32⟩ : BufTy).Contents (Elt F) → (⟨S1700000, .i32⟩ : BufTy).Contents (Elt F)),
    binary main_v6 main_v20 main_v21 (addi : (⟨S1700000, .i32⟩ : BufTy).Contents (Elt F) → (⟨S1700000, .i32⟩ : BufTy).Contents (Elt F) → (⟨S1700000, .i32⟩ : BufTy).Contents (Elt F)),
    ternary main_v19 main_v21 main_v6 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v22 main_v23 (broadcastInDim S1700000x1 ![0] bcast_S1700000_S1700000x1_0 : (⟨S1700000, .i32⟩ : BufTy).Contents (Elt F) → (⟨S1700000x1, .i32⟩ : BufTy).Contents (Elt F)),
    binary main_v17 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v27 (broadcastInDim S1700000 ![] bcast_S_S1700000 : (⟨S_, .i32⟩ : BufTy).Contents (Elt F) → (⟨S1700000, .i32⟩ : BufTy).Contents (Elt F)),
    binary main_v7 main_v27 main_v28 (addi : (⟨S1700000, .i32⟩ : BufTy).Contents (Elt F) → (⟨S1700000, .i32⟩ : BufTy).Contents (Elt F) → (⟨S1700000, .i32⟩ : BufTy).Contents (Elt F)),
    ternary main_v26 main_v28 main_v7 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v29 main_v30 (broadcastInDim S1700000x1 ![0] bcast_S1700000_S1700000x1_0 : (⟨S1700000, .i32⟩ : BufTy).Contents (Elt F) → (⟨S1700000x1, .i32⟩ : BufTy).Contents (Elt F)),
    binary main_v17 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v24 main_v31 main_v32 (mulf : (⟨S1700000, .f32⟩ : BufTy).Contents (Elt F) → (⟨S1700000, .f32⟩ : BufTy).Contents (Elt F) → (⟨S1700000, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v6 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v6 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v4 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v7 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)) ]

/-- The first normalisation over the node axis and `max(·, 0)`. -/
abbrev opsBn1 : List (HloOp τ sig (Elt F)) :=
  [ nullary main_cst_10 (constant S_ .f32 0x00000000#32),
    binary main_v48 main_cst_10 main_v49 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_11 (constant S_ .f32 0x47C35000#32),
    unary main_cst_11 main_v50 (broadcastInDim S128 ![] bcast_S_S128 : (⟨S_, .f32⟩ : BufTy).Contents (Elt F) → (⟨S128, .f32⟩ : BufTy).Contents (Elt F)),
    binary main_v49 main_v50 main_v51 (Host.divf : (⟨S128, .f32⟩ : BufTy).Contents (Elt F) → (⟨S128, .f32⟩ : BufTy).Contents (Elt F) → (⟨S128, .f32⟩ : BufTy).Contents (Elt F)),
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S100000x128 ![0, 1] bcast_S1x128_S100000x128_0_1 : (⟨S1x128, .f32⟩ : BufTy).Contents (Elt F) → (⟨S100000x128, .f32⟩ : BufTy).Contents (Elt F)),
    binary main_v48 main_v53 main_v54 (subf : (⟨S100000x128, .f32⟩ : BufTy).Contents (Elt F) → (⟨S100000x128, .f32⟩ : BufTy).Contents (Elt F) → (⟨S100000x128, .f32⟩ : BufTy).Contents (Elt F)),
    binary main_v54 main_v54 main_v55 (mulf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x00000000#32),
    binary main_v55 main_cst_12 main_v56 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_13 (constant S_ .f32 0x47C35000#32),
    unary main_cst_13 main_v57 (broadcastInDim S128 ![] bcast_S_S128 : (⟨S_, .f32⟩ : BufTy).Contents (Elt F) → (⟨S128, .f32⟩ : BufTy).Contents (Elt F)),
    binary main_v56 main_v57 main_v58 (Host.divf : (⟨S128, .f32⟩ : BufTy).Contents (Elt F) → (⟨S128, .f32⟩ : BufTy).Contents (Elt F) → (⟨S128, .f32⟩ : BufTy).Contents (Elt F)),
    unary main_v51 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v48 main_v60 main_v61 (subf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x3727C5AC#32),
    unary main_cst_14 main_v62 (broadcastInDim S128 ![] bcast_S_S128 : (⟨S_, .f32⟩ : BufTy).Contents (Elt F) → (⟨S128, .f32⟩ : BufTy).Contents (Elt F)),
    binary main_v58 main_v62 main_v63 (addf : (⟨S128, .f32⟩ : BufTy).Contents (Elt F) → (⟨S128, .f32⟩ : BufTy).Contents (Elt F) → (⟨S128, .f32⟩ : BufTy).Contents (Elt F)),
    unary main_v63 main_v64 (Host.rsqrt : (⟨S128, .f32⟩ : BufTy).Contents (Elt F) → (⟨S128, .f32⟩ : BufTy).Contents (Elt F)),
    unary main_v64 main_v65 (broadcastInDim S1x128 ![1] bcast_S128_S1x128_1 : (⟨S128, .f32⟩ : BufTy).Contents (Elt F) → (⟨S1x128, .f32⟩ : BufTy).Contents (Elt F)),
    unary main_v65 main_v66 (broadcastInDim S100000x128 ![0, 1] bcast_S1x128_S100000x128_0_1 : (⟨S1x128, .f32⟩ : BufTy).Contents (Elt F) → (⟨S100000x128, .f32⟩ : BufTy).Contents (Elt F)),
    binary main_v61 main_v66 main_v67 (mulf : (⟨S100000x128, .f32⟩ : BufTy).Contents (Elt F) → (⟨S100000x128, .f32⟩ : BufTy).Contents (Elt F) → (⟨S100000x128, .f32⟩ : BufTy).Contents (Elt F)),
    unary main_arg4 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v67 main_v69 main_v70 (mulf : (⟨S100000x128, .f32⟩ : BufTy).Contents (Elt F) → (⟨S100000x128, .f32⟩ : BufTy).Contents (Elt F) → (⟨S100000x128, .f32⟩ : BufTy).Contents (Elt F)),
    unary main_arg5 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v70 main_v72 main_v73 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v73) (TRef.of (T := ⟨S100000x128, .f32⟩) main_call1_v0) (TRef.of (T := ⟨S100000x128, .f32⟩) main_v74) maximumf ]

/-- The second linear map. -/
abbrev opsMm2 : List (HloOp τ sig (Elt F)) :=
  [ binary main_v74 main_arg6 main_v75 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- The second graph convolution (the edge list with self loops and the edge weights are computed again). -/
abbrev opsConv2 : List (HloOp τ sig (Elt F)) :=
  [ nullary main_v76 (iotaInDim S100000 32 0),
    binary main_v1 main_v76 main_v77 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v76 main_v78 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_15 (constant S_ .f32 0x3F800000#32),
    unary main_cst_15 main_v79 (broadcastInDim S1700000 ![] bcast_S_S1700000 : (⟨S_, .f32⟩ : BufTy).Contents (Elt F) → (⟨S1700000, .f32⟩ : BufTy).Contents (Elt F)),
    nullary main_cst_16 (constant S_ .f32 0x00000000#32),
    unary main_cst_16 main_v80 (broadcastInDim S100000 ![] bcast_S_S100000 : (⟨S_, .f32⟩ : BufTy).Contents (Elt F) → (⟨S100000, .f32⟩ : BufTy).Contents (Elt F)),
    unary main_v78 main_v81 (broadcastInDim S1700000x1 ![0] bcast_S1700000_S1700000x1_0 : (⟨S1700000, .i32⟩ : BufTy).Contents (Elt F) → (⟨S1700000x1, .i32⟩ : BufTy).Contents (Elt F)),
    ternary main_v80 main_v81 main_v79 main_v82 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_17 (constant S_ .f32 0x00000000#32),
    unary main_cst_17 main_v83 (broadcastInDim S100000 ![] bcast_S_S100000 : (⟨S_, .f32⟩ : BufTy).Contents (Elt F) → (⟨S100000, .f32⟩ : BufTy).Contents (Elt F)),
    binary main_v82 main_v83 main_v84 (cmpf .ogt : (⟨S100000, .f32⟩ : BufTy).Contents (Elt F) → (⟨S100000, .f32⟩ : BufTy).Contents (Elt F) → (⟨S100000, .i1⟩ : BufTy).Contents (Elt F)),
    nullary main_cst_18 (constant S_ .f32 0x3F800000#32),
    unary main_cst_18 main_v85 (broadcastInDim S100000 ![] bcast_S_S100000 : (⟨S_, .f32⟩ : BufTy).Contents (Elt F) → (⟨S100000, .f32⟩ : BufTy).Contents (Elt F)),
    binary main_v82 main_v85 main_v86 (maximumf : (⟨S100000, .f32⟩ : BufTy).Contents (Elt F) → (⟨S100000, .f32⟩ : BufTy).Contents (Elt F) → (⟨S100000, .f32⟩ : BufTy).Contents (Elt F)),
    unary main_v86 main_v87 (Host.rsqrt : (⟨S100000, .f32⟩ : BufTy).Contents (Elt F) → (⟨S100000, .f32⟩ : BufTy).Contents (Elt F)),
    nullary main_cst_19 (constant S_ .f32 0x00000000#32),
    TRef.unary (TRef.of (T := ⟨S_, .f32⟩) main_cst_19) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v84) (TRef.of (T := ⟨S100000, .f32⟩) main_v87) (TRef.of (T := ⟨S100000, .f32⟩) main_call2_v1) (TRef.of (T := ⟨S100000, .f32⟩) main_v88) select,
    nullary main_c_20 (constantI S_ 32 0#32),
    unary main_c_20 main_v89 (broadcastInDim S1700000 ![] bcast_S_S1700000 : (⟨S_, .i32⟩ : BufTy).Contents (Elt F) → (⟨S1700000, .i32⟩ : BufTy).Contents (Elt F)),
    binary main_v77 main_v89 main_v90 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v91 (broadcastInDim S1700000 ![] bcast_S_S1700000 : (⟨S_, .i32⟩ : BufTy).Contents (Elt F) → (⟨S1700000, .i32⟩ : BufTy).Contents (Elt F)),
    binary main_v77 main_v91 main_v92 (addi : (⟨S1700000, .i32⟩ : BufTy).Contents (Elt F) → (⟨S1700000, .i32⟩ : BufTy).Contents (Elt F) → (⟨S1700000, .i32⟩ : BufTy).Contents (Elt F)),
    ternary main_v90 main_v92 main_v77 main_v93 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v93 main_v94 (broadcastInDim S1700000x1 ![0] bcast_S1700000_S1700000x1_0 : (⟨S1700000, .i32⟩ : BufTy).Contents (Elt F) → (⟨S1700000x1, .i32⟩ : BufTy).Contents (Elt F)),
    binary main_v88 main_v94 main_v95 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_22 (constantI S_ 32 0#32),
    unary main_c_22 main_v96 (broadcastInDim S1700000 ![] bcast_S_S1700000 : (⟨S_, .i32⟩ : BufTy).Contents (Elt F) → (⟨S1700000, .i32⟩ : BufTy).Contents (Elt F)),
    binary main_v78 main_v96 main_v97 (cmpi .slt : (⟨S1700000, .i32⟩ : BufTy).Contents (Elt F) → (⟨S1700000, .i32⟩ : BufTy).Contents (Elt F) → (⟨S1700000, .i1⟩ : BufTy).Contents (Elt F)),
    nullary main_c_23 (constantI S_ 32 100000#32),
    unary main_c_23 main_v98 (broadcastInDim S1700000 ![] bcast_S_S1700000 : (⟨S_, .i32⟩ : BufTy).Contents (Elt F) → (⟨S1700000, .i32⟩ : BufTy).Contents (Elt F)),
    binary main_v78 main_v98 main_v99 (addi : (⟨S1700000, .i32⟩ : BufTy).Contents (Elt F) → (⟨S1700000, .i32⟩ : BufTy).Contents (Elt F) → (⟨S1700000, .i32⟩ : BufTy).Contents (Elt F)),
    ternary main_v97 main_v99 main_v78 main_v100 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v100 main_v101 (broadcastInDim S1700000x1 ![0] bcast_S1700000_S1700000x1_0 : (⟨S1700000, .i32⟩ : BufTy).Contents (Elt F) → (⟨S1700000x1, .i32⟩ : BufTy).Contents (Elt F)),
    binary main_v88 main_v101 main_v102 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v95 main_v102 main_v103 (mulf : (⟨S1700000, .f32⟩ : BufTy).Contents (Elt F) → (⟨S1700000, .f32⟩ : BufTy).Contents (Elt F) → (⟨S1700000, .f32⟩ : BufTy).Contents (Elt F)),
    nullary main_c_24 (constantI S_ 32 0#32),
    unary main_c_24 main_v104 (broadcastInDim S1700000 ![] bcast_S_S1700000 : (⟨S_, .i32⟩ : BufTy).Contents (Elt F) → (⟨S1700000, .i32⟩ : BufTy).Contents (Elt F)),
    binary main_v77 main_v104 main_v105 (cmpi .slt : (⟨S1700000, .i32⟩ : BufTy).Contents (Elt F) → (⟨S1700000, .i32⟩ : BufTy).Contents (Elt F) → (⟨S1700000, .i1⟩ : BufTy).Contents (Elt F)),
    nullary main_c_25 (constantI S_ 32 100000#32),
    unary main_c_25 main_v106 (broadcastInDim S1700000 ![] bcast_S_S1700000 : (⟨S_, .i32⟩ : BufTy).Contents (Elt F) → (⟨S1700000, .i32⟩ : BufTy).Contents (Elt F)),
    binary main_v77 main_v106 main_v107 (addi : (⟨S1700000, .i32⟩ : BufTy).Contents (Elt F) → (⟨S1700000, .i32⟩ : BufTy).Contents (Elt F) → (⟨S1700000, .i32⟩ : BufTy).Contents (Elt F)),
    ternary main_v105 main_v107 main_v77 main_v108 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v108 main_v109 (broadcastInDim S1700000x1 ![0] bcast_S1700000_S1700000x1_0 : (⟨S1700000, .i32⟩ : BufTy).Contents (Elt F) → (⟨S1700000x1, .i32⟩ : BufTy).Contents (Elt F)),
    binary main_v75 main_v109 main_v110 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v103 main_v111 (broadcastInDim S1700000x1 ![0] bcast_S1700000_S1700000x1_0 : (⟨S1700000, .f32⟩ : BufTy).Contents (Elt F) → (⟨S1700000x1, .f32⟩ : BufTy).Contents (Elt F)),
    unary main_v111 main_v112 (broadcastInDim S1700000x64 ![0, 1] bcast_S1700000x1_S1700000x64_0_1 : (⟨S1700000x1, .f32⟩ : BufTy).Contents (Elt F) → (⟨S1700000x64, .f32⟩ : BufTy).Contents (Elt F)),
    binary main_v110 main_v112 main_v113 (mulf : (⟨S1700000x64, .f32⟩ : BufTy).Contents (Elt F) → (⟨S1700000x64, .f32⟩ : BufTy).Contents (Elt F) → (⟨S1700000x64, .f32⟩ : BufTy).Contents (Elt F)),
    nullary main_cst_26 (constant S_ .f32 0x00000000#32),
    unary main_cst_26 main_v114 (broadcastInDim S100000x64 ![] bcast_S_S100000x64 : (⟨S_, .f32⟩ : BufTy).Contents (Elt F) → (⟨S100000x64, .f32⟩ : BufTy).Contents (Elt F)),
    unary main_v78 main_v115 (broadcastInDim S1700000x1 ![0] bcast_S1700000_S1700000x1_0 : (⟨S1700000, .i32⟩ : BufTy).Contents (Elt F) → (⟨S1700000x1, .i32⟩ : BufTy).Contents (Elt F)),
    ternary main_v114 main_v115 main_v113 main_v116 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v117 (broadcastInDim S1x64 ![1] bcast_S64_S1x64_1 : (⟨S64, .f32⟩ : BufTy).Contents (Elt F) → (⟨S1x64, .f32⟩ : BufTy).Contents (Elt F)),
    unary main_v117 main_v118 (broadcastInDim S100000x64 ![0, 1] bcast_S1x64_S100000x64_0_1 : (⟨S1x64, .f32⟩ : BufTy).Contents (Elt F) → (⟨S100000x64, .f32⟩ : BufTy).Contents (Elt F)),
    binary main_v116 main_v118 main_v119 (addf : (⟨S100000x64, .f32⟩ : BufTy).Contents (Elt F) → (⟨S100000x64, .f32⟩ : BufTy).Contents (Elt F) → (⟨S100000x64, .f32⟩ : BufTy).Contents (Elt F)) ]

/-- The second normalisation over the node axis and `max(·, 0)`. -/
abbrev opsBn2 : List (HloOp τ sig (Elt F)) :=
  [ nullary main_cst_27 (constant S_ .f32 0x00000000#32),
    binary main_v119 main_cst_27 main_v120 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_28 (constant S_ .f32 0x47C35000#32),
    unary main_cst_28 main_v121 (broadcastInDim S64 ![] bcast_S_S64 : (⟨S_, .f32⟩ : BufTy).Contents (Elt F) → (⟨S64, .f32⟩ : BufTy).Contents (Elt F)),
    binary main_v120 main_v121 main_v122 (Host.divf : (⟨S64, .f32⟩ : BufTy).Contents (Elt F) → (⟨S64, .f32⟩ : BufTy).Contents (Elt F) → (⟨S64, .f32⟩ : BufTy).Contents (Elt F)),
    unary main_v122 main_v123 (broadcastInDim S1x64 ![1] bcast_S64_S1x64_1 : (⟨S64, .f32⟩ : BufTy).Contents (Elt F) → (⟨S1x64, .f32⟩ : BufTy).Contents (Elt F)),
    unary main_v123 main_v124 (broadcastInDim S100000x64 ![0, 1] bcast_S1x64_S100000x64_0_1 : (⟨S1x64, .f32⟩ : BufTy).Contents (Elt F) → (⟨S100000x64, .f32⟩ : BufTy).Contents (Elt F)),
    binary main_v119 main_v124 main_v125 (subf : (⟨S100000x64, .f32⟩ : BufTy).Contents (Elt F) → (⟨S100000x64, .f32⟩ : BufTy).Contents (Elt F) → (⟨S100000x64, .f32⟩ : BufTy).Contents (Elt F)),
    binary main_v125 main_v125 main_v126 (mulf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x00000000#32),
    binary main_v126 main_cst_29 main_v127 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_30 (constant S_ .f32 0x47C35000#32),
    unary main_cst_30 main_v128 (broadcastInDim S64 ![] bcast_S_S64 : (⟨S_, .f32⟩ : BufTy).Contents (Elt F) → (⟨S64, .f32⟩ : BufTy).Contents (Elt F)),
    binary main_v127 main_v128 main_v129 (Host.divf : (⟨S64, .f32⟩ : BufTy).Contents (Elt F) → (⟨S64, .f32⟩ : BufTy).Contents (Elt F) → (⟨S64, .f32⟩ : BufTy).Contents (Elt F)),
    unary main_v122 main_v130 (broadcastInDim S1x64 ![1] bcast_S64_S1x64_1 : (⟨S64, .f32⟩ : BufTy).Contents (Elt F) → (⟨S1x64, .f32⟩ : BufTy).Contents (Elt F)),
    unary main_v130 main_v131 (broadcastInDim S100000x64 ![0, 1] bcast_S1x64_S100000x64_0_1 : (⟨S1x64, .f32⟩ : BufTy).Contents (Elt F) → (⟨S100000x64, .f32⟩ : BufTy).Contents (Elt F)),
    binary main_v119 main_v131 main_v132 (subf : (⟨S100000x64, .f32⟩ : BufTy).Contents (Elt F) → (⟨S100000x64, .f32⟩ : BufTy).Contents (Elt F) → (⟨S100000x64, .f32⟩ : BufTy).Contents (Elt F)),
    nullary main_cst_31 (constant S_ .f32 0x3727C5AC#32),
    unary main_cst_31 main_v133 (broadcastInDim S64 ![] bcast_S_S64 : (⟨S_, .f32⟩ : BufTy).Contents (Elt F) → (⟨S64, .f32⟩ : BufTy).Contents (Elt F)),
    binary main_v129 main_v133 main_v134 (addf : (⟨S64, .f32⟩ : BufTy).Contents (Elt F) → (⟨S64, .f32⟩ : BufTy).Contents (Elt F) → (⟨S64, .f32⟩ : BufTy).Contents (Elt F)),
    unary main_v134 main_v135 (Host.rsqrt : (⟨S64, .f32⟩ : BufTy).Contents (Elt F) → (⟨S64, .f32⟩ : BufTy).Contents (Elt F)),
    unary main_v135 main_v136 (broadcastInDim S1x64 ![1] bcast_S64_S1x64_1 : (⟨S64, .f32⟩ : BufTy).Contents (Elt F) → (⟨S1x64, .f32⟩ : BufTy).Contents (Elt F)),
    unary main_v136 main_v137 (broadcastInDim S100000x64 ![0, 1] bcast_S1x64_S100000x64_0_1 : (⟨S1x64, .f32⟩ : BufTy).Contents (Elt F) → (⟨S100000x64, .f32⟩ : BufTy).Contents (Elt F)),
    binary main_v132 main_v137 main_v138 (mulf : (⟨S100000x64, .f32⟩ : BufTy).Contents (Elt F) → (⟨S100000x64, .f32⟩ : BufTy).Contents (Elt F) → (⟨S100000x64, .f32⟩ : BufTy).Contents (Elt F)),
    unary main_arg8 main_v139 (broadcastInDim S1x64 ![1] bcast_S64_S1x64_1 : (⟨S64, .f32⟩ : BufTy).Contents (Elt F) → (⟨S1x64, .f32⟩ : BufTy).Contents (Elt F)),
    unary main_v139 main_v140 (broadcastInDim S100000x64 ![0, 1] bcast_S1x64_S100000x64_0_1 : (⟨S1x64, .f32⟩ : BufTy).Contents (Elt F) → (⟨S100000x64, .f32⟩ : BufTy).Contents (Elt F)),
    binary main_v138 main_v140 main_v141 (mulf : (⟨S100000x64, .f32⟩ : BufTy).Contents (Elt F) → (⟨S100000x64, .f32⟩ : BufTy).Contents (Elt F) → (⟨S100000x64, .f32⟩ : BufTy).Contents (Elt F)),
    unary main_arg9 main_v142 (broadcastInDim S1x64 ![1] bcast_S64_S1x64_1 : (⟨S64, .f32⟩ : BufTy).Contents (Elt F) → (⟨S1x64, .f32⟩ : BufTy).Contents (Elt F)),
    unary main_v142 main_v143 (broadcastInDim S100000x64 ![0, 1] bcast_S1x64_S100000x64_0_1 : (⟨S1x64, .f32⟩ : BufTy).Contents (Elt F) → (⟨S100000x64, .f32⟩ : BufTy).Contents (Elt F)),
    binary main_v141 main_v143 main_v144 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v144) (TRef.of (T := ⟨S100000x64, .f32⟩) main_call3_v0) (TRef.of (T := ⟨S100000x64, .f32⟩) main_v145) maximumf ]

/-- The three feature blocks side by side, the last linear map, its bias and `max(·, 0)`. -/
abbrev opsHead : List (HloOp τ sig (Elt F)) :=
  [ nary ![main_arg0, main_v74, main_v145] main_v146 (fun u => concatenate S100000x448 1 [⟨S100000x256, u 0⟩, ⟨S100000x128, u 1⟩, ⟨S100000x64, u 2⟩] concatenates_S100000x256_S100000x128_S100000x64_S100000x448_d1),
    binary main_v146 main_arg10 main_v147 ((fun l r => Host.dotGeneral dot_S100000x448_S448x256_S100000x256_1_0_0_1_n_n none l r) : (⟨S100000x448, .f32⟩ : BufTy).Contents (Elt F) → (⟨S448x256, .f32⟩ : BufTy).Contents (Elt F) → (⟨S100000x256, .f32⟩ : BufTy).Contents (Elt F)),
    unary main_arg11 main_v148 (broadcastInDim S1x256 ![1] bcast_S256_S1x256_1 : (⟨S256, .f32⟩ : BufTy).Contents (Elt F) → (⟨S1x256, .f32⟩ : BufTy).Contents (Elt F)),
    unary main_v148 main_v149 (broadcastInDim S100000x256 ![0, 1] bcast_S1x256_S100000x256_0_1 : (⟨S1x256, .f32⟩ : BufTy).Contents (Elt F) → (⟨S100000x256, .f32⟩ : BufTy).Contents (Elt F)),
    binary main_v147 main_v149 main_v150 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x256, .f32⟩) main_call4_v0) (broadcastInDim S100000x256 ![] bcast_S_S100000x256),
    TRef.binary (TRef.of (T := ⟨S100000x256, .f32⟩) main_v150) (TRef.of (T := ⟨S100000x256, .f32⟩) main_call4_v0) (TRef.of (T := ⟨S100000x256, .f32⟩) main_v151) maximumf ]

/-- @main's operations, in order (a called function's operations stand in its call's place). -/
abbrev ops : List (HloOp τ sig (Elt F)) :=
  opsRows ++ opsMm1 ++ opsConv1 ++ opsBn1 ++ opsMm2 ++ opsConv2 ++ opsBn2 ++ opsHead

/-! ## Every operation stays among the core's buffers and allocates nothing -/

set_option maxRecDepth 8192 in
theorem opsRows_sub : (opsRows : List (HloOp τ sig (Elt F))).Forall fun op => op.bufs ⊆ tcRefs τ sig :=
  ⟨unary_bufs_sub .., reshape_bufs_sub .., unary_bufs_sub .., reshape_bufs_sub ..⟩
set_option maxRecDepth 8192 in
theorem opsRows_fresh : ∀ op ∈ (opsRows : List (HloOp τ sig (Elt F))), op.fresh = ∅ := by
  intro _ h; (repeat (cases h with | head => rfl | tail _ h => ?_)); exact nomatch h

set_option maxRecDepth 8192 in
theorem opsMm1_sub : (opsMm1 : List (HloOp τ sig (Elt F))).Forall fun op => op.bufs ⊆ tcRefs τ sig :=
  binary_bufs_sub ..
set_option maxRecDepth 8192 in
theorem opsMm1_fresh : ∀ op ∈ (opsMm1 : List (HloOp τ sig (Elt F))), op.fresh = ∅ := by
  intro _ h; (repeat (cases h with | head => rfl | tail _ h => ?_)); exact nomatch h

set_option maxRecDepth 8192 in
theorem opsConv1_sub : (opsConv1 : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
set_option maxRecDepth 8192 in
theorem opsConv1_fresh : ∀ op ∈ (opsConv1 : List (HloOp τ sig (Elt F))), op.fresh = ∅ := by
  intro _ h; (repeat (cases h with | head => rfl | tail _ h => ?_)); exact nomatch h

set_option maxRecDepth 8192 in
theorem opsBn1_sub : (opsBn1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem opsBn1_fresh : ∀ op ∈ (opsBn1 : List (HloOp τ sig (Elt F))), op.fresh = ∅ := by
  intro _ h; (repeat (cases h with | head => rfl | tail _ h => ?_)); exact nomatch h

set_option maxRecDepth 8192 in
theorem opsMm2_sub : (opsMm2 : List (HloOp τ sig (Elt F))).Forall fun op => op.bufs ⊆ tcRefs τ sig :=
  binary_bufs_sub ..
set_option maxRecDepth 8192 in
theorem opsMm2_fresh : ∀ op ∈ (opsMm2 : List (HloOp τ sig (Elt F))), op.fresh = ∅ := by
  intro _ h; (repeat (cases h with | head => rfl | tail _ h => ?_)); exact nomatch h

set_option maxRecDepth 8192 in
theorem opsConv2_sub : (opsConv2 : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
set_option maxRecDepth 8192 in
theorem opsConv2_fresh : ∀ op ∈ (opsConv2 : List (HloOp τ sig (Elt F))), op.fresh = ∅ := by
  intro _ h; (repeat (cases h with | head => rfl | tail _ h => ?_)); exact nomatch h

set_option maxRecDepth 8192 in
theorem opsBn2_sub : (opsBn2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem opsBn2_fresh : ∀ op ∈ (opsBn2 : List (HloOp τ sig (Elt F))), op.fresh = ∅ := by
  intro _ h; (repeat (cases h with | head => rfl | tail _ h => ?_)); exact nomatch h

set_option maxRecDepth 8192 in
theorem opsHead_sub : (opsHead : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub ..⟩
set_option maxRecDepth 8192 in
theorem opsHead_fresh : ∀ op ∈ (opsHead : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  Cert.ListParts.forall_append (Cert.ListParts.forall_append (Cert.ListParts.forall_append (Cert.ListParts.forall_append (Cert.ListParts.forall_append (Cert.ListParts.forall_append (Cert.ListParts.forall_append (opsRows_sub) opsMm1_sub) opsConv1_sub) opsBn1_sub) opsMm2_sub) opsConv2_sub) opsBn2_sub) opsHead_sub

theorem ops_fresh : ∀ op ∈ (ops : List (HloOp τ sig (Elt F))), op.fresh = ∅ :=
  Cert.ListParts.mem_append_all (Cert.ListParts.mem_append_all (Cert.ListParts.mem_append_all (Cert.ListParts.mem_append_all (Cert.ListParts.mem_append_all (Cert.ListParts.mem_append_all (Cert.ListParts.mem_append_all (opsRows_fresh) opsMm1_fresh) opsConv1_fresh) opsBn1_fresh) opsMm2_fresh) opsConv2_fresh) opsBn2_fresh) opsHead_fresh

/-! ## What each stage writes, and that it leaves every other buffer as it was -/

/-- The buffers `opsRows` writes. -/
abbrev opsRows_W : List (Ref sig .tc) := [main_v0, main_v1, main_v2, main_v3]
set_option maxRecDepth 8192 in
theorem opsRows_writes : (opsRows : List (HloOp τ sig (Elt F))).Forall fun op => op.writes ⊆ (opsRows_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem opsRows_keep (V : Valuation τ sig (Elt F)) (r : Ref sig .tc) (h : r ∉ opsRows_W) :
    after opsRows V (Proc.devRef .tc r) = V (Proc.devRef .tc r) :=
  after_of_writes_sub opsRows V opsRows_writes h

/-- The buffers `opsMm1` writes. -/
abbrev opsMm1_W : List (Ref sig .tc) := [main_v4]
set_option maxRecDepth 8192 in
theorem opsMm1_writes : (opsMm1 : List (HloOp τ sig (Elt F))).Forall fun op => op.writes ⊆ (opsMm1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
theorem opsMm1_keep (V : Valuation τ sig (Elt F)) (r : Ref sig .tc) (h : r ∉ opsMm1_W) :
    after opsMm1 V (Proc.devRef .tc r) = V (Proc.devRef .tc r) :=
  after_of_writes_sub opsMm1 V opsMm1_writes h

/-- The buffers `opsConv1` writes. -/
abbrev opsConv1_W : List (Ref sig .tc) := [main_v5, main_v6, main_v7, main_cst, main_v8, main_cst_0, main_v9, main_v10, main_v11, main_cst_1, main_v12, main_v13, main_cst_2, main_v14, main_v15, main_v16, main_cst_3, main_call0_v0, main_call0_v1, main_v17, main_c, main_v18, main_v19, main_c_4, main_v20, main_v21, main_v22, main_v23, main_v24, main_c_5, main_v25, main_v26, main_c_6, main_v27, main_v28, main_v29, main_v30, main_v31, main_v32, main_c_7, main_v33, main_v34, main_c_8, main_v35, main_v36, main_v37, main_v38, main_v39, main_v40, main_v41, main_v42, main_cst_9, main_v43, main_v44, main_v45, main_v46, main_v47, main_v48]
set_option maxRecDepth 8192 in
theorem opsConv1_writes : (opsConv1 : List (HloOp τ sig (Elt F))).Forall fun op => op.writes ⊆ (opsConv1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem opsConv1_keep (V : Valuation τ sig (Elt F)) (r : Ref sig .tc) (h : r ∉ opsConv1_W) :
    after opsConv1 V (Proc.devRef .tc r) = V (Proc.devRef .tc r) :=
  after_of_writes_sub opsConv1 V opsConv1_writes h

/-- The buffers `opsBn1` writes. -/
abbrev opsBn1_W : List (Ref sig .tc) := [main_cst_10, main_v49, main_cst_11, main_v50, main_v51, main_v52, main_v53, main_v54, main_v55, main_cst_12, main_v56, main_cst_13, main_v57, main_v58, main_v59, main_v60, main_v61, main_cst_14, main_v62, main_v63, main_v64, main_v65, main_v66, main_v67, main_v68, main_v69, main_v70, main_v71, main_v72, main_v73, main_call1_cst, main_call1_v0, main_v74]
set_option maxRecDepth 8192 in
theorem opsBn1_writes : (opsBn1 : List (HloOp τ sig (Elt F))).Forall fun op => op.writes ⊆ (opsBn1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem opsBn1_keep (V : Valuation τ sig (Elt F)) (r : Ref sig .tc) (h : r ∉ opsBn1_W) :
    after opsBn1 V (Proc.devRef .tc r) = V (Proc.devRef .tc r) :=
  after_of_writes_sub opsBn1 V opsBn1_writes h

/-- The buffers `opsMm2` writes. -/
abbrev opsMm2_W : List (Ref sig .tc) := [main_v75]
set_option maxRecDepth 8192 in
theorem opsMm2_writes : (opsMm2 : List (HloOp τ sig (Elt F))).Forall fun op => op.writes ⊆ (opsMm2_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
theorem opsMm2_keep (V : Valuation τ sig (Elt F)) (r : Ref sig .tc) (h : r ∉ opsMm2_W) :
    after opsMm2 V (Proc.devRef .tc r) = V (Proc.devRef .tc r) :=
  after_of_writes_sub opsMm2 V opsMm2_writes h

/-- The buffers `opsConv2` writes. -/
abbrev opsConv2_W : List (Ref sig .tc) := [main_v76, main_v77, main_v78, main_cst_15, main_v79, main_cst_16, main_v80, main_v81, main_v82, main_cst_17, main_v83, main_v84, main_cst_18, main_v85, main_v86, main_v87, main_cst_19, main_call2_v0, main_call2_v1, main_v88, main_c_20, main_v89, main_v90, main_c_21, main_v91, main_v92, main_v93, main_v94, main_v95, main_c_22, main_v96, main_v97, main_c_23, main_v98, main_v99, main_v100, main_v101, main_v102, main_v103, main_c_24, main_v104, main_v105, main_c_25, main_v106, main_v107, main_v108, main_v109, main_v110, main_v111, main_v112, main_v113, main_cst_26, main_v114, main_v115, main_v116, main_v117, main_v118, main_v119]
set_option maxRecDepth 8192 in
theorem opsConv2_writes : (opsConv2 : List (HloOp τ sig (Elt F))).Forall fun op => op.writes ⊆ (opsConv2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem opsConv2_keep (V : Valuation τ sig (Elt F)) (r : Ref sig .tc) (h : r ∉ opsConv2_W) :
    after opsConv2 V (Proc.devRef .tc r) = V (Proc.devRef .tc r) :=
  after_of_writes_sub opsConv2 V opsConv2_writes h

/-- The buffers `opsBn2` writes. -/
abbrev opsBn2_W : List (Ref sig .tc) := [main_cst_27, main_v120, main_cst_28, main_v121, main_v122, main_v123, main_v124, main_v125, main_v126, main_cst_29, main_v127, main_cst_30, main_v128, main_v129, main_v130, main_v131, main_v132, main_cst_31, main_v133, main_v134, main_v135, main_v136, main_v137, main_v138, main_v139, main_v140, main_v141, main_v142, main_v143, main_v144, main_call3_cst, main_call3_v0, main_v145]
set_option maxRecDepth 8192 in
theorem opsBn2_writes : (opsBn2 : List (HloOp τ sig (Elt F))).Forall fun op => op.writes ⊆ (opsBn2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem opsBn2_keep (V : Valuation τ sig (Elt F)) (r : Ref sig .tc) (h : r ∉ opsBn2_W) :
    after opsBn2 V (Proc.devRef .tc r) = V (Proc.devRef .tc r) :=
  after_of_writes_sub opsBn2 V opsBn2_writes h

/-- The buffers `opsHead` writes. -/
abbrev opsHead_W : List (Ref sig .tc) := [main_v146, main_v147, main_v148, main_v149, main_v150, main_call4_cst, main_call4_v0, main_v151]
set_option maxRecDepth 8192 in
theorem opsHead_writes : (opsHead : List (HloOp τ sig (Elt F))).Forall fun op => op.writes ⊆ (opsHead_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem opsHead_keep (V : Valuation τ sig (Elt F)) (r : Ref sig .tc) (h : r ∉ opsHead_W) :
    after opsHead V (Proc.devRef .tc r) = V (Proc.devRef .tc r) :=
  after_of_writes_sub opsHead V opsHead_writes h

/-! ## What each stage computes, from any contents -/

theorem rows_v1 (V : Valuation τ sig (Elt F)) :
    after opsRows V (Proc.devRef .tc main_v1) = Cert.Spec.idxRow0 (V (Proc.devRef .tc main_arg1)) := by
  simp only [opsRows]
  after_results_simp <;> rfl

theorem rows_v3 (V : Valuation τ sig (Elt F)) :
    after opsRows V (Proc.devRef .tc main_v3) = Cert.Spec.idxRow1 (V (Proc.devRef .tc main_arg1)) := by
  simp only [opsRows]
  after_results_simp <;> rfl

theorem mm1_v4 (V : Valuation τ sig (Elt F)) :
    after opsMm1 V (Proc.devRef .tc main_v4) = Cert.Spec.mm1 (V (Proc.devRef .tc main_arg0)) (V (Proc.devRef .tc main_arg2)) := by
  simp only [opsMm1]
  after_results_simp <;> rfl

set_option maxRecDepth 8192 in
set_option maxHeartbeats 2000000 in
theorem conv1_v48 (V : Valuation τ sig (Elt F)) :
    after opsConv1 V (Proc.devRef .tc main_v48) = Cert.Spec.conv128 (V (Proc.devRef .tc main_v4)) (Cert.Spec.withLoops (V (Proc.devRef .tc main_v1))) (Cert.Spec.withLoops (V (Proc.devRef .tc main_v3))) (V (Proc.devRef .tc main_arg3)) := by
  simp only [opsConv1]
  after_results_simp <;> rfl

set_option maxRecDepth 8192 in
set_option maxHeartbeats 2000000 in
theorem bn1_v74 (V : Valuation τ sig (Elt F)) :
    after opsBn1 V (Proc.devRef .tc main_v74) = Cert.Spec.bnRef128 (V (Proc.devRef .tc main_v48)) (V (Proc.devRef .tc main_arg4)) (V (Proc.devRef .tc main_arg5)) := by
  simp only [opsBn1]
  after_results_simp <;> rfl

theorem mm2_v75 (V : Valuation τ sig (Elt F)) :
    after opsMm2 V (Proc.devRef .tc main_v75) = Cert.Spec.mm2 (V (Proc.devRef .tc main_v74)) (V (Proc.devRef .tc main_arg6)) := by
  simp only [opsMm2]
  after_results_simp <;> rfl

set_option maxRecDepth 8192 in
set_option maxHeartbeats 2000000 in
theorem conv2_v119 (V : Valuation τ sig (Elt F)) :
    after opsConv2 V (Proc.devRef .tc main_v119) = Cert.Spec.conv64 (V (Proc.devRef .tc main_v75)) (Cert.Spec.withLoops (V (Proc.devRef .tc main_v1))) (Cert.Spec.withLoops (V (Proc.devRef .tc main_v3))) (V (Proc.devRef .tc main_arg7)) := by
  simp only [opsConv2]
  after_results_simp <;> rfl

set_option maxRecDepth 8192 in
set_option maxHeartbeats 2000000 in
theorem bn2_v145 (V : Valuation τ sig (Elt F)) :
    after opsBn2 V (Proc.devRef .tc main_v145) = Cert.Spec.bnRef64 (V (Proc.devRef .tc main_v119)) (V (Proc.devRef .tc main_arg8)) (V (Proc.devRef .tc main_arg9)) := by
  simp only [opsBn2]
  after_results_simp <;> rfl

theorem head_v151 (V : Valuation τ sig (Elt F)) :
    after opsHead V (Proc.devRef .tc main_v151) = Cert.Spec.fc (Cert.Spec.cat448 (V (Proc.devRef .tc main_arg0)) (V (Proc.devRef .tc main_v74)) (V (Proc.devRef .tc main_v145))) (V (Proc.devRef .tc main_arg10)) (V (Proc.devRef .tc main_arg11)) := by
  simp only [opsHead]
  after_results_simp <;> rfl

/-! ## The stages in a row

`val k V0` is what the buffers hold after the first `k` stages from contents `V0`.  A buffer that none of the first `k`
stages writes still holds what `V0` gave it; the buffer a stage ends in holds that stage of the buffers it read. -/

section Compose

variable (V0 : Valuation τ sig (Elt F))

def val1 : Valuation τ sig (Elt F) := after opsRows V0
theorem val1_same (r : Ref sig .tc) (h1 : r ∉ opsRows_W) :
    val1 V0 (Proc.devRef .tc r) = V0 (Proc.devRef .tc r) :=
  (opsRows_keep V0 r h1)

def val2 : Valuation τ sig (Elt F) := after opsMm1 (val1 V0)
theorem val2_same (r : Ref sig .tc) (h1 : r ∉ opsRows_W) (h2 : r ∉ opsMm1_W) :
    val2 V0 (Proc.devRef .tc r) = V0 (Proc.devRef .tc r) :=
  (opsMm1_keep (val1 V0) r h2).trans (val1_same V0 r h1)

def val3 : Valuation τ sig (Elt F) := after opsConv1 (val2 V0)
theorem val3_same (r : Ref sig .tc) (h1 : r ∉ opsRows_W) (h2 : r ∉ opsMm1_W) (h3 : r ∉ opsConv1_W) :
    val3 V0 (Proc.devRef .tc r) = V0 (Proc.devRef .tc r) :=
  (opsConv1_keep (val2 V0) r h3).trans (val2_same V0 r h1 h2)

def val4 : Valuation τ sig (Elt F) := after opsBn1 (val3 V0)
theorem val4_same (r : Ref sig .tc) (h1 : r ∉ opsRows_W) (h2 : r ∉ opsMm1_W) (h3 : r ∉ opsConv1_W) (h4 : r ∉ opsBn1_W) :
    val4 V0 (Proc.devRef .tc r) = V0 (Proc.devRef .tc r) :=
  (opsBn1_keep (val3 V0) r h4).trans (val3_same V0 r h1 h2 h3)

def val5 : Valuation τ sig (Elt F) := after opsMm2 (val4 V0)
theorem val5_same (r : Ref sig .tc) (h1 : r ∉ opsRows_W) (h2 : r ∉ opsMm1_W) (h3 : r ∉ opsConv1_W) (h4 : r ∉ opsBn1_W) (h5 : r ∉ opsMm2_W) :
    val5 V0 (Proc.devRef .tc r) = V0 (Proc.devRef .tc r) :=
  (opsMm2_keep (val4 V0) r h5).trans (val4_same V0 r h1 h2 h3 h4)

def val6 : Valuation τ sig (Elt F) := after opsConv2 (val5 V0)
theorem val6_same (r : Ref sig .tc) (h1 : r ∉ opsRows_W) (h2 : r ∉ opsMm1_W) (h3 : r ∉ opsConv1_W) (h4 : r ∉ opsBn1_W) (h5 : r ∉ opsMm2_W) (h6 : r ∉ opsConv2_W) :
    val6 V0 (Proc.devRef .tc r) = V0 (Proc.devRef .tc r) :=
  (opsConv2_keep (val5 V0) r h6).trans (val5_same V0 r h1 h2 h3 h4 h5)

def val7 : Valuation τ sig (Elt F) := after opsBn2 (val6 V0)
theorem val7_same (r : Ref sig .tc) (h1 : r ∉ opsRows_W) (h2 : r ∉ opsMm1_W) (h3 : r ∉ opsConv1_W) (h4 : r ∉ opsBn1_W) (h5 : r ∉ opsMm2_W) (h6 : r ∉ opsConv2_W) (h7 : r ∉ opsBn2_W) :
    val7 V0 (Proc.devRef .tc r) = V0 (Proc.devRef .tc r) :=
  (opsBn2_keep (val6 V0) r h7).trans (val6_same V0 r h1 h2 h3 h4 h5 h6)

def val8 : Valuation τ sig (Elt F) := after opsHead (val7 V0)
theorem val8_same (r : Ref sig .tc) (h1 : r ∉ opsRows_W) (h2 : r ∉ opsMm1_W) (h3 : r ∉ opsConv1_W) (h4 : r ∉ opsBn1_W) (h5 : r ∉ opsMm2_W) (h6 : r ∉ opsConv2_W) (h7 : r ∉ opsBn2_W) (h8 : r ∉ opsHead_W) :
    val8 V0 (Proc.devRef .tc r) = V0 (Proc.devRef .tc r) :=
  (opsHead_keep (val7 V0) r h8).trans (val7_same V0 r h1 h2 h3 h4 h5 h6 h7)

/-- The two index rows, after the first stage and as long as nothing overwrites them (through the second convolution's reads). -/
theorem val1_v1 : val1 V0 (Proc.devRef .tc main_v1) = Cert.Spec.idxRow0 (V0 (Proc.devRef .tc main_arg1)) := rows_v1 V0
theorem val1_v3 : val1 V0 (Proc.devRef .tc main_v3) = Cert.Spec.idxRow1 (V0 (Proc.devRef .tc main_arg1)) := rows_v3 V0
theorem val2_v1 : val2 V0 (Proc.devRef .tc main_v1) = Cert.Spec.idxRow0 (V0 (Proc.devRef .tc main_arg1)) := (opsMm1_keep (val1 V0) main_v1 (by decide)).trans (val1_v1 V0)
theorem val2_v3 : val2 V0 (Proc.devRef .tc main_v3) = Cert.Spec.idxRow1 (V0 (Proc.devRef .tc main_arg1)) := (opsMm1_keep (val1 V0) main_v3 (by decide)).trans (val1_v3 V0)
theorem val5_v1 : val5 V0 (Proc.devRef .tc main_v1) = Cert.Spec.idxRow0 (V0 (Proc.devRef .tc main_arg1)) :=
  (opsMm2_keep (val4 V0) main_v1 (by decide)).trans ((opsBn1_keep (val3 V0) main_v1 (by decide)).trans ((opsConv1_keep (val2 V0) main_v1 (by decide)).trans (val2_v1 V0)))
theorem val5_v3 : val5 V0 (Proc.devRef .tc main_v3) = Cert.Spec.idxRow1 (V0 (Proc.devRef .tc main_arg1)) :=
  (opsMm2_keep (val4 V0) main_v3 (by decide)).trans ((opsBn1_keep (val3 V0) main_v3 (by decide)).trans ((opsConv1_keep (val2 V0) main_v3 (by decide)).trans (val2_v3 V0)))

/-- The first linear map. -/
theorem val2_v4 : val2 V0 (Proc.devRef .tc main_v4) = Cert.Spec.mm1 (V0 (Proc.devRef .tc main_arg0)) (V0 (Proc.devRef .tc main_arg2)) := by
  unfold val2
  rw [mm1_v4, val1_same V0 main_arg0 (by decide), val1_same V0 main_arg2 (by decide)]

/-- The first convolution. -/
theorem val3_v48 : val3 V0 (Proc.devRef .tc main_v48) = Cert.Spec.conv128 (Cert.Spec.mm1 (V0 (Proc.devRef .tc main_arg0)) (V0 (Proc.devRef .tc main_arg2))) (Cert.Spec.withLoops (Cert.Spec.idxRow0 (V0 (Proc.devRef .tc main_arg1)))) (Cert.Spec.withLoops (Cert.Spec.idxRow1 (V0 (Proc.devRef .tc main_arg1)))) (V0 (Proc.devRef .tc main_arg3)) := by
  unfold val3
  rw [conv1_v48, val2_v4, val2_v1, val2_v3, val2_same V0 main_arg3 (by decide) (by decide)]

/-- The first layer. -/
theorem val4_v74 : val4 V0 (Proc.devRef .tc main_v74) = Cert.Spec.layer1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val4
  rw [bn1_v74, val3_v48, val3_same V0 main_arg4 (by decide) (by decide) (by decide), val3_same V0 main_arg5 (by decide) (by decide) (by decide)]
  rfl
theorem val5_v74 : val5 V0 (Proc.devRef .tc main_v74) = Cert.Spec.layer1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := (opsMm2_keep (val4 V0) main_v74 (by decide)).trans (val4_v74 V0)
theorem val7_v74 : val7 V0 (Proc.devRef .tc main_v74) = Cert.Spec.layer1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (opsBn2_keep (val6 V0) main_v74 (by decide)).trans ((opsConv2_keep (val5 V0) main_v74 (by decide)).trans (val5_v74 V0))

/-- The second linear map. -/
theorem val5_v75 : val5 V0 (Proc.devRef .tc main_v75) = Cert.Spec.mm2 (Cert.Spec.layer1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) (V0 (Proc.devRef .tc main_arg6)) := by
  unfold val5
  rw [mm2_v75, val4_v74, val4_same V0 main_arg6 (by decide) (by decide) (by decide) (by decide)]

/-- The second convolution. -/
theorem val6_v119 : val6 V0 (Proc.devRef .tc main_v119) = Cert.Spec.conv64 (Cert.Spec.mm2 (Cert.Spec.layer1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) (V0 (Proc.devRef .tc main_arg6))) (Cert.Spec.withLoops (Cert.Spec.idxRow0 (V0 (Proc.devRef .tc main_arg1)))) (Cert.Spec.withLoops (Cert.Spec.idxRow1 (V0 (Proc.devRef .tc main_arg1)))) (V0 (Proc.devRef .tc main_arg7)) := by
  unfold val6
  rw [conv2_v119, val5_v75, val5_v1, val5_v3, val5_same V0 main_arg7 (by decide) (by decide) (by decide) (by decide) (by decide)]

/-- The second layer. -/
theorem val7_v145 : val7 V0 (Proc.devRef .tc main_v145) = Cert.Spec.layer2 (Cert.Spec.layer1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) (V0 (Proc.devRef .tc main_arg1)) (V0 (Proc.devRef .tc main_arg6)) (V0 (Proc.devRef .tc main_arg7)) (V0 (Proc.devRef .tc main_arg8)) (V0 (Proc.devRef .tc main_arg9)) := by
  unfold val7
  rw [bn2_v145, val6_v119, val6_same V0 main_arg8 (by decide) (by decide) (by decide) (by decide) (by decide) (by decide), val6_same V0 main_arg9 (by decide) (by decide) (by decide) (by decide) (by decide) (by decide)]
  rfl

/-- The head. -/
theorem val8_v151 : val8 V0 (Proc.devRef .tc main_v151) = Cert.Spec.final (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold val8
  rw [head_v151, val7_v74, val7_v145, val7_same V0 main_arg0 (by decide) (by decide) (by decide) (by decide) (by decide) (by decide) (by decide), val7_same V0 main_arg10 (by decide) (by decide) (by decide) (by decide) (by decide) (by decide) (by decide), val7_same V0 main_arg11 (by decide) (by decide) (by decide) (by decide) (by decide) (by decide) (by decide)]
  rfl

/-- The whole list is the eight stages in a row. -/
theorem after_ops : after ops V0 = val8 V0 := by
  simp only [ops, Cert.ListParts.after_append]
  rfl

/-- The result buffer ends at the network of the arguments. -/
theorem res_v151 : after ops V0 (Proc.devRef .tc main_v151) = Cert.Spec.final (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  rw [after_ops]; exact val8_v151 V0

/-- No operation writes an argument. -/
theorem res_arg (r : Ref sig .tc) (h1 : r ∉ opsRows_W) (h2 : r ∉ opsMm1_W) (h3 : r ∉ opsConv1_W) (h4 : r ∉ opsBn1_W) (h5 : r ∉ opsMm2_W) (h6 : r ∉ opsConv2_W) (h7 : r ∉ opsBn2_W) (h8 : r ∉ opsHead_W) :
    after ops V0 (Proc.devRef .tc r) = V0 (Proc.devRef .tc r) := by
  rw [after_ops]; exact val8_same V0 r h1 h2 h3 h4 h5 h6 h7 h8

end Compose

/-! ## The run -/

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates with the result buffer at the network of the arguments' launch contents, and the arguments unchanged. -/
theorem run_any (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v151) = Cert.Spec.final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v151).trans (res_v151 (launchContents m c)),
      (h c main_arg0).trans (res_arg (launchContents m c) main_arg0 (by decide) (by decide) (by decide) (by decide) (by decide) (by decide) (by decide) (by decide)),
      (h c main_arg1).trans (res_arg (launchContents m c) main_arg1 (by decide) (by decide) (by decide) (by decide) (by decide) (by decide) (by decide) (by decide)),
      (h c main_arg2).trans (res_arg (launchContents m c) main_arg2 (by decide) (by decide) (by decide) (by decide) (by decide) (by decide) (by decide) (by decide)),
      (h c main_arg3).trans (res_arg (launchContents m c) main_arg3 (by decide) (by decide) (by decide) (by decide) (by decide) (by decide) (by decide) (by decide)),
      (h c main_arg4).trans (res_arg (launchContents m c) main_arg4 (by decide) (by decide) (by decide) (by decide) (by decide) (by decide) (by decide) (by decide)),
      (h c main_arg5).trans (res_arg (launchContents m c) main_arg5 (by decide) (by decide) (by decide) (by decide) (by decide) (by decide) (by decide) (by decide)),
      (h c main_arg6).trans (res_arg (launchContents m c) main_arg6 (by decide) (by decide) (by decide) (by decide) (by decide) (by decide) (by decide) (by decide)),
      (h c main_arg7).trans (res_arg (launchContents m c) main_arg7 (by decide) (by decide) (by decide) (by decide) (by decide) (by decide) (by decide) (by decide)),
      (h c main_arg8).trans (res_arg (launchContents m c) main_arg8 (by decide) (by decide) (by decide) (by decide) (by decide) (by decide) (by decide) (by decide)),
      (h c main_arg9).trans (res_arg (launchContents m c) main_arg9 (by decide) (by decide) (by decide) (by decide) (by decide) (by decide) (by decide) (by decide)),
      (h c main_arg10).trans (res_arg (launchContents m c) main_arg10 (by decide) (by decide) (by decide) (by decide) (by decide) (by decide) (by decide) (by decide)),
      (h c main_arg11).trans (res_arg (launchContents m c) main_arg11 (by decide) (by decide) (by decide) (by decide) (by decide) (by decide) (by decide) (by decide))⟩)
    (run_seq scopedRefs_eq scopedSems_eq defs main (fun _ => ops) main_eq (fun _ => ops_sub) m ρ (fun _ => ops_fresh))

/-- The same over the extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v151) = Cert.Spec.final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  run_any m ρ

end Cert.ReferenceIdeal.RunH

end
-- ==== Proof.LibGcnLayer.lean ====
/-
  The algebra of one graph-convolution layer on the extended reals.

  A layer sends node features `X` to `out v c = ∑_{e into v} (∑_k X (g e) k · W k c) · (s e · t)`: every edge `e` into node `v`
  carries the transformed features of its source `g e`, scaled by the source's normaliser `s e` and the target's `t`.
  Because the transform is linear, the same number is obtained by aggregating first and transforming afterwards:
  `∑_k ((∑_{e into v} X (g e) k · s e) · t) · W k c`. On the extended reals this exchange of two finite sums and the
  distribution of the products over them hold when every entry is a real number (at an infinity `(a + b) · c` need not be
  `a · c + b · c`), so the law is stated for entries that are real, and proved by moving the whole expression into `ℝ`.
-/
import Idealize.ShloMosaic.PureOps.Ideal

open scoped BigOperators

namespace Cert.GcnLaw

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- THE LAYER LAW: aggregating the scaled source features over the edges into a node and then applying the linear
    transform equals transforming each source's features and then aggregating with the edge weights `s e · t`,
    when all entries are real. `S` is the set of edges into the node, `a e k` the source features of edge `e`,
    `s e` the source's normaliser, `t` the node's own, `W k` one column of the transform. -/
theorem layer_law {E K : Type*} [Fintype K] (S : Finset E) (a : E → K → EReal) (s : E → EReal) (t : EReal)
    (W : K → EReal) (ha : ∀ e k, IsReal (a e k)) (hs : ∀ e, IsReal (s e)) (ht : IsReal t) (hW : ∀ k, IsReal (W k)) :
    ∑ k, ((∑ e ∈ S, a e k * s e) * t) * W k = ∑ e ∈ S, (∑ k, a e k * W k) * (s e * t) := by
  choose a' ha' using ha
  choose s' hs' using hs
  obtain ⟨t', rfl⟩ := ht
  choose W' hW' using hW
  have hL : ∑ k, ((∑ e ∈ S, a e k * s e) * (t' : EReal)) * W k
      = ((∑ k, ((∑ e ∈ S, a' e k * s' e) * t') * W' k : ℝ) : EReal) := by
    rw [coe_sum]
    refine Finset.sum_congr rfl fun k _ => ?_
    rw [EReal.coe_mul, EReal.coe_mul, coe_sum, hW' k]
    congr 2
    refine Finset.sum_congr rfl fun e _ => ?_
    rw [EReal.coe_mul, ha' e k, hs' e]
  have hR : ∑ e ∈ S, (∑ k, a e k * W k) * (s e * (t' : EReal))
      = ((∑ e ∈ S, (∑ k, a' e k * W' k) * (s' e * t') : ℝ) : EReal) := by
    rw [coe_sum]
    refine Finset.sum_congr rfl fun e _ => ?_
    rw [EReal.coe_mul, EReal.coe_mul, coe_sum, hs' e]
    congr 1
    refine Finset.sum_congr rfl fun k _ => ?_
    rw [EReal.coe_mul, ha' e k, hW' k]
  rw [hL, hR]
  congr 1
  simp only [Finset.sum_mul, Finset.mul_sum]
  rw [Finset.sum_comm]
  refine Finset.sum_congr rfl fun e _ => Finset.sum_congr rfl fun k _ => ?_
  ring

end Cert.GcnLaw
-- ==== Proof.RealBasics.lean ====
import proofs.«178479_j10943576671010_1_alg».proof.Proof.Spec
import proofs.«178479_j10943576671010_1_alg».proof.Proof.LibGcnLayer
import Idealize.ShloMosaic.PureOps.Ideal.Laws
import Idealize.ShloMosaic.Lib.ValueIdx
import Idealize.ShloMosaic.Lib.Pipeline.Value

/-!
# Arrays of real numbers

On the extended reals a product does not distribute over a sum at the infinities, so every algebraic step of the
network's normalisation is taken on entries that are real numbers.  This file fixes the predicate "every entry of the
array is a real number", evaluates the four bit patterns the network's stages mention (`0`, `1`, `100000`, and a
positive real close to `10⁻⁵`), and shows that the predicate is kept by each array operation the stages are composed
of: the elementwise sum, difference, product and maximum, a selection between two arrays, every re-indexing (broadcast,
reshape, gather), the division by a nonzero real constant, a sum along axes from a real start, an accumulating scatter,
and a contraction of two arrays.
-/

noncomputable section

open scoped BigOperators

namespace Cert.Reals

open Idealize.ShloMosaic Idealize.ShloMosaic.ValueIdx Cert.GcnLaw Cert.Spec

/-- Every entry of the array is a real number. -/
def RealArr {s : Shape} (x : FV Ideal s) : Prop := ∀ i, IsReal (x i : EReal)

/-! ## The bit patterns -/

/-- `0x47C35000` is the real number `100000`. -/
theorem ofBits_100000 : Ideal.ofBits .f32 0x47C35000#32 = ((100000 : ℝ) : EReal) := by
  simp [Ideal.ofBits, Ideal.ieee]
  rw [← EReal.coe_mul]
  norm_num

/-- `0x3F800000` is `1`. -/
theorem ofBits_one : Ideal.ofBits .f32 0x3F800000#32 = (1 : EReal) := by
  simp [Ideal.ofBits, Ideal.ieee]
  rw [← EReal.coe_mul, ← EReal.coe_one]
  norm_num

/-- `0x3727C5AC` is a positive real number. -/
theorem ofBits_eps : ∃ r : ℝ, 0 < r ∧ Ideal.ofBits .f32 0x3727C5AC#32 = (r : EReal) := by
  simp [Ideal.ofBits, Ideal.ieee]
  exact ⟨_, by positivity, (EReal.coe_mul _ _).symm⟩

/-! ## Real numbers under the scalar operations -/

theorem isReal_sub {x y : EReal} (hx : IsReal x) (hy : IsReal y) : IsReal (x - y) := by
  obtain ⟨a, rfl⟩ := hx; obtain ⟨b, rfl⟩ := hy; exact ⟨a - b, (EReal.coe_sub a b).symm⟩

/-- A real number divided by a nonzero real number is real. -/
theorem isReal_div_coe {x : EReal} (hx : IsReal x) {y : ℝ} (hy : y ≠ 0) : IsReal (Ideal.div x (y : EReal)) := by
  rw [Ideal.div_coe hy]; exact hx.mul (IsReal.coe _)

/-- The reciprocal square root of a positive real number is the real number `(√r)⁻¹`. -/
theorem rsqrt_of_pos {r : ℝ} (hr : 0 < r) : Ideal.rsqrt (r : EReal) = (((Real.sqrt r)⁻¹ : ℝ) : EReal) := by
  rw [Ideal.rsqrt_coe, if_neg (not_lt.mpr hr.le), if_neg hr.ne']

theorem isReal_rsqrt_of_pos {r : ℝ} (hr : 0 < r) : IsReal (Ideal.rsqrt (r : EReal)) := by
  rw [rsqrt_of_pos hr]; exact IsReal.coe _

/-! ## Arrays of real numbers under the array operations -/

section Arrays
variable {s t : Shape}

theorem RealArr.addf {x y : FVec Ideal s .f32} (hx : RealArr x) (hy : RealArr y) : RealArr (addf x y) :=
  fun i => (hx i).add (hy i)

theorem RealArr.subf {x y : FVec Ideal s .f32} (hx : RealArr x) (hy : RealArr y) : RealArr (subf x y) :=
  fun i => isReal_sub (hx i) (hy i)

theorem RealArr.mulf {x y : FVec Ideal s .f32} (hx : RealArr x) (hy : RealArr y) : RealArr (mulf x y) :=
  fun i => (hx i).mul (hy i)

theorem RealArr.maximumf {x y : FVec Ideal s .f32} (hx : RealArr x) (hy : RealArr y) : RealArr (maximumf x y) :=
  fun i => (hx i).max (hy i)

theorem RealArr.select (c : IVec s 1) {x y : FVec Ideal s .f32} (hx : RealArr x) (hy : RealArr y) : RealArr (select c x y) := by
  intro i
  show IsReal (if c i = 1 then x i else y i)
  split
  · exact hx i
  · exact hy i

/-- A broadcast repeats entries of its operand. -/
theorem RealArr.broadcastInDim (dims : Fin s.rank → Fin t.rank) (h : s.BroadcastsInDim t dims) {x : FVec Ideal s .f32}
    (hx : RealArr x) : RealArr (Idealize.ShloMosaic.broadcastInDim t dims h x) :=
  fun _ => hx _

/-- A reshape lists the entries of its operand. -/
theorem RealArr.shapeCast (h : s.ShapeCasts t) {x : FVec Ideal s .f32} (hx : RealArr x) : RealArr (Idealize.ShloMosaic.shapeCast t x h) :=
  fun _ => hx _

/-- A gather reads entries of its operand. -/
theorem RealArr.gather {si : Shape} {w : Nat} (d : GatherDims s si t) (idx : IVec si w) {x : FVec Ideal s .f32} (hx : RealArr x) :
    RealArr (Host.gather d x idx) :=
  fun _ => hx _

/-- A constant whose pattern is a real number, repeated over an array. -/
theorem RealArr.splat (b : (⟨0, ![]⟩ : Shape).BroadcastsInDim s ![]) {bits : BitVec 32} (hb : IsReal (Ideal.ofBits .f32 bits)) :
    RealArr (Idealize.ShloMosaic.broadcastInDim s ![] b (constant (F := Ideal) ⟨0, ![]⟩ .f32 bits)) :=
  fun _ => hb

theorem isReal_zero_bits : IsReal (Ideal.ofBits .f32 0x00000000#32) := by rw [Ideal.ofBits_zero_f32]; exact IsReal.zero
theorem isReal_one_bits : IsReal (Ideal.ofBits .f32 0x3F800000#32) := by rw [ofBits_one]; exact ⟨1, rfl⟩
theorem isReal_100000_bits : IsReal (Ideal.ofBits .f32 0x47C35000#32) := by rw [ofBits_100000]; exact IsReal.coe _
theorem isReal_eps_bits : IsReal (Ideal.ofBits .f32 0x3727C5AC#32) := by
  obtain ⟨r, -, h⟩ := ofBits_eps; rw [h]; exact IsReal.coe _

/-- The quotient by the constant `100000`. -/
theorem RealArr.divf_100000 (b : (⟨0, ![]⟩ : Shape).BroadcastsInDim s ![]) {x : FVec Ideal s .f32} (hx : RealArr x) :
    RealArr (Host.divf (F := Ideal) x (Idealize.ShloMosaic.broadcastInDim s ![] b (constant (F := Ideal) ⟨0, ![]⟩ .f32 0x47C35000#32))) := by
  intro i
  show IsReal (Ideal.div (x i) (Ideal.ofBits .f32 0x47C35000#32))
  rw [ofBits_100000]
  exact isReal_div_coe (hx i) (by norm_num)

/-- A sum along axes, started from a real number. -/
theorem RealArr.reduceAdd {axes : List (Fin s.rank)} {u : Shape} (h : s.ReducesTo axes t) (hu : 0 < u.numel)
    {x : FVec Ideal s .f32} {init : FVec Ideal u .f32} (hx : RealArr x) (hinit : RealArr init) :
    RealArr (Host.reduceAdd (F := Ideal) x init h hu) := by
  intro j
  show IsReal (Ideal.hostReduceAdd h x (init (Shape.Idx.first hu)) j)
  unfold Ideal.hostReduceAdd
  exact (hinit _).add (IsReal.sum _ _ fun i _ => hx i)

/-- An accumulating scatter of real updates into a real operand. -/
theorem RealArr.scatterAdd {si u : Shape} {w : Nat} (d : ScatterDims s si u) (idx : IVec si w) {x : FVec Ideal s .f32}
    {upd : FVec Ideal u .f32} (hx : RealArr x) (hupd : RealArr upd) : RealArr (Host.scatterAdd (F := Ideal) d x idx upd) := by
  intro i
  show IsReal (Ideal.hostScatterAdd d x idx upd i)
  unfold Ideal.hostScatterAdd
  exact (hx i).add (IsReal.sum _ _ fun j _ => hupd j)

/-- A contraction of two real arrays. -/
theorem RealArr.dotGeneral {sl sr : Shape} (d : DotDims sl sr t) (prec : Option ContractPrecision) {x : FVec Ideal sl .f32}
    {y : FVec Ideal sr .f32} (hx : RealArr x) (hy : RealArr y) : RealArr (Host.dotGeneral (F := Ideal) d prec x y) := by
  intro j
  show IsReal (FloatOps.dotGeneral d prec .single x y j)
  rw [Ideal.dotGeneral_apply]
  exact IsReal.sum _ _ fun k _ => (hx _).mul (hy _)

end Arrays

end Cert.Reals

end
-- ==== Proof.RealStats.lean ====
import proofs.«178479_j10943576671010_1_alg».proof.Proof.RealBasics

/-!
# The column statistics of a real array

For an array `x` of real numbers with `100000` rows, the column mean (a finite sum of reals divided by `100000`), the
biased column variance (a finite sum of squares of reals divided by `100000`, hence a nonnegative real) and the
reciprocal standard deviation `(var + ε)^(-1/2)` (the reciprocal square root of a positive real, `ε` being a positive
constant) are arrays of real numbers.
-/

noncomputable section

open scoped BigOperators

namespace Cert.Reals

open Idealize.ShloMosaic Idealize.ShloMosaic.ValueIdx Cert.GcnLaw Cert.Spec Cert.ReferenceIdeal Cert.ReferenceIdeal.Facts₀

/-- A finite sum of squares of real numbers is a nonnegative real number. -/
theorem sum_mul_self {ι : Type*} (S : Finset ι) (f : ι → EReal) (h : ∀ i ∈ S, IsReal (f i)) :
    ∃ r : ℝ, 0 ≤ r ∧ ∑ i ∈ S, f i * f i = (r : EReal) := by
  classical
  induction S using Finset.induction_on with
  | empty => exact ⟨0, le_refl _, by simp⟩
  | insert a S ha ih =>
    obtain ⟨r, hr, e⟩ := ih fun i hi => h i (Finset.mem_insert_of_mem hi)
    obtain ⟨b, hb⟩ := h a (Finset.mem_insert_self a S)
    refine ⟨b * b + r, add_nonneg (mul_self_nonneg b) hr, ?_⟩
    rw [Finset.sum_insert ha, e, hb, ← EReal.coe_mul, ← EReal.coe_add]

/-! ## Width 128 -/

theorem real_rows128 {v : FV Ideal S128} (hv : RealArr v) : RealArr (rows128 v) := by
  unfold rows128
  exact RealArr.broadcastInDim _ _ (RealArr.broadcastInDim _ _ hv)

/-- The column means of a real array are real. -/
theorem real_mean128 {x : FV Ideal S100000x128} (hx : RealArr x) : RealArr (mean128 x) := by
  unfold mean128
  exact RealArr.divf_100000 _ (RealArr.reduceAdd _ _ hx (fun _ => isReal_zero_bits))

/-- The column variance of a real array is a nonnegative real: a sum of squares of reals, divided by `100000`. -/
theorem var128_eq {x : FV Ideal S100000x128} (hx : RealArr x) (q : S128.Idx) :
    ∃ v : ℝ, 0 ≤ v ∧ (var128 x q : EReal) = (v : EReal) := by
  have hd : RealArr (subf x (rows128 (mean128 x))) := hx.subf (real_rows128 (real_mean128 hx))
  obtain ⟨r, hr, e⟩ := sum_mul_self (Finset.univ.filter (fun i => reducesTo_S100000x128_S128_d0.drop i = q))
    (subf x (rows128 (mean128 x))) (fun i _ => hd i)
  refine ⟨r * (1 / 100000), by positivity, ?_⟩
  show Ideal.div (Ideal.hostReduceAdd reducesTo_S100000x128_S128_d0
      (mulf (subf x (rows128 (mean128 x))) (subf x (rows128 (mean128 x)))) (Ideal.ofBits .f32 0x00000000#32) q)
    (Ideal.ofBits .f32 0x47C35000#32) = _
  rw [ofBits_100000, Ideal.div_coe (by norm_num), Ideal.ofBits_zero_f32]
  unfold Ideal.hostReduceAdd
  rw [zero_add]
  show (∑ i ∈ Finset.univ.filter (fun i => reducesTo_S100000x128_S128_d0.drop i = q),
      (subf x (rows128 (mean128 x)) i : EReal) * (subf x (rows128 (mean128 x)) i : EReal)) * _ = _
  rw [e, ← EReal.coe_mul]

theorem real_var128 {x : FV Ideal S100000x128} (hx : RealArr x) : RealArr (var128 x) := fun q => by
  obtain ⟨v, -, e⟩ := var128_eq hx q
  exact ⟨v, e⟩

theorem var128_nonneg {x : FV Ideal S100000x128} (hx : RealArr x) (q : S128.Idx) : (0 : EReal) ≤ var128 x q := by
  obtain ⟨v, hv, e⟩ := var128_eq hx q
  rw [e]
  exact EReal.coe_nonneg.mpr hv

/-- The reciprocal standard deviation of a real array is real: the variance plus a positive constant is positive. -/
theorem real_rstd128 {x : FV Ideal S100000x128} (hx : RealArr x) : RealArr (rstd128 x) := fun q => by
  obtain ⟨v, hv, e⟩ := var128_eq hx q
  obtain ⟨ε, hε, eε⟩ := ofBits_eps
  show IsReal (Ideal.rsqrt ((var128 x q : EReal) + Ideal.ofBits .f32 0x3727C5AC#32))
  rw [e, eε, ← EReal.coe_add]
  exact isReal_rsqrt_of_pos (by positivity)

/-! ## Width 64 -/

theorem real_rows64 {v : FV Ideal S64} (hv : RealArr v) : RealArr (rows64 v) := by
  unfold rows64
  exact RealArr.broadcastInDim _ _ (RealArr.broadcastInDim _ _ hv)

/-- The column means of a real array are real. -/
theorem real_mean64 {x : FV Ideal S100000x64} (hx : RealArr x) : RealArr (mean64 x) := by
  unfold mean64
  exact RealArr.divf_100000 _ (RealArr.reduceAdd _ _ hx (fun _ => isReal_zero_bits))

/-- The column variance of a real array is a nonnegative real: a sum of squares of reals, divided by `100000`. -/
theorem var64_eq {x : FV Ideal S100000x64} (hx : RealArr x) (q : S64.Idx) :
    ∃ v : ℝ, 0 ≤ v ∧ (var64 x q : EReal) = (v : EReal) := by
  have hd : RealArr (subf x (rows64 (mean64 x))) := hx.subf (real_rows64 (real_mean64 hx))
  obtain ⟨r, hr, e⟩ := sum_mul_self (Finset.univ.filter (fun i => reducesTo_S100000x64_S64_d0.drop i = q))
    (subf x (rows64 (mean64 x))) (fun i _ => hd i)
  refine ⟨r * (1 / 100000), by positivity, ?_⟩
  show Ideal.div (Ideal.hostReduceAdd reducesTo_S100000x64_S64_d0
      (mulf (subf x (rows64 (mean64 x))) (subf x (rows64 (mean64 x)))) (Ideal.ofBits .f32 0x00000000#32) q)
    (Ideal.ofBits .f32 0x47C35000#32) = _
  rw [ofBits_100000, Ideal.div_coe (by norm_num), Ideal.ofBits_zero_f32]
  unfold Ideal.hostReduceAdd
  rw [zero_add]
  show (∑ i ∈ Finset.univ.filter (fun i => reducesTo_S100000x64_S64_d0.drop i = q),
      (subf x (rows64 (mean64 x)) i : EReal) * (subf x (rows64 (mean64 x)) i : EReal)) * _ = _
  rw [e, ← EReal.coe_mul]

theorem real_var64 {x : FV Ideal S100000x64} (hx : RealArr x) : RealArr (var64 x) := fun q => by
  obtain ⟨v, -, e⟩ := var64_eq hx q
  exact ⟨v, e⟩

theorem var64_nonneg {x : FV Ideal S100000x64} (hx : RealArr x) (q : S64.Idx) : (0 : EReal) ≤ var64 x q := by
  obtain ⟨v, hv, e⟩ := var64_eq hx q
  rw [e]
  exact EReal.coe_nonneg.mpr hv

/-- The reciprocal standard deviation of a real array is real: the variance plus a positive constant is positive. -/
theorem real_rstd64 {x : FV Ideal S100000x64} (hx : RealArr x) : RealArr (rstd64 x) := fun q => by
  obtain ⟨v, hv, e⟩ := var64_eq hx q
  obtain ⟨ε, hε, eε⟩ := ofBits_eps
  show IsReal (Ideal.rsqrt ((var64 x q : EReal) + Ideal.ofBits .f32 0x3727C5AC#32))
  rw [e, eε, ← EReal.coe_add]
  exact isReal_rsqrt_of_pos (by positivity)

end Cert.Reals

end
-- ==== Proof.BnLaw.lean ====
import proofs.«178479_j10943576671010_1_alg».proof.Proof.RealStats
import Idealize.ShloMosaic.Lib.ValueLayout

/-!
# The normalisation in its two arrangements

With the column mean `m`, the reciprocal standard deviation `r`, and the parameters `γ`, `β`, the normalisation
followed by `max(·, 0)` is written either as `((x − m) · r) · γ + β` or as `x · (γ · r) + (β − m · (γ · r))`.  On real
numbers the two are equal by the ring laws; on the extended reals the products do not distribute at the infinities, so
the law is stated for arrays of real numbers, where `m` and `r` are real as well.
-/

noncomputable section

namespace Cert.Reals

open Idealize.ShloMosaic Idealize.ShloMosaic.ValueIdx Cert.GcnLaw Cert.Spec Cert.ReferenceIdeal Cert.ReferenceIdeal.Facts₀

/-- The law on real numbers, stated on their images in the extended reals. -/
theorem bn_scalar (a m r γ β : ℝ) :
    max ((a : EReal) * ((γ : EReal) * (r : EReal)) + ((β : EReal) - (m : EReal) * ((γ : EReal) * (r : EReal)))) 0
      = max ((((a : EReal) - (m : EReal)) * (r : EReal)) * (γ : EReal) + (β : EReal)) 0 := by
  congr 1
  rw [← EReal.coe_mul, ← EReal.coe_mul, ← EReal.coe_mul, ← EReal.coe_sub, ← EReal.coe_add, ← EReal.coe_sub, ← EReal.coe_mul,
    ← EReal.coe_mul, ← EReal.coe_add]
  congr 1
  ring

/-! ## Width 128 -/

/-- A vector over the columns repeated down the rows reads, at `(p, q)`, the vector at `q`. -/
theorem rows128_apply (v : FV Ideal S128) (p : Fin 100000) (q : Fin 128) : rows128 v (ix2 p q) = v (ix1 q) := by
  unfold rows128
  rw [broadcastInDim_apply _ bcast_S1x128_S100000x128_0_1 _ (ix2 p q) (ix2 (0 : Fin 1) q) (fun a => by
        match a with
        | ⟨0, _⟩ => show 0 = if (1 : Nat) = 1 then 0 else p.val; rw [if_pos rfl]
        | ⟨1, _⟩ => show q.val = if (128 : Nat) = 1 then 0 else q.val; rw [if_neg (by decide)]),
    broadcastInDim_apply _ bcast_S128_S1x128_1 _ (ix2 (0 : Fin 1) q) (ix1 q) (fun a => by
        match a with
        | ⟨0, _⟩ => show q.val = if (128 : Nat) = 1 then 0 else q.val; rw [if_neg (by decide)])]

/-- The two arrangements of the normalisation agree on real arrays. -/
theorem bn_law128 (x : FV Ideal S100000x128) (g be : FV Ideal S128) (hx : RealArr x) (hg : RealArr g)
    (hbe : RealArr be) : bnKer128 x (scale128 x g) (shift128 x g be) = bnRef128 x g be := by
  funext i
  obtain ⟨p, q, rfl⟩ : ∃ (p : Fin 100000) (q : Fin 128), i = ix2 p q := ⟨i 0, i 1, eq_ix2 i⟩
  have hs : scale128 x g (ix2 (0 : Fin 1) q) = (g (ix1 q) : EReal) * (rstd128 x (ix1 q) : EReal) := by
    unfold scale128
    exact shapeCast_a_1a_apply _ _ 0 q
  have ht : shift128 x g be (ix2 (0 : Fin 1) q)
      = (be (ix1 q) : EReal) - (mean128 x (ix1 q) : EReal) * ((g (ix1 q) : EReal) * (rstd128 x (ix1 q) : EReal)) := by
    unfold shift128
    exact shapeCast_a_1a_apply _ _ 0 q
  obtain ⟨a, ha⟩ := hx (ix2 p q)
  obtain ⟨m, hm⟩ := real_mean128 hx (ix1 q)
  obtain ⟨r, hr⟩ := real_rstd128 hx (ix1 q)
  obtain ⟨γ, hγ⟩ := hg (ix1 q)
  obtain ⟨β, hβ⟩ := hbe (ix1 q)
  show max ((x (ix2 p q) : EReal) * (scale128 x g (ix2 (0 : Fin 1) q) : EReal) + (shift128 x g be (ix2 (0 : Fin 1) q) : EReal)) 0
    = max ((((x (ix2 p q) : EReal) - rows128 (mean128 x) (ix2 p q)) * rows128 (rstd128 x) (ix2 p q)) * rows128 g (ix2 p q)
        + rows128 be (ix2 p q)) (Ideal.ofBits .f32 0x00000000#32)
  rw [hs, ht, rows128_apply, rows128_apply, rows128_apply, rows128_apply, Ideal.ofBits_zero_f32, ha, hm, hr, hγ, hβ]
  exact bn_scalar a m r γ β

/-- The normalised array is real. -/
theorem real_bnRef128 (x : FV Ideal S100000x128) (g be : FV Ideal S128) (hx : RealArr x) (hg : RealArr g)
    (hbe : RealArr be) : RealArr (bnRef128 x g be) := by
  unfold bnRef128
  exact RealArr.maximumf
    (RealArr.addf (RealArr.mulf (RealArr.mulf (hx.subf (real_rows128 (real_mean128 hx))) (real_rows128 (real_rstd128 hx)))
      (real_rows128 hg)) (real_rows128 hbe))
    (RealArr.splat _ isReal_zero_bits)

/-! ## Width 64 -/

/-- A vector over the columns repeated down the rows reads, at `(p, q)`, the vector at `q`. -/
theorem rows64_apply (v : FV Ideal S64) (p : Fin 100000) (q : Fin 64) : rows64 v (ix2 p q) = v (ix1 q) := by
  unfold rows64
  rw [broadcastInDim_apply _ bcast_S1x64_S100000x64_0_1 _ (ix2 p q) (ix2 (0 : Fin 1) q) (fun a => by
        match a with
        | ⟨0, _⟩ => show 0 = if (1 : Nat) = 1 then 0 else p.val; rw [if_pos rfl]
        | ⟨1, _⟩ => show q.val = if (64 : Nat) = 1 then 0 else q.val; rw [if_neg (by decide)]),
    broadcastInDim_apply _ bcast_S64_S1x64_1 _ (ix2 (0 : Fin 1) q) (ix1 q) (fun a => by
        match a with
        | ⟨0, _⟩ => show q.val = if (64 : Nat) = 1 then 0 else q.val; rw [if_neg (by decide)])]

/-- The two arrangements of the normalisation agree on real arrays. -/
theorem bn_law64 (x : FV Ideal S100000x64) (g be : FV Ideal S64) (hx : RealArr x) (hg : RealArr g)
    (hbe : RealArr be) : bnKer64 x (scale64 x g) (shift64 x g be) = bnRef64 x g be := by
  funext i
  obtain ⟨p, q, rfl⟩ : ∃ (p : Fin 100000) (q : Fin 64), i = ix2 p q := ⟨i 0, i 1, eq_ix2 i⟩
  have hs : scale64 x g (ix2 (0 : Fin 1) q) = (g (ix1 q) : EReal) * (rstd64 x (ix1 q) : EReal) := by
    unfold scale64
    exact shapeCast_a_1a_apply _ _ 0 q
  have ht : shift64 x g be (ix2 (0 : Fin 1) q)
      = (be (ix1 q) : EReal) - (mean64 x (ix1 q) : EReal) * ((g (ix1 q) : EReal) * (rstd64 x (ix1 q) : EReal)) := by
    unfold shift64
    exact shapeCast_a_1a_apply _ _ 0 q
  obtain ⟨a, ha⟩ := hx (ix2 p q)
  obtain ⟨m, hm⟩ := real_mean64 hx (ix1 q)
  obtain ⟨r, hr⟩ := real_rstd64 hx (ix1 q)
  obtain ⟨γ, hγ⟩ := hg (ix1 q)
  obtain ⟨β, hβ⟩ := hbe (ix1 q)
  show max ((x (ix2 p q) : EReal) * (scale64 x g (ix2 (0 : Fin 1) q) : EReal) + (shift64 x g be (ix2 (0 : Fin 1) q) : EReal)) 0
    = max ((((x (ix2 p q) : EReal) - rows64 (mean64 x) (ix2 p q)) * rows64 (rstd64 x) (ix2 p q)) * rows64 g (ix2 p q)
        + rows64 be (ix2 p q)) (Ideal.ofBits .f32 0x00000000#32)
  rw [hs, ht, rows64_apply, rows64_apply, rows64_apply, rows64_apply, Ideal.ofBits_zero_f32, ha, hm, hr, hγ, hβ]
  exact bn_scalar a m r γ β

/-- The normalised array is real. -/
theorem real_bnRef64 (x : FV Ideal S100000x64) (g be : FV Ideal S64) (hx : RealArr x) (hg : RealArr g)
    (hbe : RealArr be) : RealArr (bnRef64 x g be) := by
  unfold bnRef64
  exact RealArr.maximumf
    (RealArr.addf (RealArr.mulf (RealArr.mulf (hx.subf (real_rows64 (real_mean64 hx))) (real_rows64 (real_rstd64 hx)))
      (real_rows64 hg)) (real_rows64 hbe))
    (RealArr.splat _ isReal_zero_bits)

end Cert.Reals

end
-- ==== Proof.RealConv.lean ====
import proofs.«178479_j10943576671010_1_alg».proof.Proof.RealBasics

/-!
# The linear maps and the graph convolution keep arrays real

A matrix product of real arrays is real: each entry is a finite sum of products.  For the convolution, whatever the
index vectors: the in-degree is a finite sum of ones; `max(deg, 1)` is at least `1`, so its reciprocal square root is
real, and `dinv` selects between it and `0`; an edge weight is a product of two entries of `dinv`; a message is an
entry of the features times an edge weight; the aggregate at a node is a finite sum of messages; the bias is added
last.
-/

noncomputable section

namespace Cert.Reals

open Idealize.ShloMosaic Idealize.ShloMosaic.ValueIdx Cert.GcnLaw Cert.Spec Cert.ReferenceIdeal Cert.ReferenceIdeal.Facts₀

/-! ## The linear maps -/

theorem real_mm1 {x : FV Ideal S100000x256} {w : FV Ideal S256x128} (hx : RealArr x) (hw : RealArr w) :
    RealArr (mm1 x w) := by
  unfold mm1
  exact RealArr.dotGeneral _ _ hx hw

theorem real_mm2 {x : FV Ideal S100000x128} {w : FV Ideal S128x64} (hx : RealArr x) (hw : RealArr w) :
    RealArr (mm2 x w) := by
  unfold mm2
  exact RealArr.dotGeneral _ _ hx hw

/-! ## The symmetric normalisation -/

/-- The in-degrees: ones summed into zeros. -/
theorem real_deg (d : IV Ideal S1700000) : RealArr (deg (F := Ideal) d) := by
  unfold deg
  exact RealArr.scatterAdd _ _ (RealArr.splat _ isReal_zero_bits) (RealArr.splat _ isReal_one_bits)

/-- The reciprocal square root of `max(x, 1)` for real `x`: the maximum is at least `1`. -/
theorem real_rsqrt_max_one {s : Shape} (b : (⟨0, ![]⟩ : Shape).BroadcastsInDim s ![]) {x : FVec Ideal s .f32}
    (hx : RealArr x) :
    RealArr (Host.rsqrt (F := Ideal) (maximumf x
      (Idealize.ShloMosaic.broadcastInDim s ![] b (constant (F := Ideal) ⟨0, ![]⟩ .f32 0x3F800000#32)))) := by
  intro i
  obtain ⟨a, ha⟩ := hx i
  show IsReal (Ideal.rsqrt (max (x i : EReal) (Ideal.ofBits .f32 0x3F800000#32)))
  have hm : max (a : EReal) ((1 : ℝ) : EReal) = ((max a 1 : ℝ) : EReal) :=
    (Monotone.map_max (f := fun r : ℝ => (r : EReal)) (fun _ _ h => EReal.coe_le_coe_iff.mpr h)).symm
  rw [ha, ofBits_one, ← EReal.coe_one, hm]
  exact isReal_rsqrt_of_pos (lt_of_lt_of_le one_pos (le_max_right a 1))

theorem real_dinv (d : IV Ideal S1700000) : RealArr (dinv (F := Ideal) d) := by
  unfold dinv
  exact RealArr.select _ (real_rsqrt_max_one _ (real_deg d)) (RealArr.broadcastInDim _ _ (fun _ => isReal_zero_bits))

/-- The edge weights. -/
theorem real_norm (s d : IV Ideal S1700000) : RealArr (Cert.Spec.norm (F := Ideal) s d) := by
  unfold Cert.Spec.norm
  exact RealArr.mulf (RealArr.gather _ _ (real_dinv d)) (RealArr.gather _ _ (real_dinv d))

theorem real_normCol (s d : IV Ideal S1700000) : RealArr (normCol (F := Ideal) s d) := by
  unfold normCol
  exact RealArr.broadcastInDim _ _ (real_norm s d)

/-! ## Width 128 -/

theorem real_conv128 {h : FV Ideal S100000x128} {b : FV Ideal S128} (hh : RealArr h) (hb : RealArr b)
    (s d : IV Ideal S1700000) : RealArr (conv128 h s d b) := by
  unfold conv128
  exact RealArr.addf
    (RealArr.scatterAdd _ _ (RealArr.splat _ isReal_zero_bits)
      (RealArr.mulf (RealArr.gather _ _ hh) (RealArr.broadcastInDim _ _ (real_normCol s d))))
    (RealArr.broadcastInDim _ _ (RealArr.broadcastInDim _ _ hb))

/-! ## Width 64 -/

theorem real_conv64 {h : FV Ideal S100000x64} {b : FV Ideal S64} (hh : RealArr h) (hb : RealArr b)
    (s d : IV Ideal S1700000) : RealArr (conv64 h s d b) := by
  unfold conv64
  exact RealArr.addf
    (RealArr.scatterAdd _ _ (RealArr.splat _ isReal_zero_bits)
      (RealArr.mulf (RealArr.gather _ _ hh) (RealArr.broadcastInDim _ _ (real_normCol s d))))
    (RealArr.broadcastInDim _ _ (RealArr.broadcastInDim _ _ hb))

end Cert.Reals

end
-- ==== Proof.RealLayers.lean ====
import proofs.«178479_j10943576671010_1_alg».proof.Proof.BnLaw
import proofs.«178479_j10943576671010_1_alg».proof.Proof.RealConv

/-!
# The two layers keep arrays real

A layer is a linear map, a graph convolution and a normalisation followed by `max(·, 0)`; each keeps real arrays
real, so the layer does, whatever the edge list.
-/

noncomputable section

namespace Cert.Reals

open Idealize.ShloMosaic Cert.Spec Cert.ReferenceIdeal

/-- What the first convolution leaves is real. -/
theorem real_pre1 {x : FV Ideal S100000x256} {w1 : FV Ideal S256x128} {b1 : FV Ideal S128} (e : IV Ideal S2x1600000)
    (hx : RealArr x) (hw1 : RealArr w1) (hb1 : RealArr b1) :
    RealArr (conv128 (mm1 x w1) (src e) (dst e) b1) :=
  real_conv128 (real_mm1 hx hw1) hb1 _ _

theorem real_layer1 {x : FV Ideal S100000x256} {w1 : FV Ideal S256x128} {b1 g1 be1 : FV Ideal S128}
    (e : IV Ideal S2x1600000) (hx : RealArr x) (hw1 : RealArr w1) (hb1 : RealArr b1) (hg1 : RealArr g1)
    (hbe1 : RealArr be1) : RealArr (layer1 x e w1 b1 g1 be1) := by
  unfold layer1
  exact real_bnRef128 _ _ _ (real_pre1 e hx hw1 hb1) hg1 hbe1

/-- What the second convolution leaves is real. -/
theorem real_pre2 {y : FV Ideal S100000x128} {w2 : FV Ideal S128x64} {b2 : FV Ideal S64} (e : IV Ideal S2x1600000)
    (hy : RealArr y) (hw2 : RealArr w2) (hb2 : RealArr b2) :
    RealArr (conv64 (mm2 y w2) (src e) (dst e) b2) :=
  real_conv64 (real_mm2 hy hw2) hb2 _ _

theorem real_layer2 {y : FV Ideal S100000x128} {w2 : FV Ideal S128x64} {b2 g2 be2 : FV Ideal S64}
    (e : IV Ideal S2x1600000) (hy : RealArr y) (hw2 : RealArr w2) (hb2 : RealArr b2) (hg2 : RealArr g2)
    (hbe2 : RealArr be2) : RealArr (layer2 y e w2 b2 g2 be2) := by
  unfold layer2
  exact real_bnRef64 _ _ _ (real_pre2 e hy hw2 hb2) hg2 hbe2

end Cert.Reals

end
-- ==== Proof.PreReal.lean ====
/-
  From the precondition to real entries.

  The precondition says that, on every device, the conjunction of "every entry of `|x|` is below `+∞`", taken over the
  eleven float arguments `x`, is true. On the extended reals `|x| = max x (-x)` is below `+∞` exactly when `x` is neither
  infinity, that is, when `x` is a real number. So under the precondition every entry of every float argument is real.
-/
import proofs.«178479_j10943576671010_1_alg».proof.Defs
import proofs.«178479_j10943576671010_1_alg».proof.Proof.Gen.Pre_finite_inputs
import proofs.«178479_j10943576671010_1_alg».proof.Proof.Gen.KernelIdeal
import proofs.«178479_j10943576671010_1_alg».proof.Proof.RealBasics
import Idealize.ShloMosaic.Lib.ReduceAll

noncomputable section

namespace Cert.Reals

open Idealize.ShloMosaic Idealize.ShloMosaic.ValueIdx Cert.GcnLaw

/-- The shape of rank zero has a single index. -/
instance : Subsingleton Cert.Pre_finite_inputs.S_.Idx := ⟨fun a b => funext fun d => d.elim0⟩

/-- The bit pattern `0x7F800000` is `+∞`. -/
theorem ofBits_inf : Ideal.ofBits .f32 0x7F800000#32 = (⊤ : EReal) := by simp [Ideal.ofBits, Ideal.ieee]

/-- An extended real whose absolute value `max x (-x)` compares below `+∞` is a real number: at `⊥` the maximum is
    `-⊥ = ⊤`, at `⊤` it is `⊤`. -/
theorem isReal_of_abs_lt_inf (x : Ideal .f32)
    (h : FloatOps.cmpf .olt (FloatOps.hostAbsf x) (FloatOps.ofBits (F := Ideal) .f32 0x7F800000#32) = 1#1) : IsReal (x : EReal) := by
  change Ideal.cmp .olt (max (x : EReal) (-(x : EReal))) (Ideal.ofBits .f32 0x7F800000#32) = 1#1 at h
  rw [ofBits_inf] at h
  unfold Ideal.cmp at h
  have hlt : max (x : EReal) (-(x : EReal)) < ⊤ := by
    by_contra hn
    simp [hn] at h
  induction x using EReal.rec with
  | bot => simp at hlt
  | coe r => exact ⟨r, rfl⟩
  | top => simp at hlt

/-- ONE CONJUNCT: if the conjunction over all entries of "`|x|` is below `+∞`" is true, every entry of `x` is real. -/
theorem realArr_of_all_finite {s : Shape} {axes : List (Fin s.rank)} (x : FVec Ideal s .f32)
    (b : Cert.Pre_finite_inputs.S_.BroadcastsInDim s (![] : Fin 0 → Fin s.rank)) (init : IVec Cert.Pre_finite_inputs.S_ 1)
    (h : s.ReducesTo axes Cert.Pre_finite_inputs.S_) (hu : 0 < Cert.Pre_finite_inputs.S_.numel) (j : Cert.Pre_finite_inputs.S_.Idx)
    (e : Host.reduce IntOp.andi
        (cmpf .olt (Host.absf x) (broadcastInDim s ![] b (constant (F := Ideal) Cert.Pre_finite_inputs.S_ .f32 0x7F800000#32))) init h hu j = 1#1) :
    RealArr x :=
  fun i => isReal_of_abs_lt_inf (x i) (Host.reduce_andi_all _ init h hu j e i)

/-- THE PRECONDITION DECODED: on every device, every entry of each of the eleven float arguments is a real number. The
    precondition's value at the one index of its rank-zero result is a conjunction of eleven conjunctions over all entries;
    each conjunct gives the entries of one argument. -/
theorem pre_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    RealArr (m ((c.tc : Thread Cert.KernelIdeal.nD Cert.KernelIdeal.τ).loc Cert.KernelIdeal.main_arg0))
      ∧ RealArr (m ((c.tc : Thread Cert.KernelIdeal.nD Cert.KernelIdeal.τ).loc Cert.KernelIdeal.main_arg2))
      ∧ RealArr (m ((c.tc : Thread Cert.KernelIdeal.nD Cert.KernelIdeal.τ).loc Cert.KernelIdeal.main_arg3))
      ∧ RealArr (m ((c.tc : Thread Cert.KernelIdeal.nD Cert.KernelIdeal.τ).loc Cert.KernelIdeal.main_arg4))
      ∧ RealArr (m ((c.tc : Thread Cert.KernelIdeal.nD Cert.KernelIdeal.τ).loc Cert.KernelIdeal.main_arg5))
      ∧ RealArr (m ((c.tc : Thread Cert.KernelIdeal.nD Cert.KernelIdeal.τ).loc Cert.KernelIdeal.main_arg6))
      ∧ RealArr (m ((c.tc : Thread Cert.KernelIdeal.nD Cert.KernelIdeal.τ).loc Cert.KernelIdeal.main_arg7))
      ∧ RealArr (m ((c.tc : Thread Cert.KernelIdeal.nD Cert.KernelIdeal.τ).loc Cert.KernelIdeal.main_arg8))
      ∧ RealArr (m ((c.tc : Thread Cert.KernelIdeal.nD Cert.KernelIdeal.τ).loc Cert.KernelIdeal.main_arg9))
      ∧ RealArr (m ((c.tc : Thread Cert.KernelIdeal.nD Cert.KernelIdeal.τ).loc Cert.KernelIdeal.main_arg10))
      ∧ RealArr (m ((c.tc : Thread Cert.KernelIdeal.nD Cert.KernelIdeal.τ).loc Cert.KernelIdeal.main_arg11)) := by
  have e := congrFun (h c) ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨e0, e2⟩, e3⟩, e4⟩, e5⟩, e6⟩, e7⟩, e8⟩, e9⟩, e10⟩, e11⟩ := e
  exact ⟨realArr_of_all_finite _ _ _ _ _ _ e0,
    realArr_of_all_finite _ _ _ _ _ _ e2,
    realArr_of_all_finite _ _ _ _ _ _ e3,
    realArr_of_all_finite _ _ _ _ _ _ e4,
    realArr_of_all_finite _ _ _ _ _ _ e5,
    realArr_of_all_finite _ _ _ _ _ _ e6,
    realArr_of_all_finite _ _ _ _ _ _ e7,
    realArr_of_all_finite _ _ _ _ _ _ e8,
    realArr_of_all_finite _ _ _ _ _ _ e9,
    realArr_of_all_finite _ _ _ _ _ _ e10,
    realArr_of_all_finite _ _ _ _ _ _ e11⟩

end Cert.Reals

end
-- ==== Proof.lean ====
/-
  The two-layer graph network, tiled and plain: the certificate's five claims.

  The tiled program runs five kernel regions among stretches of host operations.  Its frame, at the word level and at
  the ideal instance, is the launch theorem for a list of segments over the buffer contents at every boundary
  (`Fr.frame`); the same run names the result array (`Fr.run_result`).  The plain program is straight-line host code; its
  run ends with the result at `Spec.final` of the arguments.  At the ideal instance the tiled program's result is the
  same `Spec.final` (`Fr.kernel_value`): its kernels compute the same linear maps, the host stretches are the same
  convolutions, and its arrangement of the normalisation, `x · (γ · rstd) + (β − mean · (γ · rstd))`, agrees with
  `((x − mean) · rstd) · γ + β` wherever the convolution's output, the mean, `rstd`, `γ` and `β` are real — which they are
  when every float input is finite (`pre_real`, the realness lemmas, `bn_law`).  The idealization rewrote nothing, so
  `preserves` is `True`.
-/
import proofs.«178479_j10943576671010_1_alg».proof.Defs
import proofs.«178479_j10943576671010_1_alg».proof.Proof.K.Run
import proofs.«178479_j10943576671010_1_alg».proof.Proof.KI.Run
import proofs.«178479_j10943576671010_1_alg».proof.Proof.KI.Value
import proofs.«178479_j10943576671010_1_alg».proof.Proof.RefRun
import proofs.«178479_j10943576671010_1_alg».proof.Proof.RealLayers
import proofs.«178479_j10943576671010_1_alg».proof.Proof.PreReal
import proofs.«178479_j10943576671010_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunH.run m ρ)

/-- Under finite inputs the convolutions' outputs are real, so the two arrangements of the normalisation agree, and the
    tiled program's result is the network of its arguments. -/
theorem kernel_final (m : (ℓ : Loc Cert.KernelIdeal.nD Cert.KernelIdeal.τ Cert.KernelIdeal.sig) → Buf (Elt Ideal) ℓ)
    (ρ : Dev Cert.KernelIdeal.nD → PrngReg)
    (hpre : Cert.Pre_KernelIdeal (hPre_finite_inputs := Cert.Pre_finite_inputs.Gen.facts) m) (c : Dev Cert.KernelIdeal.nD) :
    Cert.KernelIdeal.Fr.W13 m ρ c (Proc.devRef .tc Cert.KernelIdeal.main_v134)
      = Cert.Spec.final (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  obtain ⟨r0, r2, r3, r4, r5, r6, r7, r8, r9, r10, r11⟩ := Cert.Reals.pre_real m hpre c
  have hc1 := Cert.Reals.real_pre1 (m ((c.tc : Thread Cert.KernelIdeal.nD Cert.KernelIdeal.τ).loc Cert.KernelIdeal.main_arg1)) r0 r2 r3
  have hy1 := Cert.Reals.real_layer1 (m ((c.tc : Thread Cert.KernelIdeal.nD Cert.KernelIdeal.τ).loc Cert.KernelIdeal.main_arg1)) r0 r2 r3 r4 r5
  have hc2 := Cert.Reals.real_pre2 (m ((c.tc : Thread Cert.KernelIdeal.nD Cert.KernelIdeal.τ).loc Cert.KernelIdeal.main_arg1)) hy1 r6 r7
  exact Cert.KernelIdeal.Fr.kernel_value m ρ c (Cert.Reals.bn_law128 _ _ _ hc1 r4 r5) (Cert.Reals.bn_law64 _ _ _ hc2 r8 r9)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Fr.W13 m ρ c (Proc.devRef .tc Cert.KernelIdeal.main_v134),
    Cert.KernelIdeal.Fr.run_result m ρ, ?_⟩
  refine (θ_run Cert.ReferenceIdeal.defs _ _).mono (fun r h c => ⟨(h c).1.trans ?_, (h c).2⟩)
    (Cert.ReferenceIdeal.RunH.run m' ρ')
  obtain ⟨a0, a1, a2, a3, a4, a5, a6, a7, a8, a9, a10, a11⟩ := hagree c
  rw [a0, a1, a2, a3, a4, a5, a6, a7, a8, a9, a10, a11]
  exact (kernel_final m ρ hpre c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
